-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x131072 : Shape := ⟨2, ![1024, 131072]⟩
abbrev S_ : Shape := ⟨0, ![]⟩

class Facts : Prop where
  bcast_S_S1024x131072 : S_.BroadcastsInDim S1024x131072 (![] : Fin 0 → Fin S1024x131072.rank)
  reducesTo_S1024x131072_S_d0_1 : S1024x131072.ReducesTo [0, 1] S_
  h_S_ : 0 < S_.numel

variable [Facts]

def fn {F : FTy → Type} [FloatOps F] (main_arg0 : FVec F S1024x131072 .f32) : IVec S_ 1 :=
  let main_v0 : FVec F S1024x131072 .f32 := Host.absf main_arg0
  let main_cst : FVec F S_ .f32 := constant S_ .f32 0x7F800000#32
  let main_v1 : FVec F S1024x131072 .f32 := broadcastInDim S1024x131072 ![] bcast_S_S1024x131072 main_cst
  let main_v2 : IVec S1024x131072 1 := cmpf .olt main_v0 main_v1
  let main_c : IVec S_ 1 := constantI S_ 1 1#1
  let main_v3 : IVec S_ 1 := (fun x v => Host.reduce IntOp.andi x v reducesTo_S1024x131072_S_d0_1 h_S_) main_v2 main_c
  main_v3
-- ==== Kernel.lean ====
abbrev S1024x131072 : Shape := ⟨2, ![1024, 131072]⟩
abbrev S1x131072 : Shape := ⟨2, ![1, 131072]⟩
abbrev S1024x2048 : Shape := ⟨2, ![1024, 2048]⟩
abbrev S1x2048 : Shape := ⟨2, ![1, 2048]⟩
abbrev S2048 : Shape := ⟨1, ![2048]⟩
abbrev S131072 : Shape := ⟨1, ![131072]⟩
abbrev S_ : Shape := ⟨0, ![]⟩
abbrev S1 : Shape := ⟨1, ![1]⟩

abbrev nBuf : Space → Nat
  | .hbm => 19
  | .vmem => 6
  | .smem => 1
  | _ => 0

abbrev bufTy : (tb : Table) → Fin (tcTables nBuf tb) → BufTy
  | .hbm, ⟨0, _⟩ => ⟨S1024x131072, .f32⟩
  | .hbm, ⟨1, _⟩ => ⟨S1x131072, .f32⟩
  | .hbm, ⟨2, _⟩ => ⟨S131072, .f32⟩
  | .hbm, ⟨3, _⟩ => ⟨S_, .f32⟩
  | .hbm, ⟨4, _⟩ => ⟨S131072, .f32⟩
  | .hbm, ⟨5, _⟩ => ⟨S131072, .i1⟩
  | .hbm, ⟨6, _⟩ => ⟨S131072, .i32⟩
  | .hbm, ⟨7, _⟩ => ⟨S_, .i1⟩
  | .hbm, ⟨8, _⟩ => ⟨S_, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1024x131072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .smem, ⟨0, _⟩ => ⟨S1, .i32⟩
  | _, _ => ⟨S1024x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_c_0 : Ref sig .tc := ⟨.hbm, 9, rfl⟩
abbrev main_call0_v0 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v11 : Ref sig .tc := ⟨.hbm, 18, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .tc := ⟨.vmem, 4, rfl⟩
abbrev cc1_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

abbrev pre1 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k1_mult1 (i : grid1.Coords) : BitVec 32 :=
  let arg0 : BitVec 32 := BitVec.ofNat 32 (i 0).val
  let c2048_i32 : BitVec 32 := 2048#32
  let v0 : BitVec 32 := Scalar.muli arg0 c2048_i32
  v0
def k1_off1 (i : grid1.Coords) : Fin 2 → Nat :=
  let c0_i32_3 : BitVec 32 := 0#32
  let arg0 : BitVec 32 := BitVec.ofNat 32 (i 0).val
  let c2048_i32 : BitVec 32 := 2048#32
  let v0 : BitVec 32 := Scalar.muli arg0 c2048_i32
  let v1 : BitVec 32 := v0
  ![0, v1.toNat]
def k1_off2 (i : grid1.Coords) : Fin 2 → Nat :=
  let c0_i32_5 : BitVec 32 := 0#32
  let arg0 : BitVec 32 := BitVec.ofNat 32 (i 0).val
  let c2048_i32 : BitVec 32 := 2048#32
  let v0 : BitVec 32 := Scalar.muli arg0 c2048_i32
  let v1 : BitVec 32 := v0
  ![0, v1.toNat]

class Facts₀ : Prop where
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  natLt_1_32 : 1 < 32
  inb_S1x2048_S1x2048_0_0 : ∀ a, (![0, 0] : Fin 2 → Nat) a + S1x2048.size a ≤ S1x2048.size a
  h_S1x2048 : 0 < S1x2048.numel
  shapeCasts_S1x131072_S131072 : S1x131072.ShapeCasts S131072
  bcast_S_S131072 : S_.BroadcastsInDim S131072 (![] : Fin 0 → Fin S131072.rank)
  reducesTo_S131072_S_d0 : S131072.ReducesTo [0] S_
  h_S_ : 0 < S_.numel
  shapeCasts_S_S1 : S_.ShapeCasts S1
  inb_S1_S1_0 : ∀ a, (![0] : Fin 1 → Nat) a + S1.size a ≤ S1.size a
  numel1_S1 : S1.numel = 1
  iota_S1x2048_d1_w32 : S1x2048.Iotas .tc 32 [1]
  broadcasts_S1x2048_S1024x2048 : S1x2048.Broadcasts S1024x2048
  shapeCasts_S1024x2048_S1024x2048 : S1024x2048.ShapeCasts S1024x2048
  hcc1_scratch2 : 4 + S_.numel ≤ 5
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x131072.size a
  hwx0_0 : ∀ i : grid0.Coords, EltTy.bits .f32 = 32 ∨ (Rect.block (s := S1024x131072) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x131072.size a
  hwx0_1 : ∀ i : grid0.Coords, EltTy.bits .f32 = 32 ∨ (Rect.block (s := S1x131072) S1x2048.size (cc0_transform_1 i) (hinb0_1 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S1024x2048.size a ≤ S1024x131072.size a
  k1_off2_inb : ∀ i : grid1.Coords, ∀ a, (k1_off2 i) a + S1024x2048.size a ≤ S1024x131072.size a

variable [Facts₀]

abbrev cc1_scratch2 : DmaSems sig S_ := SemArray.consecutive 4 S_ hcc1_scratch2

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1 : Fin 0 → Pipeline.WinSpec sig grid1.rank := fun  | ⟨_, h⟩ => absurd h (Nat.not_lt_zero _)
theorem hcount1 : ∀ w, grid1.bufCount (spec1 w).reads (spec1 w).sync = (spec1 w).nbuf := fun  | ⟨_, h⟩ => absurd h (Nat.not_lt_zero _)
abbrev ix1 (pf : pre1.Contents (Elt F)) : (w : Fin 0) → grid1.Coords → Fin (spec1 w).shape.rank → Nat := fun  | ⟨_, h⟩ => absurd h (Nat.not_lt_zero _)
theorem hreads1 : ∀ (pf : pre1.Contents (Elt F)) w (i i' : grid1.Coords), (∀ a, (spec1 w).reads a = true → i a = i' a) → ix1 pf w i = ix1 pf w i' := fun pf => fun  | ⟨_, h⟩ => absurd h (Nat.not_lt_zero _)
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun  | ⟨_, h⟩ => absurd h (Nat.not_lt_zero _)
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun  | ⟨_, h⟩ => absurd h (Nat.not_lt_zero _)

class Facts : Prop extends Facts₀ where
  harr1 : ∀ w, (spec1 w).arr.IsWhole

variable [Facts]
-- ==== ReferenceIdeal.lean ====
abbrev S1024x131072 : Shape := ⟨2, ![1024, 131072]⟩
abbrev S_ : Shape := ⟨0, ![]⟩
abbrev S131072 : Shape := ⟨1, ![131072]⟩
abbrev S1x131072 : Shape := ⟨2, ![1, 131072]⟩

abbrev nBuf : Space → Nat
  | .hbm => 28
  | .vmem => 0
  | .smem => 0
  | _ => 0

abbrev bufTy : (tb : Table) → Fin (tcTables nBuf tb) → BufTy
  | .hbm, ⟨0, _⟩ => ⟨S1024x131072, .f32⟩
  | .hbm, ⟨1, _⟩ => ⟨S_, .f32⟩
  | .hbm, ⟨2, _⟩ => ⟨S1024x131072, .f32⟩
  | .hbm, ⟨3, _⟩ => ⟨S1024x131072, .i1⟩
  | .hbm, ⟨4, _⟩ => ⟨S_, .i1⟩
  | .hbm, ⟨5, _⟩ => ⟨S131072, .i1⟩
  | .hbm, ⟨6, _⟩ => ⟨S131072, .i1⟩
  | .hbm, ⟨7, _⟩ => ⟨S131072, .i32⟩
  | .hbm, ⟨8, _⟩ => ⟨S_, .i1⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i1⟩
  | .hbm, ⟨24, _⟩ => ⟨S131072, .f32⟩
  | .hbm, ⟨25, _⟩ => ⟨S1x131072, .f32⟩
  | .hbm, ⟨26, _⟩ => ⟨S1024x131072, .f32⟩
  | .hbm, ⟨27, _⟩ => ⟨S1024x131072, .f32⟩
  | _, _ => ⟨S1024x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_c : Ref sig .tc := ⟨.hbm, 8, rfl⟩
abbrev main_call0_c_0 : Ref sig .tc := ⟨.hbm, 9, rfl⟩
abbrev main_call0_v1_0 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_c_3 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S1024x131072 : S_.BroadcastsInDim S1024x131072 (![] : Fin 0 → Fin S1024x131072.rank)
  reducesTo_S1024x131072_S131072_d0 : S1024x131072.ReducesTo [0] S131072
  h_S_ : 0 < S_.numel
  reducesTo_S131072_S_d0 : S131072.ReducesTo [0] S_
  bcast_S_S131072 : S_.BroadcastsInDim S131072 (![] : Fin 0 → Fin S131072.rank)
  bcast_S131072_S1x131072_1 : S131072.BroadcastsInDim S1x131072 (![1] : Fin 1 → Fin S1x131072.rank)
  bcast_S1x131072_S1024x131072_0_1 : S1x131072.BroadcastsInDim S1024x131072 (![0, 1] : Fin 2 → Fin S1024x131072.rank)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

class Facts : Prop extends Facts₀ where

variable [Facts]
-- ==== Proof.Kernel.Alg.lean ====
/-
  The user algebra of this program's separation logic: the pipeline library's rounds copy beside the transfers' counters
  (the second kernel starts and waits for transfers of its own, on a semaphore of its own). Every pipeline's proof data is
  stated over this one algebra.
-/
import proofs.«148527_j58789512348330_2_alg».proof.Proof.Kernel.LaunchP
import Idealize.ShloMosaic.Lib.Transfers

noncomputable section

namespace Cert.Kernel.Hand

open Cert.Kernel
open Idealize.ShloMosaic

/-- The rounds copy beside the transfer counters. -/
abbrev UC : Type := UR sig nD τ × Counters

end Cert.Kernel.Hand

end
-- ==== Proof.Kernel.Reg0.lean ====
/-
  The first kernel region (the column-liveness reduce kernel) of the kernel program: what its body leaves in the output
  window's buffer as a function of the input window's block, the body's triple, the region's proof data over arbitrary
  entry contents, and the body obligation — at any float instance.
-/
import proofs.«148527_j58789512348330_2_alg».proof.Proof.Kernel.Alg
import proofs.«148527_j58789512348330_2_alg».proof.Proof.Gen.Kernel.Skeleton
import proofs.«148527_j58789512348330_2_alg».proof.Proof.Gen.Kernel.Points
import Idealize.ShloMosaic.Lib.Pipeline.FrameBody
import Idealize.ShloMosaic.Lib.Tactic

set_option maxRecDepth 16384

noncomputable section

namespace Cert.Kernel.Reg0

open Cert.Kernel Cert.Kernel.Gen Cert.Kernel.GenP Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The body's accesses -/

/-- The whole input buffer, as the rectangle the body loads. -/
abbrev rIn : Rect S1024x2048 := Rect.unit (s := S1024x2048) ![0, 0] S1024x2048.size inb_S1024x2048_S1024x2048_0_0
/-- The whole output buffer, as the rectangle the body loads (a value it never uses) and stores. -/
abbrev rOut : Rect S1x2048 := Rect.unit (s := S1x2048) ![0, 0] S1x2048.size inb_S1x2048_S1x2048_0_0

/-! ## What the body leaves in the output window's buffer -/

/-- The output block as a function of the input block: the canon of the body's one store over the payload of its load. -/
def outBlk (x0 : Vec F S1024x2048 .f32) : Vec F S1x2048 .f32 :=
  View.canon [⟨rOut, k0_pay1 (View.ld x0 rIn)⟩]

/-- The one store is of the whole buffer, so it covers it. -/
theorem cover_out (p0 : Vec F S1x2048 .f32) (y : S1x2048.Idx) :
    ∃ pc ∈ ([⟨rOut, p0⟩] : List (View.Piece (Elt F) S1x2048 .f32)), y ∈ pc.1.set :=
  View.cover_of_tiled [⟨rOut, p0⟩] S1x2048.size (by rfl) y

/-! ## The body's triple -/

set_option maxHeartbeats 1000000 in
/-- The kernel body on whole staging memrefs, the input's at contents `x0` and the output's at anything, runs to the
    continuation holding the input's as it was and the output's at `outBlk x0`. -/
theorem sound_kernel (c : Dev nD) (E : Set ℕ) (i : grid0.Coords)
    (arg1 : Memref sig .tc .vmem S1024x2048 .f32) (harg1 : arg1.IsWhole)
    (arg2 : Memref sig .tc .vmem S1x2048 .f32) (harg2 : arg2.IsWhole)
    (x0 : Vec F S1024x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ K ⟨⟩))
      ⊢ wp frame (wpE (defs₀ (F := F)) Variants.none c none) E (cc0__reduce_kernel i arg1 harg1 arg2 harg2) K := by
  simp only [cc0__reduce_kernel_eq_skeleton]; unfold cc0__reduce_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The windows' blocks and the proof data -/

/-- Window `w`'s block at point `t`, read off the region-entry contents `Vin`. -/
def iblk (c : Dev nD) (Vin : (b : Ref sig .tc) → Buf (Elt F) ((c : Thread nD τ).loc b)) (w : Fin cfg0.W) (t : Fin cfg0.N) :
    ((cfg0.win w).xblock (cfg0.grid.coords t)).Idx → Elt F (cfg0.win w).elt :=
  ((cfg0.win w).blk t).view.read (Elt F) (Vin (Pipeline.arrRef spec0 w))

/-- The region's proof data over any entry contents `Vin`: the arrays as the region finds them; after the body at a
    point the input's buffer at its block and the output's at `outBlk` of it; the invariant the scoped rest and the
    generator register, untouched; nothing owed; full shares. -/
def dat (c : Dev nD) (Vin : (b : Ref sig .tc) → Buf (Elt F) ((c : Thread nD τ).loc b)) :
    Dat τ (Elt F) Unit ℕ UC ℕ cfg0 c where
  A w := Vin (Pipeline.arrRef spec0 w)
  after w t := match w with
    | ⟨0, _⟩ => iblk c Vin 0 t
    | ⟨1, _⟩ => outBlk (iblk c Vin 0 t)
  Φ _ := Pipeline.ΦA spec0 c
  q _ := fullShare
  owed _ := 0

variable (c : Dev nD) (Vin : (b : Ref sig .tc) → Buf (Elt F) ((c : Thread nD τ).loc b))

/-- The proof data's arrays are the entry contents (its definition projected). -/
theorem A_eq (w : Fin cfg0.W) : (dat c Vin).A w = Vin (Pipeline.arrRef spec0 w) := by
  dsimp only [dat]

/-- What the body leaves, window by window. -/
theorem after_0 (t : Fin cfg0.N) : (dat c Vin).after 0 t = iblk c Vin 0 t := by dsimp only [dat]
theorem after_1 (t : Fin cfg0.N) : (dat c Vin).after 1 t = outBlk (iblk c Vin 0 t) := by dsimp only [dat]

/-- The input's current staging buffer holds its block at every point, fetched there or not: the window is uncut and
    never idle, and the body leaves the block in place. -/
theorem before_0 (t : Fin cfg0.N) (d) : (dat c Vin).before 0 t d = iblk c Vin 0 t :=
  ((dat c Vin).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The input window's array ends as it was: it is never written back. -/
theorem arr_in : (dat c Vin).arrAt 0 cfg0.N = Vin main_arg0 :=
  ((dat c Vin).arrAt_in 0 rfl _).trans (A_eq c Vin 0)

/-! ## The body obligation, at a generic point -/

/-- What the body is called with at point `t`, -/
def bodyPre (t : Fin cfg0.N) : sProp 𝕄 :=
  iprop((dat c Vin).Φ t.castSucc ∗ (dat c Vin).owesAt () t.castSucc
    ∗ (∃ d, owns (c : Thread nD τ) (st0_0 t) fullShare ((dat c Vin).before 0 t d))
    ∗ (∃ d, owns (c : Thread nD τ) (st0_1 t) fullShare ((dat c Vin).before 1 t d)))

/-- and what it returns. -/
def bodyPost (t : Fin cfg0.N) : sProp 𝕄 :=
  iprop((dat c Vin).Φ t.succ ∗ (dat c Vin).owesAt () t.succ
    ∗ owns (c : Thread nD τ) (st0_0 t) fullShare ((dat c Vin).after 0 t)
    ∗ owns (c : Thread nD τ) (st0_1 t) fullShare ((dat c Vin).after 1 t))

/-- The body at any point: the input's memref holds its block, so the body's triple applies; the invariant and the
    core's `owes` pass through unread. -/
theorem sound_body (t : Fin cfg0.N) :
    bodyPre c Vin t ⊢ wp frame (wpE (defs₀ (F := F)) Variants.none c none) Set.univ (bodyAt0 t) (fun _ => bodyPost c Vin t) := by
  unfold bodyPre bodyPost bodyAt0
  simp only [before_0]
  rw [show (dat c Vin).Φ t.succ = (dat c Vin).Φ t.castSucc from rfl,
    show (dat c Vin).owesAt () t.succ = (dat c Vin).owesAt () t.castSucc from rfl,
    after_0, after_1]
  iintro ⟨HΦ, Ho, ⟨%d0, H0⟩, ⟨%d1, H1⟩⟩
  iapply (sound_kernel c Set.univ (grid0.coords t) _ _ _ _ (iblk c Vin 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body : BodyObligation (dat (F := F) c Vin) (defs₀ (F := F)) Variants.none () Set.univ := fun t => by
  rw [bigSep_W0, bigSep_W0]
  exact sound_body c Vin t

end Cert.Kernel.Reg0

end
-- ==== Proof.Kernel.Reg1Defs.lean ====
/-
  The second kernel, point by point, as pure functions of the array it rewrites in place.

  At point `i` the body reads the threshold word `kw` from the one-word table and looks at the tile of 2048 columns that
  starts at column 2048·i. Two bits decide what it does: the tile lies wholly at or after the threshold (`bZero`), or it
  straddles it (`bStr`: neither wholly before nor wholly at-or-after). A straddling tile is replaced by its own entries
  multiplied by the row of 0/1 weights "column < threshold" (`stepStr`); a tile at or after the threshold is replaced by
  zeros (`stepZero`); any other tile is left alone. `stepF` is one point, the two decisions in the body's order, and
  `outAt` the array after the first `n` points.
-/
import proofs.«148527_j58789512348330_2_alg».proof.Proof.Kernel.Alg
import proofs.«148527_j58789512348330_2_alg».proof.Proof.Gen.Kernel.Skeleton

noncomputable section

namespace Cert.Kernel.Reg1

open Cert.Kernel Cert.Kernel.Gen Cert.Kernel.GenP Cert.Kernel.Hand
open Idealize.ShloMosaic Idealize.ShloMosaic.TcCoe
open Idealize.SL Idealize.SL.Sem

variable {F : FTy → Type} [FloatOps F]

/-- Memref `M`'s buffer contents on core `c`. -/
abbrev Bf (c : Dev nD) {sp : Space} {S : Shape} {e : EltTy} (M : Memref sig .tc sp S e) : Type := Buf (Elt F) (M.view.loc (c : Thread nD τ))

/-! ## The two decisions -/

/-- The tile's first column, and one past its last, as 32-bit words. -/
abbrev tstart (i : grid1.Coords) : BitVec 32 := Scalar.muli (BitVec.ofNat 32 (i 0).val) 2048#32
abbrev tend (i : grid1.Coords) : BitVec 32 := Scalar.addi (tstart i) 2048#32
/-- The tile lies wholly at or after the threshold. -/
abbrev bZero (i : grid1.Coords) (kw : BitVec 32) : BitVec 1 := Scalar.cmpi .sge (tstart i) kw
/-- The tile straddles the threshold: not wholly before it, not wholly at or after it. -/
abbrev bStr (i : grid1.Coords) (kw : BitVec 32) : BitVec 1 :=
  Scalar.andi (Scalar.xori (Scalar.cmpi .sle (tend i) kw) 1#1) (Scalar.xori (bZero i kw) 1#1)
abbrev cStr (i : grid1.Coords) (kw : BitVec 32) : Prop := Scalar.cmpi .ne (Scalar.extui (bStr i kw)) 0#32 = 1#1
abbrev cZero (i : grid1.Coords) (kw : BitVec 32) : Prop := Scalar.cmpi .ne (Scalar.extui (bZero i kw)) 0#32 = 1#1

/-- The two decisions exclude each other: a straddling tile does not lie wholly at or after the threshold. -/
theorem not_zero_of_str (i : grid1.Coords) (kw : BitVec 32) (h : cStr i kw) : ¬ cZero i kw := by
  unfold cStr bStr at h; unfold cZero
  generalize bZero i kw = b at h ⊢
  generalize Scalar.cmpi .sle (tend i) kw = a at h
  revert h; revert a b; decide

/-! ## What a point leaves in the array -/

/-- The whole scratch block, as the loads and stores address it. -/
abbrev rW : Rect S1024x2048 := Rect.unit (s := S1024x2048) ![0, 0] S1024x2048.size inb_S1024x2048_S1024x2048_0_0
theorem hz : (![0, 0] : Fin S1024x2048.rank → Nat) = fun _ => 0 := by funext a; fin_cases a <;> rfl

/-- The tile of the array at point `i`, as the straddle branch and as the zero branch slice it. -/
abbrev tileS (i : grid1.Coords) : Memref sig .tc .hbm S1024x2048 .f32 :=
  (Memref.whole main_v11).slice (Rect.unit (s := S1024x131072) (k1_off1 i) S1024x2048.size (k1_off1_inb i)) (fun _ => rfl)
abbrev tileZ (i : grid1.Coords) : Memref sig .tc .hbm S1024x2048 .f32 :=
  (Memref.whole main_v11).slice (Rect.unit (s := S1024x131072) (k1_off2 i) S1024x2048.size (k1_off2_inb i)) (fun _ => rfl)

/-- The tile's entries, read out of the array. -/
def tileOf (c : Dev nD) (i : grid1.Coords) (fv : Bf (F := F) c (Memref.whole main_v11)) : S1024x2048.Idx → Elt F .f32 :=
  ReadAs.same.apply ((tileS i).view.read (Elt F) fv)
/-- The array after a straddling point: the tile replaced by its entries times the 0/1 row. -/
def stepStr (c : Dev nD) (i : grid1.Coords) (kw : BitVec 32) (fv : Bf (F := F) c (Memref.whole main_v11)) : Bf (F := F) c (Memref.whole main_v11) :=
  (tileS i).view.write (Elt F) fv (k1_pay1 i kw (tileOf c i fv)) Finset.univ
/-- The array after a point at or after the threshold: the tile replaced by zeros. -/
def stepZero (c : Dev nD) (i : grid1.Coords) (fv : Bf (F := F) c (Memref.whole main_v11)) : Bf (F := F) c (Memref.whole main_v11) :=
  (tileZ i).view.write (Elt F) fv (k1_pay2 (F := F)) Finset.univ

/-- One point: the two decisions in the body's order. -/
def stepF (c : Dev nD) (i : grid1.Coords) (kw : BitVec 32) (fv : Bf (F := F) c (Memref.whole main_v11)) : Bf (F := F) c (Memref.whole main_v11) :=
  if cStr i kw then stepStr c i kw fv else if cZero i kw then stepZero c i fv else fv

/-- Point `n`'s coordinates (any natural number, read modulo the grid's 64 points). -/
def pointOf (n : ℕ) : grid1.Coords := grid1.coords ⟨n % grid1.N, Nat.mod_lt _ (by decide)⟩
theorem pointOf_val (t : Fin grid1.N) : pointOf t.val = grid1.coords t := by
  unfold pointOf; congr 1; exact Fin.ext (Nat.mod_eq_of_lt t.isLt)

/-- The array after the first `n` points, from `x` at entry. -/
def outAt (c : Dev nD) (kw : BitVec 32) (x : Bf (F := F) c (Memref.whole main_v11)) : ℕ → Bf (F := F) c (Memref.whole main_v11)
  | 0 => x
  | n + 1 => stepF c (pointOf n) kw (outAt c kw x n)

end Cert.Kernel.Reg1

end
-- ==== Proof.Kernel.Reg1Run.lean ====
/-
  The second kernel's body, run once at a symbolic grid point, under each decision of its two bits.

  Both of the body's copies — the straddling tile into a scratch buffer and back over itself, or a block of zeros over a
  tile at or after the threshold — are started and waited for inside the point, on the kernel's one semaphore, so
  between points the array is held whole. Each run starts from the table at the threshold word, the array at `fv`, the
  two scratch buffers at anything, the semaphore at zero and the core owing nothing, and ends in the same with the array
  at the step function's value (Reg1Defs: `stepStr`, `stepZero`, or unchanged) and the scratch buffers at something.
  The scratch buffers' earlier contents never reach the array: a whole-block store read back whole is the stored block,
  and a whole-block copy loaded whole is the copied block.
-/
import proofs.«148527_j58789512348330_2_alg».proof.Proof.Kernel.Reg1Defs
import Idealize.ShloMosaic.Lib.Transfers
import Idealize.ShloMosaic.Lib.Writes
import Idealize.ShloMosaic.Lib.Pipeline.FrameBody
import Idealize.ShloMosaic.Lib.Pipeline.Value
import Idealize.ShloMosaic.Lib.Tactic

noncomputable section

namespace Cert.Kernel.Reg1

open Cert.Kernel Cert.Kernel.Gen Cert.Kernel.GenP Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- The whole-block store covers the block. -/
theorem cover (p : S1024x2048.Idx → Elt F .f32) (y : S1024x2048.Idx) :
    ∃ pc ∈ ([⟨rW, p⟩] : List (View.Piece (Elt F) S1024x2048 .f32)), y ∈ pc.1.set :=
  ⟨⟨rW, p⟩, List.mem_singleton_self _, View.mem_set_unit_zero (S := S1024x2048) hz inb_S1024x2048_S1024x2048_0_0 y⟩

/-- A whole-block store into a buffer, read back whole, is the stored block, whatever the buffer held. -/
theorem read_store {sp : Space} (v : View sig .tc sp S1024x2048 .f32) (g : v.ty.Contents (Elt F)) (p : S1024x2048.Idx → Elt F .f32) :
    v.read (Elt F) (v.writes (Elt F) g [(⟨rW, p⟩ : View.Piece (Elt F) S1024x2048 .f32)]) = p :=
  (View.read_writes_eq_canon v g _ (cover p)).trans (View.canon_unit_zero (S := S1024x2048) hz inb_S1024x2048_S1024x2048_0_0 p)

/-- A whole-block copy into a buffer, loaded whole, is the copied block. -/
theorem load_copy {sp : Space} (v : View sig .tc sp S1024x2048 .f32) (g : v.ty.Contents (Elt F)) (p : S1024x2048.Idx → Elt F .f32) :
    v.readAt (Elt F) rW.toLoadRect (v.write (Elt F) g p Finset.univ) = p := by
  show View.ld (v.read (Elt F) (v.write (Elt F) g p Finset.univ)) rW = p
  rw [View.read_write_univ]
  exact View.ld_unit_zero (S := S1024x2048) hz inb_S1024x2048_S1024x2048_0_0 p

section Runs
variable (c : Dev nD) (i : grid1.Coords) (kw : BitVec 32)
  (fv : Bf (F := F) c (Memref.whole main_v11)) (g0 : Bf (F := F) c (Memref.whole cc1_scratch0)) (g1 : Bf (F := F) c (Memref.whole cc1_scratch1))
  (W : Waits sig Unit)

local notation "MK" => cc1__mask_kernel (F := F) i (Memref.whole main_v10) (Memref.isWhole_whole _) (Memref.whole main_v11) (Memref.isWhole_whole _)
  (Memref.whole main_v11) (Memref.isWhole_whole _) (Memref.whole cc1_scratch0) (Memref.isWhole_whole _) (Memref.whole cc1_scratch1) (Memref.isWhole_whole _) cc1_scratch2

/-- What every run starts from: the table at the threshold word, the array, the two scratch buffers, the kernel's semaphore at
    zero, the core owing nothing. -/
abbrev runPre (fv : Bf (F := F) c (Memref.whole main_v11)) : sProp 𝕄 :=
  iprop(pt c (Memref.whole main_v10) (fun _ => kw) ∗ pt c (Memref.whole main_v11) fv ∗ pt c (Memref.whole cc1_scratch0) g0 ∗ pt c (Memref.whole cc1_scratch1) g1
    ∗ semVal ((c : Thread nD τ), SemLoc.dma (4 : DmaSem sig)) 0 ∗ owes (c : Thread nD τ) 0 W)
/-- What every run ends in: the same, the array at `fv'`, the scratch buffers at something, the waits recorded. -/
abbrev runPost (fv' : Bf (F := F) c (Memref.whole main_v11)) : sProp 𝕄 :=
  iprop(pt c (Memref.whole main_v10) (fun _ => kw) ∗ (∃ f, pt c (Memref.whole main_v11) f ∗ ⌜f = fv'⌝) ∗ (∃ g, pt c (Memref.whole cc1_scratch0) g) ∗ (∃ g, pt c (Memref.whole cc1_scratch1) g)
    ∗ semVal ((c : Thread nD τ), SemLoc.dma (4 : DmaSem sig)) 0 ∗ ∃ W', owes (c : Thread nD τ) 0 W')

set_option sl_exec.dmaWindow true in
/-- A tile wholly before the threshold: nothing moves. -/
theorem run_kept (hS : ¬ cStr i kw) (hZ : ¬ cZero i kw) (Q : PUnit → sProp 𝕄) :
    iprop(runPre c kw g0 g1 W fv ∗ (runPost c kw fv -∗ Q ⟨⟩))
      ⊢ wp frame (wpE (defs₀ (F := F)) Variants.none c none) Set.univ MK Q := by
  iintro ⟨⟨Ht, Hv, Hg0, Hg1, Hs, HO⟩, Hk⟩
  sl_exec! (disch := first | assumption | decide)
  sl_step
  iapply Hk
  isplitl [Ht]; · iexact Ht
  isplitl [Hv]; · iexists fv; isplitl [Hv]; · iexact Hv
                  ipureintro; rfl
  isplitl [Hg0]; · iexists g0; iexact Hg0
  isplitl [Hg1]; · iexists g1; iexact Hg1
  isplitl [Hs]; · iexact Hs
  iexists W; iexact HO

set_option sl_exec.dmaWindow true in
/-- A tile wholly at or after the threshold: zeros are stored into the first scratch buffer and copied over the tile. -/
theorem run_zero (hS : ¬ cStr i kw) (hZ : cZero i kw) (Q : PUnit → sProp 𝕄) :
    iprop(runPre c kw g0 g1 W fv ∗ (runPost c kw (stepZero c i fv) -∗ Q ⟨⟩))
      ⊢ wp frame (wpE (defs₀ (F := F)) Variants.none c none) Set.univ MK Q := by
  iintro ⟨⟨Ht, Hv, Hg0, Hg1, Hs, HO⟩, Hk⟩
  sl_exec! (disch := first | assumption | decide)
  sl_step
  iapply Hk
  isplitl [Ht]; · iexact Ht
  isplitl [Hv]
  · iexists _; isplitl [Hv]; · iexact Hv
    ipureintro
    sl_unfold_run_names
    unfold stepZero
    refine congrArg (fun w => (tileZ i).view.write (Elt F) fv w Finset.univ) ?_
    exact read_store (Memref.whole cc1_scratch0).view g0 k1_pay2
  isplitl [Hg0]; · iexists _; iexact Hg0
  isplitl [Hg1]; · iexists g1; iexact Hg1
  isplitl [Hs]; · iexact Hs
  iexists _; iexact HO

set_option sl_exec.dmaWindow true in
/-- A tile straddling the threshold: copied into the second scratch buffer, multiplied by the 0/1 row, copied back. -/
theorem run_str (hS : cStr i kw) (hZ : ¬ cZero i kw) (Q : PUnit → sProp 𝕄) :
    iprop(runPre c kw g0 g1 W fv ∗ (runPost c kw (stepStr c i kw fv) -∗ Q ⟨⟩))
      ⊢ wp frame (wpE (defs₀ (F := F)) Variants.none c none) Set.univ MK Q := by
  iintro ⟨⟨Ht, Hv, Hg0, Hg1, Hs, HO⟩, Hk⟩
  sl_exec! (disch := first | assumption | decide)
  sl_step
  iapply Hk
  isplitl [Ht]; · iexact Ht
  isplitl [Hv]
  · iexists _; isplitl [Hv]; · iexact Hv
    ipureintro
    sl_unfold_run_names
    unfold stepStr tileOf
    refine congrArg (fun w => (tileS i).view.write (Elt F) fv w Finset.univ) ?_
    refine (read_store (Memref.whole cc1_scratch1).view _ _).trans ?_
    exact congrArg₂ (k1_pay1 i) rfl (load_copy (Memref.whole cc1_scratch1).view g1 _)
  isplitl [Hg0]; · iexists g0; iexact Hg0
  isplitl [Hg1]; · iexists _; iexact Hg1
  isplitl [Hs]; · iexact Hs
  iexists _; iexact HO

end Runs

end Cert.Kernel.Reg1

end
-- ==== Proof.Kernel.Reg1Dat.lean ====
/-
  The second kernel's pipeline: its proof data and its body obligation.

  The pipeline has no window: the kernel addresses its array and its table itself. So the proof data names no staged
  block, and everything is in the invariant between points: the one-word table at its contents, the array as the first
  `n` points leave it (`outAt`), the core's scoped buffers at something, the kernel's semaphore at zero. At a point the
  two bits computed from the table's word and the point's first column decide which of the three runs the body is; each
  leaves the array at `stepF` of what it found, which is the invariant at the next point. The core owes nothing throughout.
-/
import proofs.«148527_j58789512348330_2_alg».proof.Proof.Kernel.Reg1Run
import Idealize.ShloMosaic.Lib.ValueIdx

noncomputable section

namespace Cert.Kernel.Reg1

open Cert.Kernel Cert.Kernel.Gen Cert.Kernel.GenP Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ UC ℕ

/-- The table's one word. -/
def kwOf (tbl : pre1.Contents (Elt F)) : BitVec 32 := tbl 0 (ValueIdx.ix1 (0 : Fin 1))
/-- The one-word table has one index. -/
theorem idx1_eq (j : S1.Idx) : j = ValueIdx.ix1 (0 : Fin 1) := by
  rw [ValueIdx.eq_ix1 j]
  exact congrArg (ValueIdx.ix1 (n := 1)) (Fin.ext (Nat.lt_one_iff.mp (j 0).isLt))
theorem tbl0_eq (tbl : pre1.Contents (Elt F)) : tbl 0 = fun _ => kwOf tbl := by
  funext j; exact congrArg (tbl 0) (idx1_eq j)

/-- The one table held whole is the table's buffer held whole. -/
theorem prefHeld1 (c : Dev nD) (tbl : pre1.Contents (Elt F)) :
    (Pipeline.prefHeld (Ix := Unit) (Name := ℕ) (U := UC) (Lvl := ℕ) pre1 c (fun _ => fullShare) tbl : sProp 𝕄) = pt c (Memref.whole main_v10) (tbl 0) := by
  unfold Pipeline.prefHeld
  exact bigSep_univ_eq_bigSepL [(0 : Fin 1)] (by decide) (by decide) _

/-- The invariant before point `n`: the table at its contents, the array after the first `n` points, the scoped buffers at
    something, the kernel's semaphore at zero. -/
def Φ1 (c : Dev nD) (tbl : pre1.Contents (Elt F)) (x : Bf (F := F) c (Memref.whole main_v11)) (n : ℕ) : sProp 𝕄 :=
  iprop(Pipeline.prefHeld (Ix := Unit) (Name := ℕ) (U := UC) (Lvl := ℕ) pre1 c (fun _ => fullShare) tbl
    ∗ pt c (Memref.whole main_v11) (outAt c (kwOf tbl) x n)
    ∗ Pipeline.scopedRest (Ix := Unit) (Name := ℕ) (U := UC) (Lvl := ℕ) (Val := Elt F) spec1 c
    ∗ semVal ((c : Thread nD τ), SemLoc.dma (4 : DmaSem sig)) 0)

/-- The proof data of the second pipeline on core `c`, at admissible table contents `a`, entered with the array at `x`:
    it has no window; its invariant is `Φ1`; it owes nothing. -/
def dat (a : (pcfg1 (F := F)).Adm) (c : Dev nD) (x : Bf (F := F) c (Memref.whole main_v11)) : Dat τ (Elt F) Unit ℕ UC ℕ (cfg1 a) c where
  A w := w.elim0
  after w := w.elim0
  Φ t := Φ1 c a.1 x t.val
  q _ := fullShare
  owed _ := 0

theorem body (a : (pcfg1 (F := F)).Adm) (c : Dev nD) (x : Bf (F := F) c (Memref.whole main_v11)) :
    BodyObligation (dat a c x) (defs₀ (F := F)) Variants.none () Set.univ := fun t => by
  rw [show (Finset.univ : Finset (Fin (cfg1 a).W)) = ∅ from rfl]
  simp only [BI.bigSep_empty]
  show iprop(Φ1 c a.1 x t.val ∗ (dat a c x).owesAt () t.castSucc ∗ emp)
    ⊢ wp frame (wpE (defs₀ (F := F)) Variants.none c none) Set.univ
      (cc1__mask_kernel (F := F) (grid1.coords t) (Memref.whole main_v10) (Memref.isWhole_whole _) (Memref.whole main_v11) (Memref.isWhole_whole _)
        (Memref.whole main_v11) (Memref.isWhole_whole _) (Memref.whole cc1_scratch0) (Memref.isWhole_whole _) (Memref.whole cc1_scratch1) (Memref.isWhole_whole _) cc1_scratch2)
      (fun _ => iprop(Φ1 c a.1 x (t.val + 1) ∗ (dat a c x).owesAt () t.succ ∗ emp))
  have hstep : outAt c (kwOf a.1) x (t.val + 1) = stepF c (grid1.coords t) (kwOf a.1) (outAt c (kwOf a.1) x t.val) := by
    show stepF c (pointOf t.val) _ _ = _
    rw [pointOf_val t]
  unfold Φ1 Dat.owesAt Pipeline.owesWithin
  rw [hstep, prefHeld1, tbl0_eq a.1, scopedRest1_eq]
  rw [show (dat a c x).owed t.castSucc = 0 from rfl, show (dat a c x).owed t.succ = 0 from rfl]
  iintro ⟨⟨Ht, Hv, ⟨Hq0, Hq1, Hq2, Hq3, ⟨%g0, Hg0⟩, ⟨%g1, Hg1⟩⟩, Hs⟩, ⟨%W, -, HO⟩, -⟩
  by_cases hS : cStr (grid1.coords t) (kwOf a.1)
  · have hZ := not_zero_of_str _ _ hS
    iapply (run_str c (grid1.coords t) (kwOf a.1) (outAt c (kwOf a.1) x t.val) g0 g1 W hS hZ _)
    isplitl [Ht Hv Hg0 Hg1 Hs HO]
    · isplitl [Ht]; · iexact Ht
      isplitl [Hv]; · iexact Hv
      isplitl [Hg0]; · iexact Hg0
      isplitl [Hg1]; · iexact Hg1
      isplitl [Hs]; · iexact Hs
      iexact HO
    iintro ⟨Ht, ⟨%f, Hv, %hf⟩, Hg0, Hg1, Hs, ⟨%W', HO⟩⟩
    subst hf
    unfold stepF; rw [if_pos hS]
    isplitl [Ht Hv Hq0 Hq1 Hq2 Hq3 Hg0 Hg1 Hs]
    · isplitl [Ht]; · iexact Ht
      isplitl [Hv]; · iexact Hv
      isplitr [Hs]
      · isplitl [Hq0]; · iexact Hq0
        isplitl [Hq1]; · iexact Hq1
        isplitl [Hq2]; · iexact Hq2
        isplitl [Hq3]; · iexact Hq3
        isplitl [Hg0]; · iexact Hg0
        iexact Hg1
      iexact Hs
    isplitl [HO]
    · iexists W'; isplitr; · ipureintro; exact fun _ _ => Or.inl trivial
      iexact HO
    iempintro
  · by_cases hZ : cZero (grid1.coords t) (kwOf a.1)
    · iapply (run_zero c (grid1.coords t) (kwOf a.1) (outAt c (kwOf a.1) x t.val) g0 g1 W hS hZ _)
      isplitl [Ht Hv Hg0 Hg1 Hs HO]
      · isplitl [Ht]; · iexact Ht
        isplitl [Hv]; · iexact Hv
        isplitl [Hg0]; · iexact Hg0
        isplitl [Hg1]; · iexact Hg1
        isplitl [Hs]; · iexact Hs
        iexact HO
      iintro ⟨Ht, ⟨%f, Hv, %hf⟩, Hg0, Hg1, Hs, ⟨%W', HO⟩⟩
      subst hf
      unfold stepF; rw [if_neg hS, if_pos hZ]
      isplitl [Ht Hv Hq0 Hq1 Hq2 Hq3 Hg0 Hg1 Hs]
      · isplitl [Ht]; · iexact Ht
        isplitl [Hv]; · iexact Hv
        isplitr [Hs]
        · isplitl [Hq0]; · iexact Hq0
          isplitl [Hq1]; · iexact Hq1
          isplitl [Hq2]; · iexact Hq2
          isplitl [Hq3]; · iexact Hq3
          isplitl [Hg0]; · iexact Hg0
          iexact Hg1
        iexact Hs
      isplitl [HO]
      · iexists W'; isplitr; · ipureintro; exact fun _ _ => Or.inl trivial
        iexact HO
      iempintro
    · iapply (run_kept c (grid1.coords t) (kwOf a.1) (outAt c (kwOf a.1) x t.val) g0 g1 W hS hZ _)
      isplitl [Ht Hv Hg0 Hg1 Hs HO]
      · isplitl [Ht]; · iexact Ht
        isplitl [Hv]; · iexact Hv
        isplitl [Hg0]; · iexact Hg0
        isplitl [Hg1]; · iexact Hg1
        isplitl [Hs]; · iexact Hs
        iexact HO
      iintro ⟨Ht, ⟨%f, Hv, %hf⟩, Hg0, Hg1, Hs, ⟨%W', HO⟩⟩
      subst hf
      unfold stepF; rw [if_neg hS, if_neg hZ]
      isplitl [Ht Hv Hq0 Hq1 Hq2 Hq3 Hg0 Hg1 Hs]
      · isplitl [Ht]; · iexact Ht
        isplitl [Hv]; · iexact Hv
        isplitr [Hs]
        · isplitl [Hq0]; · iexact Hq0
          isplitl [Hq1]; · iexact Hq1
          isplitl [Hq2]; · iexact Hq2
          isplitl [Hq3]; · iexact Hq3
          isplitl [Hg0]; · iexact Hg0
          iexact Hg1
        iexact Hs
      isplitl [HO]
      · iexists W'; isplitr; · ipureintro; exact fun _ _ => Or.inl trivial
        iexact HO
      iempintro

end Cert.Kernel.Reg1

end
-- ==== Proof.Kernel.Records.lean ====
/-
  The two kernel regions of @main as segments between the thread states the host operations run in.

  Between two items of @main a core holds every unscoped buffer whole at a valuation, beside the generator register and
  its (empty) debt. The first region reads the argument block by block and leaves an indicator row in its output array;
  its record splits the two windows' arrays out of the held buffers on entry and puts them back, the row in place, on
  exit. The second region has no window: it is handed the one-word table and addresses the result array itself, so its
  record splits exactly those two buffers off the held set — the table to be read, the array to enter the invariant with
  the kernel's semaphore — and leaves every other buffer as one conjunction that bypasses the region and is held at the
  next valuation because that valuation differs from the previous one at the result array only.

  What the regions leave is named first (`row`, `res`), then the table's contents the second pipeline is pinned at
  (`tbl`: what the host operations compute from the row), then both pipelines' proof data, then the two records.
-/
import proofs.«148527_j58789512348330_2_alg».proof.Proof.Kernel.Reg0
import proofs.«148527_j58789512348330_2_alg».proof.Proof.Kernel.Reg1Dat
import proofs.«148527_j58789512348330_2_alg».proof.Proof.Kernel.RegionsP
import Idealize.ShloMosaic.Lib.Pipeline.Frame
import Idealize.ShloMosaic.Lib.Pipeline.Regions
import Idealize.ShloMosaic.Lib.Pipeline.RegionsLoop

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)

variable {F : FTy → Type} [FloatOps F]

local notation "𝕄" => MT nD τ sig Unit (Elt F) ℕ UC ℕ

/-- No core owes another anything: no level is assigned. -/
abbrev L0 : GSem nD τ sig → Finset Unit := fun _ => ∅
abbrev lv0 : GSem nD τ sig → Unit → ℕ := fun _ _ => 0

/-- What rides beside the buffers between @main's items: the generator register at some state, the core owing nothing. -/
abbrev rides (c : Dev nD) : sProp 𝕄 :=
  iprop((∃ r, prngReg c r) ∗ ∃ W, owes (c : Thread nD τ) (0 : CellTallies nD τ sig Unit) W)

variable (m : (ℓ : Loc nD τ sig) → Buf (Elt F) ℓ)

/-- The buffers the first region is entered from: as launched. -/
abbrev Vin0 (c : Dev nD) (b : Ref sig .tc) : Buf (Elt F) ((c : Thread nD τ).loc b) := GenP.V0 m c (Proc.devRef .tc b)

/-- The first region's result row. -/
def row (c : Dev nD) : Buf (Elt F) ((c : Thread nD τ).loc main_v0) := (Reg0.dat c (Vin0 m c)).arrAt 1 cfg0.N

/-- What the regions leave, with only the first region's row named. -/
def outsA : GenP.Outs (F := F) := fun _ r c => Function.update (GenP.V0 m c) (Proc.devRef .tc main_v0) (row m c) (Proc.devRef .tc r)

/-- The table's contents when the second region is entered (the mesh has one device: core 0's). -/
def tbl : pre1.Contents (Elt F) := fun k => GenP.V6 m (outsA m) 0 (Proc.devRef .tc (pre1.ref k))

/-- The array the second region is entered with, and what it leaves there. -/
def x1 (c : Dev nD) : Reg1.Bf (F := F) c (Memref.whole main_v11) := GenP.V6 m (outsA m) c (Proc.devRef .tc main_v11)
def res (c : Dev nD) : Reg1.Bf (F := F) c (Memref.whole main_v11) := Reg1.outAt c (Reg1.kwOf (tbl m)) (x1 m c) 64

/-- What the regions leave in the buffers they may change. -/
def outs : GenP.Outs (F := F) := fun J r c =>
  if J = 7 then Function.update (GenP.V0 m c) (Proc.devRef .tc main_v11) (res m c) (Proc.devRef .tc r) else outsA m J r c

theorem outs_1 (c : Dev nD) : outs m 1 main_v0 c = row m c := by
  unfold outs outsA; rw [if_neg (by decide)]; exact Function.update_self ..
theorem outs_7 (c : Dev nD) : outs m 7 main_v11 c = res m c := by
  unfold outs; rw [if_pos rfl]; exact Function.update_self ..
theorem V6_outs (c : Dev nD) : GenP.V6 m (outs m) c = GenP.V6 m (outsA m) c := by
  have h : outs m 1 main_v0 c = outsA m 1 main_v0 c := by unfold outs; rw [if_neg (by decide)]
  unfold GenP.V6 GenP.V5 GenP.V4 GenP.V3 GenP.V2 GenP.V1; rw [h]

theorem V1_v0 (c : Dev nD) : GenP.V1 m (outs m) c main_v0 = outs m 1 main_v0 c := by
  unfold GenP.V1; exact Function.update_self _ _ _
theorem V7_v11 (c : Dev nD) : GenP.V7 m (outs m) c main_v11 = outs m 7 main_v11 c := by
  unfold GenP.V7; exact Function.update_self _ _ _

/-- The admissible contents of the pipelines' tables: the first has none; the second's is what the host operations leave. -/
def adm : (p : Fin 2) → (pcfgs (F := F) p).Adm
  | ⟨0, _⟩ => cfg0.toPCfg_adm
  | ⟨1, _⟩ => ⟨tbl m, trivial⟩
  | ⟨_ + 2, h⟩ => absurd h (by omega)

/-- The proof data of both pipelines. -/
def pdats : (p : Fin 2) → (c : Dev nD) → Dat τ (Elt F) Unit ℕ UC ℕ (Pipeline.pin (pcfgs (F := F)) (adm m) p) c
  | ⟨0, _⟩ => fun c => Reg0.dat c (Vin0 m c)
  | ⟨1, _⟩ => fun c => Reg1.dat (adm m 1) c (x1 m c)
  | ⟨_ + 2, h⟩ => absurd h (by omega)

/-- What the first region leaves in the unscoped buffers. -/
abbrev Vout0 (c : Dev nD) (b : Ref sig .tc) : Buf (Elt F) ((c : Thread nD τ).loc b) := GenP.V1 m (outs m) c (Proc.devRef .tc b)

theorem hF0 (c : Dev nD) (w : Fin cfg0.W) : (pdats m 0 c).arrAt w cfg0.N = Vout0 m c (Pipeline.arrRef spec0 w) := by
  match w with
  | ⟨0, _⟩ =>
    show (Reg0.dat c (Vin0 m c)).arrAt 0 cfg0.N = GenP.V1 m (outs m) c main_arg0
    rw [Reg0.arr_in, GenP.V1_of m (outs m) c main_arg0 (by decide)]
  | ⟨1, _⟩ =>
    show row m c = GenP.V1 m (outs m) c main_v0
    rw [V1_v0, outs_1]

theorem hrest0 (c : Dev nD) (b : Ref sig .tc) (hb : b ∉ (Finset.univ : Finset (Fin cfg0.W)).image (Pipeline.arrRef spec0)) : Vout0 m c b = Vin0 m c b := by
  refine GenP.V1_of m (outs m) c b (fun h => hb ?_)
  rw [List.mem_singleton] at h; subst h
  exact Finset.mem_image.mpr ⟨1, Finset.mem_univ _, rfl⟩

set_option backward.isDefEq.respectTransparency.types false in
/-- The first region as a segment: entered from the launch contents held, left with the row in `main_v0`. -/
def R0 : RegionSeg (pcfgs (F := F)) (adm m) (pdats m) () (defs₀ (F := F)) Variants.none L0 lv0 0 where
  win := (launch0 (F := F)).win.to₀
  block_pos := (launch0 (F := F)).block_pos
  stage_whole := (launch0 (F := F)).stage_whole
  K := PEmpty
  osem k := k.elim
  ho := Pipeline.OwnSemFacts.none _
  hbody c := (Reg0.body c (Vin0 m c)).loose
  hwaits := Pipeline.hwaits_of_owed_zero _ _ _ _ _ _ 0 (fun c t => rfl)
  pre c := iprop(StableHlo.held (c : Thread nD τ) (Pipeline.ucRefs τ sig) (GenP.V0 m c) ∗ rides c)
  post c := iprop(StableHlo.held (c : Thread nD τ) (Pipeline.ucRefs τ sig) (GenP.V1 m (outs m) c) ∗ rides c)
  X c := iprop(∃ r, prngReg c r)
  Y c := iprop(∃ r, prngReg c r)
  Z c := Pipeline.unscopedRest (Ix := Unit) (Name := ℕ) (U := UC) (Lvl := ℕ) spec0 c (Vin0 m c)
  hentry c := by
    rw [Pipeline.ownSems0_none, ← Pipeline.unscopedBufs_held (Ix := Unit) (Name := ℕ) (U := UC) (Lvl := ℕ) c (GenP.V0 m c)]
    have hsplit := Pipeline.arrays_of_unscopedBufs (p := 0) (pcfgs (F := F)) (adm m) (pdats m) (launch0 (F := F)).win (launch0 (F := F)).arr_whole c
      ((pdats m 0 c).share_full fun _ => rfl) (Vin0 m c) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ Pipeline.ΦA spec0 c
    unfold Pipeline.ΦA
    iintro ⟨Hp, -, Hr⟩
    isplitl [Hr]; · iexact Hr
    iexact Hp
  hout c := by
    rw [Pipeline.ownSems0_none]
    show Pipeline.ΦA spec0 c ⊢ _
    unfold Pipeline.ΦA
    iintro ⟨Hr, Hp⟩
    isplitl [Hp]; · iexact Hp
    isplitr; · iempintro
    iexact Hr
  hexit c := by
    rw [← Pipeline.unscopedBufs_held (Ix := Unit) (Name := ℕ) (U := UC) (Lvl := ℕ) c (GenP.V1 m (outs m) c)]
    have hjoin := Pipeline.unscopedBufs_of_arrays (p := 0) (pcfgs (F := F)) (adm m)
      (Ix := Unit) (Name := ℕ) (U := UC) (Lvl := ℕ)
      (launch0 (F := F)).win (launch0 (F := F)).arr_whole c (pdats m) ((pdats m 0 c).share_full fun _ => rfl) (Vin0 m c) (Vout0 m c) ((pdats m 0 c).arrAt · cfg0.N) (hF0 m c) (hrest0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- The two references the second region touches: its table and its array. -/
def A1 : Finset (DevRef τ sig) := {(Proc.devRef .tc main_v10 : DevRef τ sig), (Proc.devRef .tc main_v11 : DevRef τ sig)}

theorem A1_sub : A1 ⊆ Pipeline.ucRefs τ sig := by
  intro b hb
  rw [A1, Finset.mem_insert, Finset.mem_singleton] at hb
  rcases hb with rfl | rfl
  · exact Finset.mem_filter.mpr ⟨StableHlo.devRef_mem_tcRefs main_v10, by decide⟩
  · exact Finset.mem_filter.mpr ⟨StableHlo.devRef_mem_tcRefs main_v11, by decide⟩

/-- The two held at a valuation, one by one. -/
theorem held_A1 (c : Dev nD) (V : Valuation τ sig (Elt F)) :
    (StableHlo.held (c : Thread nD τ) A1 V : sProp 𝕄)
      = iprop((((c : Thread nD τ).1, (Proc.devRef .tc main_v10 : DevRef τ sig)) ↦{fullShare} V (Proc.devRef .tc main_v10))
          ∗ (((c : Thread nD τ).1, (Proc.devRef .tc main_v11 : DevRef τ sig)) ↦{fullShare} V (Proc.devRef .tc main_v11))) := by
  unfold StableHlo.held A1
  rw [BI.bigSep_insert (by decide), BI.bigSep_singleton]
  rfl

/-- The kernel's own cell is scoped, and no staging cell (the pipeline stages nothing). -/
theorem ownSemFacts1 : Pipeline.OwnSemFacts spec1 (fun _ : Unit => SemLoc.dma (4 : DmaSem sig)) := by decide

/-- The kernel's own cell at zero. -/
theorem ownSems1 (c : Dev nD) :
    (Pipeline.ownSems0 (Ix := Unit) (Name := ℕ) (U := UC) (Lvl := ℕ) (Val := Elt F) (τ := τ) (fun _ : Unit => SemLoc.dma (4 : DmaSem sig)) c : sProp 𝕄)
      = semVal ((c : Thread nD τ), SemLoc.dma (4 : DmaSem sig)) 0 :=
  Pipeline.ownSems0_eq_of_list c (fun _ : Unit => SemLoc.dma (4 : DmaSem sig)) [()] (by decide) (by decide)

set_option backward.isDefEq.respectTransparency.types false in
/-- The second region as a segment: entered from what the host operations leave held, left with the array rewritten. -/
def R1 : RegionSeg (pcfgs (F := F)) (adm m) (pdats m) () (defs₀ (F := F)) Variants.none L0 lv0 1 where
  win := (launch1 (F := F)).win.to₀
  block_pos := (launch1 (F := F)).block_pos
  stage_whole := (launch1 (F := F)).stage_whole
  K := Unit
  osem _ := SemLoc.dma (4 : DmaSem sig)
  ho := ownSemFacts1
  hbody c := (Reg1.body (adm m 1) c (x1 m c)).loose
  hwaits := Pipeline.hwaits_of_owed_zero _ _ _ _ _ _ 1 (fun c t => rfl)
  pre c := iprop(StableHlo.held (c : Thread nD τ) (Pipeline.ucRefs τ sig) (GenP.V6 m (outs m) c) ∗ rides c)
  post c := iprop(StableHlo.held (c : Thread nD τ) (Pipeline.ucRefs τ sig) (GenP.V7 m (outs m) c) ∗ rides c)
  X c := iprop(Reg1.pt c (Memref.whole main_v11) (x1 m c) ∗ semVal ((c : Thread nD τ), SemLoc.dma (4 : DmaSem sig)) 0)
  Y c := iprop(Reg1.pt c (Memref.whole main_v11) (res m c) ∗ Reg1.pt c (Memref.whole main_v10) (tbl m 0))
  Z c := iprop(StableHlo.held (c : Thread nD τ) (Pipeline.ucRefs τ sig \ A1) (GenP.V6 m (outs m) c) ∗ ∃ r, prngReg c r)
  hentry c := by
    have e : (Pipeline.prefHeld (Ix := Unit) (Name := ℕ) (U := UC) (Lvl := ℕ) (pcfgs (F := F) 1).pre c (fun _ => fullShare) (adm m 1).1 : sProp 𝕄)
        = Reg1.pt c (Memref.whole main_v10) (tbl m 0) := Reg1.prefHeld1 c (tbl m)
    have ea : ((pdats m 1 c).arrays (fun x => (pdats m 1 c).arrAt x 0) : sProp 𝕄) = (BI.emp : sProp 𝕄) := by
      unfold Dat.arrays; exact BI.bigSep_empty
    have hc : c = 0 := Subsingleton.elim _ _
    have ht : GenP.V6 m (outs m) c main_v10 = tbl m 0 := by subst hc; rw [V6_outs]; rfl
    have hx : GenP.V6 m (outs m) c main_v11 = x1 m c := by rw [V6_outs]; rfl
    rw [e, ea, ownSems1, StableHlo.held_sub_split (c : Thread nD τ) A1_sub (GenP.V6 m (outs m) c), held_A1, ht, hx]
    iintro ⟨⟨⟨⟨Ht, Hv⟩, Hrest⟩, Hp, HO⟩, Hs, -⟩
    imodintro
    isplitr; · iempintro
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hv Hs]
    · isplitl [Hv]; · iexact Hv
      iexact Hs
    isplitl [Hrest]; · iexact Hrest
    iexact Hp
  hin c := by
    show _ ⊢ Reg1.Φ1 c (tbl m) (x1 m c) 0
    unfold Reg1.Φ1
    iintro ⟨⟨Hv, Hs⟩, Ht, Hr⟩
    isplitl [Ht]; · iexact Ht
    isplitl [Hv]; · iexact Hv
    isplitl [Hr]; · iexact Hr
    iexact Hs
  hout c := by
    rw [ownSems1]
    show Reg1.Φ1 c (tbl m) (x1 m c) 64 ⊢ _
    unfold Reg1.Φ1
    rw [Reg1.prefHeld1]
    iintro ⟨Ht, Hv, Hr, Hs⟩
    isplitl [Hv Ht]
    · isplitl [Hv]; · iexact Hv
      iexact Ht
    isplitl [Hs]; · iexact Hs
    iexact Hr
  hexit c := by
    have hc : c = 0 := Subsingleton.elim _ _
    have ht : GenP.V7 m (outs m) c main_v10 = tbl m 0 := by
      rw [GenP.V7_of m (outs m) c main_v10 (by decide)]; subst hc; rw [V6_outs]; rfl
    have hx : GenP.V7 m (outs m) c main_v11 = res m c := by rw [V7_v11, outs_7]
    have hr : (StableHlo.held (c : Thread nD τ) (Pipeline.ucRefs τ sig \ A1) (GenP.V7 m (outs m) c) : sProp 𝕄)
        = StableHlo.held (c : Thread nD τ) (Pipeline.ucRefs τ sig \ A1) (GenP.V6 m (outs m) c) := by
      unfold StableHlo.held
      refine BI.bigSep_congr fun b hb => ?_
      have hne : b ≠ (Proc.devRef .tc main_v11 : DevRef τ sig) := fun h =>
        (Finset.mem_sdiff.mp hb).2 (by rw [h, A1]; exact Finset.mem_insert_of_mem (Finset.mem_singleton_self _))
      rw [show GenP.V7 m (outs m) c b = GenP.V6 m (outs m) c b from Function.update_of_ne hne _ _]
    rw [StableHlo.held_sub_split (c : Thread nD τ) A1_sub (GenP.V7 m (outs m) c), held_A1, ht, hx, hr]
    iintro ⟨-, HO, ⟨Hv, Ht⟩, Hrest, Hp⟩
    imodintro
    isplitl [Ht Hv Hrest]
    · isplitl [Ht Hv]
      · isplitl [Ht]; · iexact Ht
        iexact Hv
      iexact Hrest
    isplitl [Hp]; · iexact Hp
    unfold Pipeline.Dat.owesAt Pipeline.owesWithin
    icases HO with ⟨%W, -, HO⟩; iexists W; iexact HO

end Cert.Kernel.Hand

end
-- ==== Proof.Kernel.RunCond.lean ====
/-
  The run of @main as a chain of its items — the first kernel region, the host stretches, the second kernel region —, each
  entered from what the one before left: given one record per kernel region, entered from the thread state before it and left
  at the one after it, every weakly fair execution from zero counters terminates, and every final memory holds the result
  array at what the last valuation gives it and the argument array as launched, both read off the last valuation.
-/
import proofs.«148527_j58789512348330_2_alg».proof.Proof.Kernel.RegionsP

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE CONDITIONAL RUN. For any user algebra, level assignment, launch dues and ghost resources, any rest states `E` the
    launch makes on every core at once (`hE0`) and that end owing nothing (`hE2`), any contents the regions leave (`outs`)
    and any proof data: given, per region K, a segment record entered from the thread state before it and left at the one
    after it (`RK`, `hpreK`, `hpostK`), every weakly fair execution of @main from memory `m` with zero counters terminates,
    and every final memory holds the result array `main_v11` at the last valuation's contents and the argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      r.2.mem ((c.tc : Thread nD τ).loc main_v11) = GenP.V7 m outs c main_v11
      ∧ r.2.mem ((c.tc : Thread nD τ).loc main_arg0) = m ((c.tc : Thread nD τ).loc main_arg0)) := by
  refine Pipeline.θ_run_regions_kit_dev (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨hpre0 c, hpost0 c, .rfl, .rfl, .rfl, .rfl, hpre1 c, (hpost1 c).trans (sep_mono .rfl (hE2 c))⟩)
    (hinit := ?_) (QY := fun c s => s.mem ((c.tc : Thread nD τ).loc main_v11) = V7 m outs c main_v11
      ∧ s.mem ((c.tc : Thread nD τ).loc main_arg0) = m ((c.tc : Thread nD τ).loc main_arg0))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result array and the argument, each read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V7_main_arg0 m outs c)⟩
    · iexact HSI

end Cert.Kernel.Hand

end
-- ==== Proof.Kernel.Frame.lean ====
/-
  The kernel program's run: @main as a chain of its items, each entered from what the one before it left.

  The launch hands every core its unscoped buffers at the launch contents, its generator register and an empty debt;
  the first region, five stretches of host operations and the second region follow, the regions by their records
  (Proof/…/Records.lean), the host stretches by their operations over the held buffers; at the end the result array and
  the argument are read off the last valuation. No core owes another anything, so no level is assigned and the only
  ghost state is the pipeline library's at the first region's staging cells, beside the transfer counters the second
  region's two copies use. The frame is the run with the result array forgotten.
-/
import proofs.«148527_j58789512348330_2_alg».proof.Proof.Kernel.Records
import proofs.«148527_j58789512348330_2_alg».proof.Proof.Kernel.RunCond

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)

variable {F : FTy → Type} [FloatOps F]

local notation "𝕄" => MT nD τ sig Unit (Elt F) ℕ UC ℕ

variable (m : (ℓ : Loc nD τ sig) → Buf (Elt F) ℓ)

/-- The launch element: the pipeline library's at the staging cells and the pipelines' transfers; no counter yet. -/
def u₀ : UC :=
  (initOf (Pipeline.cells (Pipeline.pin (pcfgs (F := F)) (adm m)) (cellOf_inj (adm m)))
    (Pipeline.launchToks (Pipeline.pin (pcfgs (F := F)) (adm m)) (cellOf_inj (adm m))), 1)

set_option backward.isDefEq.respectTransparency.types false in
/-- Every weakly fair execution of @main terminates, nothing faulting, with the result array at what the second region
    leaves and the argument as launched. -/
theorem run (ρ : Dev nD → PrngReg) :
    θ_run defs (onTc (τ := τ) (main (F := F))) ⟨m, fun _ => 0, ρ⟩ (fun r => ∀ c : Dev nD,
      r.2.mem ((c.tc : Thread nD τ).loc main_v11) = res m c
      ∧ r.2.mem ((c.tc : Thread nD τ).loc main_arg0) = m ((c.tc : Thread nD τ).loc main_arg0)) := by
  have hrun := run_cond m (EP := embL) (ι := ()) (𝒱₀ := Variants.none) (L := L0) (lv := lv0) (hL := fun _ _ => rfl) (ρ := ρ)
    (outs := outs m) (a := adm m) (pdats := pdats m) (O₀ := fun _ => 0) (G := fun _ => (BI.emp : sProp 𝕄)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => rides c)
    (hE0 := by
      refine Pipeline.initEach L0 lv0 fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := R0 m) (hpre0 := fun c => .rfl) (hpost0 := fun c => .rfl)
    (R1 := R1 m) (hpre1 := fun c => .rfl) (hpost1 := fun c => .rfl)
  exact (θ_run defs _ _).mono (fun r h c => ⟨(h c).1.trans ((V7_v11 m c).trans (outs_7 m c)), (h c).2⟩) hrun

/-- The frame: @main runs to the end and leaves its argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run m ρ)

end Cert.Kernel.Hand

end
-- ==== Proof.KernelIdeal.Alg.lean ====
/-
  The user algebra of this program's separation logic: the pipeline library's rounds copy beside the transfers' counters
  (the second kernel starts and waits for transfers of its own, on a semaphore of its own). Every pipeline's proof data is
  stated over this one algebra.
-/
import proofs.«148527_j58789512348330_2_alg».proof.Proof.KernelIdeal.LaunchP
import Idealize.ShloMosaic.Lib.Transfers

noncomputable section

namespace Cert.KernelIdeal.Hand

open Cert.KernelIdeal
open Idealize.ShloMosaic

/-- The rounds copy beside the transfer counters. -/
abbrev UC : Type := UR sig nD τ × Counters

end Cert.KernelIdeal.Hand

end
-- ==== Proof.KernelIdeal.Reg0.lean ====
/-
  The first kernel region (the column-liveness reduce kernel) of the kernel program: what its body leaves in the output
  window's buffer as a function of the input window's block, the body's triple, the region's proof data over arbitrary
  entry contents, and the body obligation — at any float instance.
-/
import proofs.«148527_j58789512348330_2_alg».proof.Proof.KernelIdeal.Alg
import proofs.«148527_j58789512348330_2_alg».proof.Proof.Gen.KernelIdeal.Skeleton
import proofs.«148527_j58789512348330_2_alg».proof.Proof.Gen.KernelIdeal.Points
import Idealize.ShloMosaic.Lib.Pipeline.FrameBody
import Idealize.ShloMosaic.Lib.Tactic

set_option maxRecDepth 16384

noncomputable section

namespace Cert.KernelIdeal.Reg0

open Cert.KernelIdeal Cert.KernelIdeal.Gen Cert.KernelIdeal.GenP Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The body's accesses -/

/-- The whole input buffer, as the rectangle the body loads. -/
abbrev rIn : Rect S1024x2048 := Rect.unit (s := S1024x2048) ![0, 0] S1024x2048.size inb_S1024x2048_S1024x2048_0_0
/-- The whole output buffer, as the rectangle the body loads (a value it never uses) and stores. -/
abbrev rOut : Rect S1x2048 := Rect.unit (s := S1x2048) ![0, 0] S1x2048.size inb_S1x2048_S1x2048_0_0

/-! ## What the body leaves in the output window's buffer -/

/-- The output block as a function of the input block: the canon of the body's one store over the payload of its load. -/
def outBlk (x0 : Vec F S1024x2048 .f32) : Vec F S1x2048 .f32 :=
  View.canon [⟨rOut, k0_pay1 (View.ld x0 rIn)⟩]

/-- The one store is of the whole buffer, so it covers it. -/
theorem cover_out (p0 : Vec F S1x2048 .f32) (y : S1x2048.Idx) :
    ∃ pc ∈ ([⟨rOut, p0⟩] : List (View.Piece (Elt F) S1x2048 .f32)), y ∈ pc.1.set :=
  View.cover_of_tiled [⟨rOut, p0⟩] S1x2048.size (by rfl) y

/-! ## The body's triple -/

set_option maxHeartbeats 1000000 in
/-- The kernel body on whole staging memrefs, the input's at contents `x0` and the output's at anything, runs to the
    continuation holding the input's as it was and the output's at `outBlk x0`. -/
theorem sound_kernel (c : Dev nD) (E : Set ℕ) (i : grid0.Coords)
    (arg1 : Memref sig .tc .vmem S1024x2048 .f32) (harg1 : arg1.IsWhole)
    (arg2 : Memref sig .tc .vmem S1x2048 .f32) (harg2 : arg2.IsWhole)
    (x0 : Vec F S1024x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ K ⟨⟩))
      ⊢ wp frame (wpE (defs₀ (F := F)) Variants.none c none) E (cc0__reduce_kernel i arg1 harg1 arg2 harg2) K := by
  simp only [cc0__reduce_kernel_eq_skeleton]; unfold cc0__reduce_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The windows' blocks and the proof data -/

/-- Window `w`'s block at point `t`, read off the region-entry contents `Vin`. -/
def iblk (c : Dev nD) (Vin : (b : Ref sig .tc) → Buf (Elt F) ((c : Thread nD τ).loc b)) (w : Fin cfg0.W) (t : Fin cfg0.N) :
    ((cfg0.win w).xblock (cfg0.grid.coords t)).Idx → Elt F (cfg0.win w).elt :=
  ((cfg0.win w).blk t).view.read (Elt F) (Vin (Pipeline.arrRef spec0 w))

/-- The region's proof data over any entry contents `Vin`: the arrays as the region finds them; after the body at a
    point the input's buffer at its block and the output's at `outBlk` of it; the invariant the scoped rest and the
    generator register, untouched; nothing owed; full shares. -/
def dat (c : Dev nD) (Vin : (b : Ref sig .tc) → Buf (Elt F) ((c : Thread nD τ).loc b)) :
    Dat τ (Elt F) Unit ℕ UC ℕ cfg0 c where
  A w := Vin (Pipeline.arrRef spec0 w)
  after w t := match w with
    | ⟨0, _⟩ => iblk c Vin 0 t
    | ⟨1, _⟩ => outBlk (iblk c Vin 0 t)
  Φ _ := Pipeline.ΦA spec0 c
  q _ := fullShare
  owed _ := 0

variable (c : Dev nD) (Vin : (b : Ref sig .tc) → Buf (Elt F) ((c : Thread nD τ).loc b))

/-- The proof data's arrays are the entry contents (its definition projected). -/
theorem A_eq (w : Fin cfg0.W) : (dat c Vin).A w = Vin (Pipeline.arrRef spec0 w) := by
  dsimp only [dat]

/-- What the body leaves, window by window. -/
theorem after_0 (t : Fin cfg0.N) : (dat c Vin).after 0 t = iblk c Vin 0 t := by dsimp only [dat]
theorem after_1 (t : Fin cfg0.N) : (dat c Vin).after 1 t = outBlk (iblk c Vin 0 t) := by dsimp only [dat]

/-- The input's current staging buffer holds its block at every point, fetched there or not: the window is uncut and
    never idle, and the body leaves the block in place. -/
theorem before_0 (t : Fin cfg0.N) (d) : (dat c Vin).before 0 t d = iblk c Vin 0 t :=
  ((dat c Vin).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The input window's array ends as it was: it is never written back. -/
theorem arr_in : (dat c Vin).arrAt 0 cfg0.N = Vin main_arg0 :=
  ((dat c Vin).arrAt_in 0 rfl _).trans (A_eq c Vin 0)

/-! ## The body obligation, at a generic point -/

/-- What the body is called with at point `t`, -/
def bodyPre (t : Fin cfg0.N) : sProp 𝕄 :=
  iprop((dat c Vin).Φ t.castSucc ∗ (dat c Vin).owesAt () t.castSucc
    ∗ (∃ d, owns (c : Thread nD τ) (st0_0 t) fullShare ((dat c Vin).before 0 t d))
    ∗ (∃ d, owns (c : Thread nD τ) (st0_1 t) fullShare ((dat c Vin).before 1 t d)))

/-- and what it returns. -/
def bodyPost (t : Fin cfg0.N) : sProp 𝕄 :=
  iprop((dat c Vin).Φ t.succ ∗ (dat c Vin).owesAt () t.succ
    ∗ owns (c : Thread nD τ) (st0_0 t) fullShare ((dat c Vin).after 0 t)
    ∗ owns (c : Thread nD τ) (st0_1 t) fullShare ((dat c Vin).after 1 t))

/-- The body at any point: the input's memref holds its block, so the body's triple applies; the invariant and the
    core's `owes` pass through unread. -/
theorem sound_body (t : Fin cfg0.N) :
    bodyPre c Vin t ⊢ wp frame (wpE (defs₀ (F := F)) Variants.none c none) Set.univ (bodyAt0 t) (fun _ => bodyPost c Vin t) := by
  unfold bodyPre bodyPost bodyAt0
  simp only [before_0]
  rw [show (dat c Vin).Φ t.succ = (dat c Vin).Φ t.castSucc from rfl,
    show (dat c Vin).owesAt () t.succ = (dat c Vin).owesAt () t.castSucc from rfl,
    after_0, after_1]
  iintro ⟨HΦ, Ho, ⟨%d0, H0⟩, ⟨%d1, H1⟩⟩
  iapply (sound_kernel c Set.univ (grid0.coords t) _ _ _ _ (iblk c Vin 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body : BodyObligation (dat (F := F) c Vin) (defs₀ (F := F)) Variants.none () Set.univ := fun t => by
  rw [bigSep_W0, bigSep_W0]
  exact sound_body c Vin t

end Cert.KernelIdeal.Reg0

end
-- ==== Proof.KernelIdeal.Reg1Defs.lean ====
/-
  The second kernel, point by point, as pure functions of the array it rewrites in place.

  At point `i` the body reads the threshold word `kw` from the one-word table and looks at the tile of 2048 columns that
  starts at column 2048·i. Two bits decide what it does: the tile lies wholly at or after the threshold (`bZero`), or it
  straddles it (`bStr`: neither wholly before nor wholly at-or-after). A straddling tile is replaced by its own entries
  multiplied by the row of 0/1 weights "column < threshold" (`stepStr`); a tile at or after the threshold is replaced by
  zeros (`stepZero`); any other tile is left alone. `stepF` is one point, the two decisions in the body's order, and
  `outAt` the array after the first `n` points.
-/
import proofs.«148527_j58789512348330_2_alg».proof.Proof.KernelIdeal.Alg
import proofs.«148527_j58789512348330_2_alg».proof.Proof.Gen.KernelIdeal.Skeleton

noncomputable section

namespace Cert.KernelIdeal.Reg1

open Cert.KernelIdeal Cert.KernelIdeal.Gen Cert.KernelIdeal.GenP Cert.KernelIdeal.Hand
open Idealize.ShloMosaic Idealize.ShloMosaic.TcCoe
open Idealize.SL Idealize.SL.Sem

variable {F : FTy → Type} [FloatOps F]

/-- Memref `M`'s buffer contents on core `c`. -/
abbrev Bf (c : Dev nD) {sp : Space} {S : Shape} {e : EltTy} (M : Memref sig .tc sp S e) : Type := Buf (Elt F) (M.view.loc (c : Thread nD τ))

/-! ## The two decisions -/

/-- The tile's first column, and one past its last, as 32-bit words. -/
abbrev tstart (i : grid1.Coords) : BitVec 32 := Scalar.muli (BitVec.ofNat 32 (i 0).val) 2048#32
abbrev tend (i : grid1.Coords) : BitVec 32 := Scalar.addi (tstart i) 2048#32
/-- The tile lies wholly at or after the threshold. -/
abbrev bZero (i : grid1.Coords) (kw : BitVec 32) : BitVec 1 := Scalar.cmpi .sge (tstart i) kw
/-- The tile straddles the threshold: not wholly before it, not wholly at or after it. -/
abbrev bStr (i : grid1.Coords) (kw : BitVec 32) : BitVec 1 :=
  Scalar.andi (Scalar.xori (Scalar.cmpi .sle (tend i) kw) 1#1) (Scalar.xori (bZero i kw) 1#1)
abbrev cStr (i : grid1.Coords) (kw : BitVec 32) : Prop := Scalar.cmpi .ne (Scalar.extui (bStr i kw)) 0#32 = 1#1
abbrev cZero (i : grid1.Coords) (kw : BitVec 32) : Prop := Scalar.cmpi .ne (Scalar.extui (bZero i kw)) 0#32 = 1#1

/-- The two decisions exclude each other: a straddling tile does not lie wholly at or after the threshold. -/
theorem not_zero_of_str (i : grid1.Coords) (kw : BitVec 32) (h : cStr i kw) : ¬ cZero i kw := by
  unfold cStr bStr at h; unfold cZero
  generalize bZero i kw = b at h ⊢
  generalize Scalar.cmpi .sle (tend i) kw = a at h
  revert h; revert a b; decide

/-! ## What a point leaves in the array -/

/-- The whole scratch block, as the loads and stores address it. -/
abbrev rW : Rect S1024x2048 := Rect.unit (s := S1024x2048) ![0, 0] S1024x2048.size inb_S1024x2048_S1024x2048_0_0
theorem hz : (![0, 0] : Fin S1024x2048.rank → Nat) = fun _ => 0 := by funext a; fin_cases a <;> rfl

/-- The tile of the array at point `i`, as the straddle branch and as the zero branch slice it. -/
abbrev tileS (i : grid1.Coords) : Memref sig .tc .hbm S1024x2048 .f32 :=
  (Memref.whole main_v11).slice (Rect.unit (s := S1024x131072) (k1_off1 i) S1024x2048.size (k1_off1_inb i)) (fun _ => rfl)
abbrev tileZ (i : grid1.Coords) : Memref sig .tc .hbm S1024x2048 .f32 :=
  (Memref.whole main_v11).slice (Rect.unit (s := S1024x131072) (k1_off2 i) S1024x2048.size (k1_off2_inb i)) (fun _ => rfl)

/-- The tile's entries, read out of the array. -/
def tileOf (c : Dev nD) (i : grid1.Coords) (fv : Bf (F := F) c (Memref.whole main_v11)) : S1024x2048.Idx → Elt F .f32 :=
  ReadAs.same.apply ((tileS i).view.read (Elt F) fv)
/-- The array after a straddling point: the tile replaced by its entries times the 0/1 row. -/
def stepStr (c : Dev nD) (i : grid1.Coords) (kw : BitVec 32) (fv : Bf (F := F) c (Memref.whole main_v11)) : Bf (F := F) c (Memref.whole main_v11) :=
  (tileS i).view.write (Elt F) fv (k1_pay1 i kw (tileOf c i fv)) Finset.univ
/-- The array after a point at or after the threshold: the tile replaced by zeros. -/
def stepZero (c : Dev nD) (i : grid1.Coords) (fv : Bf (F := F) c (Memref.whole main_v11)) : Bf (F := F) c (Memref.whole main_v11) :=
  (tileZ i).view.write (Elt F) fv (k1_pay2 (F := F)) Finset.univ

/-- One point: the two decisions in the body's order. -/
def stepF (c : Dev nD) (i : grid1.Coords) (kw : BitVec 32) (fv : Bf (F := F) c (Memref.whole main_v11)) : Bf (F := F) c (Memref.whole main_v11) :=
  if cStr i kw then stepStr c i kw fv else if cZero i kw then stepZero c i fv else fv

/-- Point `n`'s coordinates (any natural number, read modulo the grid's 64 points). -/
def pointOf (n : ℕ) : grid1.Coords := grid1.coords ⟨n % grid1.N, Nat.mod_lt _ (by decide)⟩
theorem pointOf_val (t : Fin grid1.N) : pointOf t.val = grid1.coords t := by
  unfold pointOf; congr 1; exact Fin.ext (Nat.mod_eq_of_lt t.isLt)

/-- The array after the first `n` points, from `x` at entry. -/
def outAt (c : Dev nD) (kw : BitVec 32) (x : Bf (F := F) c (Memref.whole main_v11)) : ℕ → Bf (F := F) c (Memref.whole main_v11)
  | 0 => x
  | n + 1 => stepF c (pointOf n) kw (outAt c kw x n)

end Cert.KernelIdeal.Reg1

end
-- ==== Proof.KernelIdeal.Reg1Run.lean ====
/-
  The second kernel's body, run once at a symbolic grid point, under each decision of its two bits.

  Both of the body's copies — the straddling tile into a scratch buffer and back over itself, or a block of zeros over a
  tile at or after the threshold — are started and waited for inside the point, on the kernel's one semaphore, so
  between points the array is held whole. Each run starts from the table at the threshold word, the array at `fv`, the
  two scratch buffers at anything, the semaphore at zero and the core owing nothing, and ends in the same with the array
  at the step function's value (Reg1Defs: `stepStr`, `stepZero`, or unchanged) and the scratch buffers at something.
  The scratch buffers' earlier contents never reach the array: a whole-block store read back whole is the stored block,
  and a whole-block copy loaded whole is the copied block.
-/
import proofs.«148527_j58789512348330_2_alg».proof.Proof.KernelIdeal.Reg1Defs
import Idealize.ShloMosaic.Lib.Transfers
import Idealize.ShloMosaic.Lib.Writes
import Idealize.ShloMosaic.Lib.Pipeline.FrameBody
import Idealize.ShloMosaic.Lib.Pipeline.Value
import Idealize.ShloMosaic.Lib.Tactic

noncomputable section

namespace Cert.KernelIdeal.Reg1

open Cert.KernelIdeal Cert.KernelIdeal.Gen Cert.KernelIdeal.GenP Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- The whole-block store covers the block. -/
theorem cover (p : S1024x2048.Idx → Elt F .f32) (y : S1024x2048.Idx) :
    ∃ pc ∈ ([⟨rW, p⟩] : List (View.Piece (Elt F) S1024x2048 .f32)), y ∈ pc.1.set :=
  ⟨⟨rW, p⟩, List.mem_singleton_self _, View.mem_set_unit_zero (S := S1024x2048) hz inb_S1024x2048_S1024x2048_0_0 y⟩

/-- A whole-block store into a buffer, read back whole, is the stored block, whatever the buffer held. -/
theorem read_store {sp : Space} (v : View sig .tc sp S1024x2048 .f32) (g : v.ty.Contents (Elt F)) (p : S1024x2048.Idx → Elt F .f32) :
    v.read (Elt F) (v.writes (Elt F) g [(⟨rW, p⟩ : View.Piece (Elt F) S1024x2048 .f32)]) = p :=
  (View.read_writes_eq_canon v g _ (cover p)).trans (View.canon_unit_zero (S := S1024x2048) hz inb_S1024x2048_S1024x2048_0_0 p)

/-- A whole-block copy into a buffer, loaded whole, is the copied block. -/
theorem load_copy {sp : Space} (v : View sig .tc sp S1024x2048 .f32) (g : v.ty.Contents (Elt F)) (p : S1024x2048.Idx → Elt F .f32) :
    v.readAt (Elt F) rW.toLoadRect (v.write (Elt F) g p Finset.univ) = p := by
  show View.ld (v.read (Elt F) (v.write (Elt F) g p Finset.univ)) rW = p
  rw [View.read_write_univ]
  exact View.ld_unit_zero (S := S1024x2048) hz inb_S1024x2048_S1024x2048_0_0 p

section Runs
variable (c : Dev nD) (i : grid1.Coords) (kw : BitVec 32)
  (fv : Bf (F := F) c (Memref.whole main_v11)) (g0 : Bf (F := F) c (Memref.whole cc1_scratch0)) (g1 : Bf (F := F) c (Memref.whole cc1_scratch1))
  (W : Waits sig Unit)

local notation "MK" => cc1__mask_kernel (F := F) i (Memref.whole main_v10) (Memref.isWhole_whole _) (Memref.whole main_v11) (Memref.isWhole_whole _)
  (Memref.whole main_v11) (Memref.isWhole_whole _) (Memref.whole cc1_scratch0) (Memref.isWhole_whole _) (Memref.whole cc1_scratch1) (Memref.isWhole_whole _) cc1_scratch2

/-- What every run starts from: the table at the threshold word, the array, the two scratch buffers, the kernel's semaphore at
    zero, the core owing nothing. -/
abbrev runPre (fv : Bf (F := F) c (Memref.whole main_v11)) : sProp 𝕄 :=
  iprop(pt c (Memref.whole main_v10) (fun _ => kw) ∗ pt c (Memref.whole main_v11) fv ∗ pt c (Memref.whole cc1_scratch0) g0 ∗ pt c (Memref.whole cc1_scratch1) g1
    ∗ semVal ((c : Thread nD τ), SemLoc.dma (4 : DmaSem sig)) 0 ∗ owes (c : Thread nD τ) 0 W)
/-- What every run ends in: the same, the array at `fv'`, the scratch buffers at something, the waits recorded. -/
abbrev runPost (fv' : Bf (F := F) c (Memref.whole main_v11)) : sProp 𝕄 :=
  iprop(pt c (Memref.whole main_v10) (fun _ => kw) ∗ (∃ f, pt c (Memref.whole main_v11) f ∗ ⌜f = fv'⌝) ∗ (∃ g, pt c (Memref.whole cc1_scratch0) g) ∗ (∃ g, pt c (Memref.whole cc1_scratch1) g)
    ∗ semVal ((c : Thread nD τ), SemLoc.dma (4 : DmaSem sig)) 0 ∗ ∃ W', owes (c : Thread nD τ) 0 W')

set_option sl_exec.dmaWindow true in
/-- A tile wholly before the threshold: nothing moves. -/
theorem run_kept (hS : ¬ cStr i kw) (hZ : ¬ cZero i kw) (Q : PUnit → sProp 𝕄) :
    iprop(runPre c kw g0 g1 W fv ∗ (runPost c kw fv -∗ Q ⟨⟩))
      ⊢ wp frame (wpE (defs₀ (F := F)) Variants.none c none) Set.univ MK Q := by
  iintro ⟨⟨Ht, Hv, Hg0, Hg1, Hs, HO⟩, Hk⟩
  sl_exec! (disch := first | assumption | decide)
  sl_step
  iapply Hk
  isplitl [Ht]; · iexact Ht
  isplitl [Hv]; · iexists fv; isplitl [Hv]; · iexact Hv
                  ipureintro; rfl
  isplitl [Hg0]; · iexists g0; iexact Hg0
  isplitl [Hg1]; · iexists g1; iexact Hg1
  isplitl [Hs]; · iexact Hs
  iexists W; iexact HO

set_option sl_exec.dmaWindow true in
/-- A tile wholly at or after the threshold: zeros are stored into the first scratch buffer and copied over the tile. -/
theorem run_zero (hS : ¬ cStr i kw) (hZ : cZero i kw) (Q : PUnit → sProp 𝕄) :
    iprop(runPre c kw g0 g1 W fv ∗ (runPost c kw (stepZero c i fv) -∗ Q ⟨⟩))
      ⊢ wp frame (wpE (defs₀ (F := F)) Variants.none c none) Set.univ MK Q := by
  iintro ⟨⟨Ht, Hv, Hg0, Hg1, Hs, HO⟩, Hk⟩
  sl_exec! (disch := first | assumption | decide)
  sl_step
  iapply Hk
  isplitl [Ht]; · iexact Ht
  isplitl [Hv]
  · iexists _; isplitl [Hv]; · iexact Hv
    ipureintro
    sl_unfold_run_names
    unfold stepZero
    refine congrArg (fun w => (tileZ i).view.write (Elt F) fv w Finset.univ) ?_
    exact read_store (Memref.whole cc1_scratch0).view g0 k1_pay2
  isplitl [Hg0]; · iexists _; iexact Hg0
  isplitl [Hg1]; · iexists g1; iexact Hg1
  isplitl [Hs]; · iexact Hs
  iexists _; iexact HO

set_option sl_exec.dmaWindow true in
/-- A tile straddling the threshold: copied into the second scratch buffer, multiplied by the 0/1 row, copied back. -/
theorem run_str (hS : cStr i kw) (hZ : ¬ cZero i kw) (Q : PUnit → sProp 𝕄) :
    iprop(runPre c kw g0 g1 W fv ∗ (runPost c kw (stepStr c i kw fv) -∗ Q ⟨⟩))
      ⊢ wp frame (wpE (defs₀ (F := F)) Variants.none c none) Set.univ MK Q := by
  iintro ⟨⟨Ht, Hv, Hg0, Hg1, Hs, HO⟩, Hk⟩
  sl_exec! (disch := first | assumption | decide)
  sl_step
  iapply Hk
  isplitl [Ht]; · iexact Ht
  isplitl [Hv]
  · iexists _; isplitl [Hv]; · iexact Hv
    ipureintro
    sl_unfold_run_names
    unfold stepStr tileOf
    refine congrArg (fun w => (tileS i).view.write (Elt F) fv w Finset.univ) ?_
    refine (read_store (Memref.whole cc1_scratch1).view _ _).trans ?_
    exact congrArg₂ (k1_pay1 i) rfl (load_copy (Memref.whole cc1_scratch1).view g1 _)
  isplitl [Hg0]; · iexists g0; iexact Hg0
  isplitl [Hg1]; · iexists _; iexact Hg1
  isplitl [Hs]; · iexact Hs
  iexists _; iexact HO

end Runs

end Cert.KernelIdeal.Reg1

end
-- ==== Proof.KernelIdeal.Reg1Dat.lean ====
/-
  The second kernel's pipeline: its proof data and its body obligation.

  The pipeline has no window: the kernel addresses its array and its table itself. So the proof data names no staged
  block, and everything is in the invariant between points: the one-word table at its contents, the array as the first
  `n` points leave it (`outAt`), the core's scoped buffers at something, the kernel's semaphore at zero. At a point the
  two bits computed from the table's word and the point's first column decide which of the three runs the body is; each
  leaves the array at `stepF` of what it found, which is the invariant at the next point. The core owes nothing throughout.
-/
import proofs.«148527_j58789512348330_2_alg».proof.Proof.KernelIdeal.Reg1Run
import Idealize.ShloMosaic.Lib.ValueIdx

noncomputable section

namespace Cert.KernelIdeal.Reg1

open Cert.KernelIdeal Cert.KernelIdeal.Gen Cert.KernelIdeal.GenP Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ UC ℕ

/-- The table's one word. -/
def kwOf (tbl : pre1.Contents (Elt F)) : BitVec 32 := tbl 0 (ValueIdx.ix1 (0 : Fin 1))
/-- The one-word table has one index. -/
theorem idx1_eq (j : S1.Idx) : j = ValueIdx.ix1 (0 : Fin 1) := by
  rw [ValueIdx.eq_ix1 j]
  exact congrArg (ValueIdx.ix1 (n := 1)) (Fin.ext (Nat.lt_one_iff.mp (j 0).isLt))
theorem tbl0_eq (tbl : pre1.Contents (Elt F)) : tbl 0 = fun _ => kwOf tbl := by
  funext j; exact congrArg (tbl 0) (idx1_eq j)

/-- The one table held whole is the table's buffer held whole. -/
theorem prefHeld1 (c : Dev nD) (tbl : pre1.Contents (Elt F)) :
    (Pipeline.prefHeld (Ix := Unit) (Name := ℕ) (U := UC) (Lvl := ℕ) pre1 c (fun _ => fullShare) tbl : sProp 𝕄) = pt c (Memref.whole main_v10) (tbl 0) := by
  unfold Pipeline.prefHeld
  exact bigSep_univ_eq_bigSepL [(0 : Fin 1)] (by decide) (by decide) _

/-- The invariant before point `n`: the table at its contents, the array after the first `n` points, the scoped buffers at
    something, the kernel's semaphore at zero. -/
def Φ1 (c : Dev nD) (tbl : pre1.Contents (Elt F)) (x : Bf (F := F) c (Memref.whole main_v11)) (n : ℕ) : sProp 𝕄 :=
  iprop(Pipeline.prefHeld (Ix := Unit) (Name := ℕ) (U := UC) (Lvl := ℕ) pre1 c (fun _ => fullShare) tbl
    ∗ pt c (Memref.whole main_v11) (outAt c (kwOf tbl) x n)
    ∗ Pipeline.scopedRest (Ix := Unit) (Name := ℕ) (U := UC) (Lvl := ℕ) (Val := Elt F) spec1 c
    ∗ semVal ((c : Thread nD τ), SemLoc.dma (4 : DmaSem sig)) 0)

/-- The proof data of the second pipeline on core `c`, at admissible table contents `a`, entered with the array at `x`:
    it has no window; its invariant is `Φ1`; it owes nothing. -/
def dat (a : (pcfg1 (F := F)).Adm) (c : Dev nD) (x : Bf (F := F) c (Memref.whole main_v11)) : Dat τ (Elt F) Unit ℕ UC ℕ (cfg1 a) c where
  A w := w.elim0
  after w := w.elim0
  Φ t := Φ1 c a.1 x t.val
  q _ := fullShare
  owed _ := 0

theorem body (a : (pcfg1 (F := F)).Adm) (c : Dev nD) (x : Bf (F := F) c (Memref.whole main_v11)) :
    BodyObligation (dat a c x) (defs₀ (F := F)) Variants.none () Set.univ := fun t => by
  rw [show (Finset.univ : Finset (Fin (cfg1 a).W)) = ∅ from rfl]
  simp only [BI.bigSep_empty]
  show iprop(Φ1 c a.1 x t.val ∗ (dat a c x).owesAt () t.castSucc ∗ emp)
    ⊢ wp frame (wpE (defs₀ (F := F)) Variants.none c none) Set.univ
      (cc1__mask_kernel (F := F) (grid1.coords t) (Memref.whole main_v10) (Memref.isWhole_whole _) (Memref.whole main_v11) (Memref.isWhole_whole _)
        (Memref.whole main_v11) (Memref.isWhole_whole _) (Memref.whole cc1_scratch0) (Memref.isWhole_whole _) (Memref.whole cc1_scratch1) (Memref.isWhole_whole _) cc1_scratch2)
      (fun _ => iprop(Φ1 c a.1 x (t.val + 1) ∗ (dat a c x).owesAt () t.succ ∗ emp))
  have hstep : outAt c (kwOf a.1) x (t.val + 1) = stepF c (grid1.coords t) (kwOf a.1) (outAt c (kwOf a.1) x t.val) := by
    show stepF c (pointOf t.val) _ _ = _
    rw [pointOf_val t]
  unfold Φ1 Dat.owesAt Pipeline.owesWithin
  rw [hstep, prefHeld1, tbl0_eq a.1, scopedRest1_eq]
  rw [show (dat a c x).owed t.castSucc = 0 from rfl, show (dat a c x).owed t.succ = 0 from rfl]
  iintro ⟨⟨Ht, Hv, ⟨Hq0, Hq1, Hq2, Hq3, ⟨%g0, Hg0⟩, ⟨%g1, Hg1⟩⟩, Hs⟩, ⟨%W, -, HO⟩, -⟩
  by_cases hS : cStr (grid1.coords t) (kwOf a.1)
  · have hZ := not_zero_of_str _ _ hS
    iapply (run_str c (grid1.coords t) (kwOf a.1) (outAt c (kwOf a.1) x t.val) g0 g1 W hS hZ _)
    isplitl [Ht Hv Hg0 Hg1 Hs HO]
    · isplitl [Ht]; · iexact Ht
      isplitl [Hv]; · iexact Hv
      isplitl [Hg0]; · iexact Hg0
      isplitl [Hg1]; · iexact Hg1
      isplitl [Hs]; · iexact Hs
      iexact HO
    iintro ⟨Ht, ⟨%f, Hv, %hf⟩, Hg0, Hg1, Hs, ⟨%W', HO⟩⟩
    subst hf
    unfold stepF; rw [if_pos hS]
    isplitl [Ht Hv Hq0 Hq1 Hq2 Hq3 Hg0 Hg1 Hs]
    · isplitl [Ht]; · iexact Ht
      isplitl [Hv]; · iexact Hv
      isplitr [Hs]
      · isplitl [Hq0]; · iexact Hq0
        isplitl [Hq1]; · iexact Hq1
        isplitl [Hq2]; · iexact Hq2
        isplitl [Hq3]; · iexact Hq3
        isplitl [Hg0]; · iexact Hg0
        iexact Hg1
      iexact Hs
    isplitl [HO]
    · iexists W'; isplitr; · ipureintro; exact fun _ _ => Or.inl trivial
      iexact HO
    iempintro
  · by_cases hZ : cZero (grid1.coords t) (kwOf a.1)
    · iapply (run_zero c (grid1.coords t) (kwOf a.1) (outAt c (kwOf a.1) x t.val) g0 g1 W hS hZ _)
      isplitl [Ht Hv Hg0 Hg1 Hs HO]
      · isplitl [Ht]; · iexact Ht
        isplitl [Hv]; · iexact Hv
        isplitl [Hg0]; · iexact Hg0
        isplitl [Hg1]; · iexact Hg1
        isplitl [Hs]; · iexact Hs
        iexact HO
      iintro ⟨Ht, ⟨%f, Hv, %hf⟩, Hg0, Hg1, Hs, ⟨%W', HO⟩⟩
      subst hf
      unfold stepF; rw [if_neg hS, if_pos hZ]
      isplitl [Ht Hv Hq0 Hq1 Hq2 Hq3 Hg0 Hg1 Hs]
      · isplitl [Ht]; · iexact Ht
        isplitl [Hv]; · iexact Hv
        isplitr [Hs]
        · isplitl [Hq0]; · iexact Hq0
          isplitl [Hq1]; · iexact Hq1
          isplitl [Hq2]; · iexact Hq2
          isplitl [Hq3]; · iexact Hq3
          isplitl [Hg0]; · iexact Hg0
          iexact Hg1
        iexact Hs
      isplitl [HO]
      · iexists W'; isplitr; · ipureintro; exact fun _ _ => Or.inl trivial
        iexact HO
      iempintro
    · iapply (run_kept c (grid1.coords t) (kwOf a.1) (outAt c (kwOf a.1) x t.val) g0 g1 W hS hZ _)
      isplitl [Ht Hv Hg0 Hg1 Hs HO]
      · isplitl [Ht]; · iexact Ht
        isplitl [Hv]; · iexact Hv
        isplitl [Hg0]; · iexact Hg0
        isplitl [Hg1]; · iexact Hg1
        isplitl [Hs]; · iexact Hs
        iexact HO
      iintro ⟨Ht, ⟨%f, Hv, %hf⟩, Hg0, Hg1, Hs, ⟨%W', HO⟩⟩
      subst hf
      unfold stepF; rw [if_neg hS, if_neg hZ]
      isplitl [Ht Hv Hq0 Hq1 Hq2 Hq3 Hg0 Hg1 Hs]
      · isplitl [Ht]; · iexact Ht
        isplitl [Hv]; · iexact Hv
        isplitr [Hs]
        · isplitl [Hq0]; · iexact Hq0
          isplitl [Hq1]; · iexact Hq1
          isplitl [Hq2]; · iexact Hq2
          isplitl [Hq3]; · iexact Hq3
          isplitl [Hg0]; · iexact Hg0
          iexact Hg1
        iexact Hs
      isplitl [HO]
      · iexists W'; isplitr; · ipureintro; exact fun _ _ => Or.inl trivial
        iexact HO
      iempintro

end Cert.KernelIdeal.Reg1

end
-- ==== Proof.KernelIdeal.Records.lean ====
/-
  The two kernel regions of @main as segments between the thread states the host operations run in.

  Between two items of @main a core holds every unscoped buffer whole at a valuation, beside the generator register and
  its (empty) debt. The first region reads the argument block by block and leaves an indicator row in its output array;
  its record splits the two windows' arrays out of the held buffers on entry and puts them back, the row in place, on
  exit. The second region has no window: it is handed the one-word table and addresses the result array itself, so its
  record splits exactly those two buffers off the held set — the table to be read, the array to enter the invariant with
  the kernel's semaphore — and leaves every other buffer as one conjunction that bypasses the region and is held at the
  next valuation because that valuation differs from the previous one at the result array only.

  What the regions leave is named first (`row`, `res`), then the table's contents the second pipeline is pinned at
  (`tbl`: what the host operations compute from the row), then both pipelines' proof data, then the two records.
-/
import proofs.«148527_j58789512348330_2_alg».proof.Proof.KernelIdeal.Reg0
import proofs.«148527_j58789512348330_2_alg».proof.Proof.KernelIdeal.Reg1Dat
import proofs.«148527_j58789512348330_2_alg».proof.Proof.KernelIdeal.RegionsP
import Idealize.ShloMosaic.Lib.Pipeline.Frame
import Idealize.ShloMosaic.Lib.Pipeline.Regions
import Idealize.ShloMosaic.Lib.Pipeline.RegionsLoop

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)

variable {F : FTy → Type} [FloatOps F]

local notation "𝕄" => MT nD τ sig Unit (Elt F) ℕ UC ℕ

/-- No core owes another anything: no level is assigned. -/
abbrev L0 : GSem nD τ sig → Finset Unit := fun _ => ∅
abbrev lv0 : GSem nD τ sig → Unit → ℕ := fun _ _ => 0

/-- What rides beside the buffers between @main's items: the generator register at some state, the core owing nothing. -/
abbrev rides (c : Dev nD) : sProp 𝕄 :=
  iprop((∃ r, prngReg c r) ∗ ∃ W, owes (c : Thread nD τ) (0 : CellTallies nD τ sig Unit) W)

variable (m : (ℓ : Loc nD τ sig) → Buf (Elt F) ℓ)

/-- The buffers the first region is entered from: as launched. -/
abbrev Vin0 (c : Dev nD) (b : Ref sig .tc) : Buf (Elt F) ((c : Thread nD τ).loc b) := GenP.V0 m c (Proc.devRef .tc b)

/-- The first region's result row. -/
def row (c : Dev nD) : Buf (Elt F) ((c : Thread nD τ).loc main_v0) := (Reg0.dat c (Vin0 m c)).arrAt 1 cfg0.N

/-- What the regions leave, with only the first region's row named. -/
def outsA : GenP.Outs (F := F) := fun _ r c => Function.update (GenP.V0 m c) (Proc.devRef .tc main_v0) (row m c) (Proc.devRef .tc r)

/-- The table's contents when the second region is entered (the mesh has one device: core 0's). -/
def tbl : pre1.Contents (Elt F) := fun k => GenP.V6 m (outsA m) 0 (Proc.devRef .tc (pre1.ref k))

/-- The array the second region is entered with, and what it leaves there. -/
def x1 (c : Dev nD) : Reg1.Bf (F := F) c (Memref.whole main_v11) := GenP.V6 m (outsA m) c (Proc.devRef .tc main_v11)
def res (c : Dev nD) : Reg1.Bf (F := F) c (Memref.whole main_v11) := Reg1.outAt c (Reg1.kwOf (tbl m)) (x1 m c) 64

/-- What the regions leave in the buffers they may change. -/
def outs : GenP.Outs (F := F) := fun J r c =>
  if J = 7 then Function.update (GenP.V0 m c) (Proc.devRef .tc main_v11) (res m c) (Proc.devRef .tc r) else outsA m J r c

theorem outs_1 (c : Dev nD) : outs m 1 main_v0 c = row m c := by
  unfold outs outsA; rw [if_neg (by decide)]; exact Function.update_self ..
theorem outs_7 (c : Dev nD) : outs m 7 main_v11 c = res m c := by
  unfold outs; rw [if_pos rfl]; exact Function.update_self ..
theorem V6_outs (c : Dev nD) : GenP.V6 m (outs m) c = GenP.V6 m (outsA m) c := by
  have h : outs m 1 main_v0 c = outsA m 1 main_v0 c := by unfold outs; rw [if_neg (by decide)]
  unfold GenP.V6 GenP.V5 GenP.V4 GenP.V3 GenP.V2 GenP.V1; rw [h]

theorem V1_v0 (c : Dev nD) : GenP.V1 m (outs m) c main_v0 = outs m 1 main_v0 c := by
  unfold GenP.V1; exact Function.update_self _ _ _
theorem V7_v11 (c : Dev nD) : GenP.V7 m (outs m) c main_v11 = outs m 7 main_v11 c := by
  unfold GenP.V7; exact Function.update_self _ _ _

/-- The admissible contents of the pipelines' tables: the first has none; the second's is what the host operations leave. -/
def adm : (p : Fin 2) → (pcfgs (F := F) p).Adm
  | ⟨0, _⟩ => cfg0.toPCfg_adm
  | ⟨1, _⟩ => ⟨tbl m, trivial⟩
  | ⟨_ + 2, h⟩ => absurd h (by omega)

/-- The proof data of both pipelines. -/
def pdats : (p : Fin 2) → (c : Dev nD) → Dat τ (Elt F) Unit ℕ UC ℕ (Pipeline.pin (pcfgs (F := F)) (adm m) p) c
  | ⟨0, _⟩ => fun c => Reg0.dat c (Vin0 m c)
  | ⟨1, _⟩ => fun c => Reg1.dat (adm m 1) c (x1 m c)
  | ⟨_ + 2, h⟩ => absurd h (by omega)

/-- What the first region leaves in the unscoped buffers. -/
abbrev Vout0 (c : Dev nD) (b : Ref sig .tc) : Buf (Elt F) ((c : Thread nD τ).loc b) := GenP.V1 m (outs m) c (Proc.devRef .tc b)

theorem hF0 (c : Dev nD) (w : Fin cfg0.W) : (pdats m 0 c).arrAt w cfg0.N = Vout0 m c (Pipeline.arrRef spec0 w) := by
  match w with
  | ⟨0, _⟩ =>
    show (Reg0.dat c (Vin0 m c)).arrAt 0 cfg0.N = GenP.V1 m (outs m) c main_arg0
    rw [Reg0.arr_in, GenP.V1_of m (outs m) c main_arg0 (by decide)]
  | ⟨1, _⟩ =>
    show row m c = GenP.V1 m (outs m) c main_v0
    rw [V1_v0, outs_1]

theorem hrest0 (c : Dev nD) (b : Ref sig .tc) (hb : b ∉ (Finset.univ : Finset (Fin cfg0.W)).image (Pipeline.arrRef spec0)) : Vout0 m c b = Vin0 m c b := by
  refine GenP.V1_of m (outs m) c b (fun h => hb ?_)
  rw [List.mem_singleton] at h; subst h
  exact Finset.mem_image.mpr ⟨1, Finset.mem_univ _, rfl⟩

set_option backward.isDefEq.respectTransparency.types false in
/-- The first region as a segment: entered from the launch contents held, left with the row in `main_v0`. -/
def R0 : RegionSeg (pcfgs (F := F)) (adm m) (pdats m) () (defs₀ (F := F)) Variants.none L0 lv0 0 where
  win := (launch0 (F := F)).win.to₀
  block_pos := (launch0 (F := F)).block_pos
  stage_whole := (launch0 (F := F)).stage_whole
  K := PEmpty
  osem k := k.elim
  ho := Pipeline.OwnSemFacts.none _
  hbody c := (Reg0.body c (Vin0 m c)).loose
  hwaits := Pipeline.hwaits_of_owed_zero _ _ _ _ _ _ 0 (fun c t => rfl)
  pre c := iprop(StableHlo.held (c : Thread nD τ) (Pipeline.ucRefs τ sig) (GenP.V0 m c) ∗ rides c)
  post c := iprop(StableHlo.held (c : Thread nD τ) (Pipeline.ucRefs τ sig) (GenP.V1 m (outs m) c) ∗ rides c)
  X c := iprop(∃ r, prngReg c r)
  Y c := iprop(∃ r, prngReg c r)
  Z c := Pipeline.unscopedRest (Ix := Unit) (Name := ℕ) (U := UC) (Lvl := ℕ) spec0 c (Vin0 m c)
  hentry c := by
    rw [Pipeline.ownSems0_none, ← Pipeline.unscopedBufs_held (Ix := Unit) (Name := ℕ) (U := UC) (Lvl := ℕ) c (GenP.V0 m c)]
    have hsplit := Pipeline.arrays_of_unscopedBufs (p := 0) (pcfgs (F := F)) (adm m) (pdats m) (launch0 (F := F)).win (launch0 (F := F)).arr_whole c
      ((pdats m 0 c).share_full fun _ => rfl) (Vin0 m c) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ Pipeline.ΦA spec0 c
    unfold Pipeline.ΦA
    iintro ⟨Hp, -, Hr⟩
    isplitl [Hr]; · iexact Hr
    iexact Hp
  hout c := by
    rw [Pipeline.ownSems0_none]
    show Pipeline.ΦA spec0 c ⊢ _
    unfold Pipeline.ΦA
    iintro ⟨Hr, Hp⟩
    isplitl [Hp]; · iexact Hp
    isplitr; · iempintro
    iexact Hr
  hexit c := by
    rw [← Pipeline.unscopedBufs_held (Ix := Unit) (Name := ℕ) (U := UC) (Lvl := ℕ) c (GenP.V1 m (outs m) c)]
    have hjoin := Pipeline.unscopedBufs_of_arrays (p := 0) (pcfgs (F := F)) (adm m)
      (Ix := Unit) (Name := ℕ) (U := UC) (Lvl := ℕ)
      (launch0 (F := F)).win (launch0 (F := F)).arr_whole c (pdats m) ((pdats m 0 c).share_full fun _ => rfl) (Vin0 m c) (Vout0 m c) ((pdats m 0 c).arrAt · cfg0.N) (hF0 m c) (hrest0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- The two references the second region touches: its table and its array. -/
def A1 : Finset (DevRef τ sig) := {(Proc.devRef .tc main_v10 : DevRef τ sig), (Proc.devRef .tc main_v11 : DevRef τ sig)}

theorem A1_sub : A1 ⊆ Pipeline.ucRefs τ sig := by
  intro b hb
  rw [A1, Finset.mem_insert, Finset.mem_singleton] at hb
  rcases hb with rfl | rfl
  · exact Finset.mem_filter.mpr ⟨StableHlo.devRef_mem_tcRefs main_v10, by decide⟩
  · exact Finset.mem_filter.mpr ⟨StableHlo.devRef_mem_tcRefs main_v11, by decide⟩

/-- The two held at a valuation, one by one. -/
theorem held_A1 (c : Dev nD) (V : Valuation τ sig (Elt F)) :
    (StableHlo.held (c : Thread nD τ) A1 V : sProp 𝕄)
      = iprop((((c : Thread nD τ).1, (Proc.devRef .tc main_v10 : DevRef τ sig)) ↦{fullShare} V (Proc.devRef .tc main_v10))
          ∗ (((c : Thread nD τ).1, (Proc.devRef .tc main_v11 : DevRef τ sig)) ↦{fullShare} V (Proc.devRef .tc main_v11))) := by
  unfold StableHlo.held A1
  rw [BI.bigSep_insert (by decide), BI.bigSep_singleton]
  rfl

/-- The kernel's own cell is scoped, and no staging cell (the pipeline stages nothing). -/
theorem ownSemFacts1 : Pipeline.OwnSemFacts spec1 (fun _ : Unit => SemLoc.dma (4 : DmaSem sig)) := by decide

/-- The kernel's own cell at zero. -/
theorem ownSems1 (c : Dev nD) :
    (Pipeline.ownSems0 (Ix := Unit) (Name := ℕ) (U := UC) (Lvl := ℕ) (Val := Elt F) (τ := τ) (fun _ : Unit => SemLoc.dma (4 : DmaSem sig)) c : sProp 𝕄)
      = semVal ((c : Thread nD τ), SemLoc.dma (4 : DmaSem sig)) 0 :=
  Pipeline.ownSems0_eq_of_list c (fun _ : Unit => SemLoc.dma (4 : DmaSem sig)) [()] (by decide) (by decide)

set_option backward.isDefEq.respectTransparency.types false in
/-- The second region as a segment: entered from what the host operations leave held, left with the array rewritten. -/
def R1 : RegionSeg (pcfgs (F := F)) (adm m) (pdats m) () (defs₀ (F := F)) Variants.none L0 lv0 1 where
  win := (launch1 (F := F)).win.to₀
  block_pos := (launch1 (F := F)).block_pos
  stage_whole := (launch1 (F := F)).stage_whole
  K := Unit
  osem _ := SemLoc.dma (4 : DmaSem sig)
  ho := ownSemFacts1
  hbody c := (Reg1.body (adm m 1) c (x1 m c)).loose
  hwaits := Pipeline.hwaits_of_owed_zero _ _ _ _ _ _ 1 (fun c t => rfl)
  pre c := iprop(StableHlo.held (c : Thread nD τ) (Pipeline.ucRefs τ sig) (GenP.V6 m (outs m) c) ∗ rides c)
  post c := iprop(StableHlo.held (c : Thread nD τ) (Pipeline.ucRefs τ sig) (GenP.V7 m (outs m) c) ∗ rides c)
  X c := iprop(Reg1.pt c (Memref.whole main_v11) (x1 m c) ∗ semVal ((c : Thread nD τ), SemLoc.dma (4 : DmaSem sig)) 0)
  Y c := iprop(Reg1.pt c (Memref.whole main_v11) (res m c) ∗ Reg1.pt c (Memref.whole main_v10) (tbl m 0))
  Z c := iprop(StableHlo.held (c : Thread nD τ) (Pipeline.ucRefs τ sig \ A1) (GenP.V6 m (outs m) c) ∗ ∃ r, prngReg c r)
  hentry c := by
    have e : (Pipeline.prefHeld (Ix := Unit) (Name := ℕ) (U := UC) (Lvl := ℕ) (pcfgs (F := F) 1).pre c (fun _ => fullShare) (adm m 1).1 : sProp 𝕄)
        = Reg1.pt c (Memref.whole main_v10) (tbl m 0) := Reg1.prefHeld1 c (tbl m)
    have ea : ((pdats m 1 c).arrays (fun x => (pdats m 1 c).arrAt x 0) : sProp 𝕄) = (BI.emp : sProp 𝕄) := by
      unfold Dat.arrays; exact BI.bigSep_empty
    have hc : c = 0 := Subsingleton.elim _ _
    have ht : GenP.V6 m (outs m) c main_v10 = tbl m 0 := by subst hc; rw [V6_outs]; rfl
    have hx : GenP.V6 m (outs m) c main_v11 = x1 m c := by rw [V6_outs]; rfl
    rw [e, ea, ownSems1, StableHlo.held_sub_split (c : Thread nD τ) A1_sub (GenP.V6 m (outs m) c), held_A1, ht, hx]
    iintro ⟨⟨⟨⟨Ht, Hv⟩, Hrest⟩, Hp, HO⟩, Hs, -⟩
    imodintro
    isplitr; · iempintro
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hv Hs]
    · isplitl [Hv]; · iexact Hv
      iexact Hs
    isplitl [Hrest]; · iexact Hrest
    iexact Hp
  hin c := by
    show _ ⊢ Reg1.Φ1 c (tbl m) (x1 m c) 0
    unfold Reg1.Φ1
    iintro ⟨⟨Hv, Hs⟩, Ht, Hr⟩
    isplitl [Ht]; · iexact Ht
    isplitl [Hv]; · iexact Hv
    isplitl [Hr]; · iexact Hr
    iexact Hs
  hout c := by
    rw [ownSems1]
    show Reg1.Φ1 c (tbl m) (x1 m c) 64 ⊢ _
    unfold Reg1.Φ1
    rw [Reg1.prefHeld1]
    iintro ⟨Ht, Hv, Hr, Hs⟩
    isplitl [Hv Ht]
    · isplitl [Hv]; · iexact Hv
      iexact Ht
    isplitl [Hs]; · iexact Hs
    iexact Hr
  hexit c := by
    have hc : c = 0 := Subsingleton.elim _ _
    have ht : GenP.V7 m (outs m) c main_v10 = tbl m 0 := by
      rw [GenP.V7_of m (outs m) c main_v10 (by decide)]; subst hc; rw [V6_outs]; rfl
    have hx : GenP.V7 m (outs m) c main_v11 = res m c := by rw [V7_v11, outs_7]
    have hr : (StableHlo.held (c : Thread nD τ) (Pipeline.ucRefs τ sig \ A1) (GenP.V7 m (outs m) c) : sProp 𝕄)
        = StableHlo.held (c : Thread nD τ) (Pipeline.ucRefs τ sig \ A1) (GenP.V6 m (outs m) c) := by
      unfold StableHlo.held
      refine BI.bigSep_congr fun b hb => ?_
      have hne : b ≠ (Proc.devRef .tc main_v11 : DevRef τ sig) := fun h =>
        (Finset.mem_sdiff.mp hb).2 (by rw [h, A1]; exact Finset.mem_insert_of_mem (Finset.mem_singleton_self _))
      rw [show GenP.V7 m (outs m) c b = GenP.V6 m (outs m) c b from Function.update_of_ne hne _ _]
    rw [StableHlo.held_sub_split (c : Thread nD τ) A1_sub (GenP.V7 m (outs m) c), held_A1, ht, hx, hr]
    iintro ⟨-, HO, ⟨Hv, Ht⟩, Hrest, Hp⟩
    imodintro
    isplitl [Ht Hv Hrest]
    · isplitl [Ht Hv]
      · isplitl [Ht]; · iexact Ht
        iexact Hv
      iexact Hrest
    isplitl [Hp]; · iexact Hp
    unfold Pipeline.Dat.owesAt Pipeline.owesWithin
    icases HO with ⟨%W, -, HO⟩; iexists W; iexact HO

end Cert.KernelIdeal.Hand

end
-- ==== Proof.KernelIdeal.RunCond.lean ====
/-
  The run of @main as a chain of its items — the first kernel region, the host stretches, the second kernel region —, each
  entered from what the one before left: given one record per kernel region, entered from the thread state before it and left
  at the one after it, every weakly fair execution from zero counters terminates, and every final memory holds the result
  array at what the last valuation gives it and the argument array as launched, both read off the last valuation.
-/
import proofs.«148527_j58789512348330_2_alg».proof.Proof.KernelIdeal.RegionsP

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE CONDITIONAL RUN. For any user algebra, level assignment, launch dues and ghost resources, any rest states `E` the
    launch makes on every core at once (`hE0`) and that end owing nothing (`hE2`), any contents the regions leave (`outs`)
    and any proof data: given, per region K, a segment record entered from the thread state before it and left at the one
    after it (`RK`, `hpreK`, `hpostK`), every weakly fair execution of @main from memory `m` with zero counters terminates,
    and every final memory holds the result array `main_v11` at the last valuation's contents and the argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      r.2.mem ((c.tc : Thread nD τ).loc main_v11) = GenP.V7 m outs c main_v11
      ∧ r.2.mem ((c.tc : Thread nD τ).loc main_arg0) = m ((c.tc : Thread nD τ).loc main_arg0)) := by
  refine Pipeline.θ_run_regions_kit_dev (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨hpre0 c, hpost0 c, .rfl, .rfl, .rfl, .rfl, hpre1 c, (hpost1 c).trans (sep_mono .rfl (hE2 c))⟩)
    (hinit := ?_) (QY := fun c s => s.mem ((c.tc : Thread nD τ).loc main_v11) = V7 m outs c main_v11
      ∧ s.mem ((c.tc : Thread nD τ).loc main_arg0) = m ((c.tc : Thread nD τ).loc main_arg0))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result array and the argument, each read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V7_main_arg0 m outs c)⟩
    · iexact HSI

end Cert.KernelIdeal.Hand

end
-- ==== Proof.KernelIdeal.Frame.lean ====
/-
  The kernel program's run: @main as a chain of its items, each entered from what the one before it left.

  The launch hands every core its unscoped buffers at the launch contents, its generator register and an empty debt;
  the first region, five stretches of host operations and the second region follow, the regions by their records
  (Proof/…/Records.lean), the host stretches by their operations over the held buffers; at the end the result array and
  the argument are read off the last valuation. No core owes another anything, so no level is assigned and the only
  ghost state is the pipeline library's at the first region's staging cells, beside the transfer counters the second
  region's two copies use. The frame is the run with the result array forgotten.
-/
import proofs.«148527_j58789512348330_2_alg».proof.Proof.KernelIdeal.Records
import proofs.«148527_j58789512348330_2_alg».proof.Proof.KernelIdeal.RunCond

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)

variable {F : FTy → Type} [FloatOps F]

local notation "𝕄" => MT nD τ sig Unit (Elt F) ℕ UC ℕ

variable (m : (ℓ : Loc nD τ sig) → Buf (Elt F) ℓ)

/-- The launch element: the pipeline library's at the staging cells and the pipelines' transfers; no counter yet. -/
def u₀ : UC :=
  (initOf (Pipeline.cells (Pipeline.pin (pcfgs (F := F)) (adm m)) (cellOf_inj (adm m)))
    (Pipeline.launchToks (Pipeline.pin (pcfgs (F := F)) (adm m)) (cellOf_inj (adm m))), 1)

set_option backward.isDefEq.respectTransparency.types false in
/-- Every weakly fair execution of @main terminates, nothing faulting, with the result array at what the second region
    leaves and the argument as launched. -/
theorem run (ρ : Dev nD → PrngReg) :
    θ_run defs (onTc (τ := τ) (main (F := F))) ⟨m, fun _ => 0, ρ⟩ (fun r => ∀ c : Dev nD,
      r.2.mem ((c.tc : Thread nD τ).loc main_v11) = res m c
      ∧ r.2.mem ((c.tc : Thread nD τ).loc main_arg0) = m ((c.tc : Thread nD τ).loc main_arg0)) := by
  have hrun := run_cond m (EP := embL) (ι := ()) (𝒱₀ := Variants.none) (L := L0) (lv := lv0) (hL := fun _ _ => rfl) (ρ := ρ)
    (outs := outs m) (a := adm m) (pdats := pdats m) (O₀ := fun _ => 0) (G := fun _ => (BI.emp : sProp 𝕄)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => rides c)
    (hE0 := by
      refine Pipeline.initEach L0 lv0 fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := R0 m) (hpre0 := fun c => .rfl) (hpost0 := fun c => .rfl)
    (R1 := R1 m) (hpre1 := fun c => .rfl) (hpost1 := fun c => .rfl)
  exact (θ_run defs _ _).mono (fun r h c => ⟨(h c).1.trans ((V7_v11 m c).trans (outs_7 m c)), (h c).2⟩) hrun

/-- The frame: @main runs to the end and leaves its argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run m ρ)

end Cert.KernelIdeal.Hand

end
-- ==== Proof.TrimSpec.lean ====
/-
  The specification both programs meet, stated over a bare array of extended reals: no program is imported.

  For `x` of shape [1024, 131072] a column is *live* when some row holds a nonzero entry there. `keep x` is one past the
  last live column, and the whole width when no column is live. `trimmed x` is `x` on the columns before `keep x` and zero
  from there on. Both programs compute `keep x` in 32-bit words by different reductions; the lemmas below are the two ways
  a computed number is recognised as `keep x` (no live column; or a live column with none after it), and the one consequence
  the comparison of the two results needs: from column `keep x` on, `x` itself is zero.
-/
import Idealize.ShloMosaic.PureOps.Ideal
import Idealize.ShloMosaic.Lib.ValueIdx

noncomputable section

namespace Cert.Trim

open Idealize.ShloMosaic Idealize.ShloMosaic.ValueIdx

/-- The array's shape. -/
abbrev SX : Shape := ⟨2, ![1024, 131072]⟩

/-- Column `c` is live: some row holds a nonzero entry there. -/
def live (x : SX.Idx → EReal) (c : Fin 131072) : Prop := ∃ r : Fin 1024, x (ix2 r c) ≠ 0

open Classical in
/-- The number of leading columns kept: one past the last live column; every column when none is live. -/
def keep (x : SX.Idx → EReal) : ℕ :=
  if h : ∃ c, live x c then
    ((Finset.univ.filter (live x)).max' (h.elim fun c hc => ⟨c, Finset.mem_filter.2 ⟨Finset.mem_univ _, hc⟩⟩)).val + 1
  else 131072

/-- `x` with every column from `keep x` on set to zero. -/
def trimmed (x : SX.Idx → EReal) : SX.Idx → EReal := fun i => if (i 1).val < keep x then x i else 0

/-- With no live column everything is kept. -/
theorem keep_of_none (x : SX.Idx → EReal) (h : ∀ c, ¬ live x c) : keep x = 131072 := by
  unfold keep; rw [dif_neg]; rintro ⟨c, hc⟩; exact h c hc

/-- A live column with no live column after it is the last one: `keep x` is one past it. -/
theorem keep_of_last (x : SX.Idx → EReal) (c : Fin 131072) (hc : live x c) (hlast : ∀ c', live x c' → c' ≤ c) :
    keep x = c.val + 1 := by
  classical
  unfold keep
  rw [dif_pos ⟨c, hc⟩]
  refine congrArg (fun z : Fin 131072 => z.val + 1) (le_antisymm ?_ ?_)
  · exact Finset.max'_le _ _ _ (fun c' h' => hlast c' (Finset.mem_filter.1 h').2)
  · exact Finset.le_max' _ _ (Finset.mem_filter.2 ⟨Finset.mem_univ _, hc⟩)

/-- At most the whole width is kept. -/
theorem keep_le (x : SX.Idx → EReal) : keep x ≤ 131072 := by
  classical
  unfold keep
  split
  · exact Nat.succ_le_of_lt (Fin.isLt _)
  · exact le_rfl

/-- A live column lies before `keep x`. -/
theorem lt_keep_of_live (x : SX.Idx → EReal) (c : Fin 131072) (hc : live x c) : c.val < keep x := by
  classical
  unfold keep
  rw [dif_pos ⟨c, hc⟩]
  exact Nat.lt_succ_of_le (Fin.le_def.1 (Finset.le_max' _ _ (Finset.mem_filter.2 ⟨Finset.mem_univ _, hc⟩)))

/-- From column `keep x` on, `x` is zero: such a column is not live. -/
theorem zero_of_keep_le (x : SX.Idx → EReal) (r : Fin 1024) (c : Fin 131072) (h : keep x ≤ c.val) : x (ix2 r c) = 0 := by
  by_contra hne
  exact absurd (lt_keep_of_live x c ⟨r, hne⟩) (Nat.not_lt.2 h)

/-- `trimmed` at coordinates. -/
theorem trimmed_apply (x : SX.Idx → EReal) (r : Fin 1024) (c : Fin 131072) :
    trimmed x (ix2 r c) = if c.val < keep x then x (ix2 r c) else 0 := rfl

end Cert.Trim

end
-- ==== Proof.KernelIdeal.Reg0Value.lean ====
/-
  What the first kernel region leaves in its output array, at the ideal values: the stored row holds, at each column, 1 when
  some row of the argument array is nonzero in that column and 0 otherwise. First the payload at an index of a block (the
  maximum down the rows of the nonzero-indicator, compared with zero, as a float); then each written-back block as the
  restriction of ONE function of the argument array; then the whole array, the blocks covering it.
-/
import proofs.«148527_j58789512348330_2_alg».proof.Proof.KernelIdeal.Reg0
import proofs.«148527_j58789512348330_2_alg».proof.Proof.TrimSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Reg0

open Cert.KernelIdeal Cert.KernelIdeal.Gen Cert.KernelIdeal.GenP Cert.KernelIdeal.Hand
open Idealize.ShloMosaic Idealize.ShloMosaic.TcCoe Idealize.ShloMosaic.ValueIdx Idealize.SL.Sem
open Idealize.ShloMosaic.Pipeline (Dat)

/-! ## The payload at an index -/

/-- The pattern of negative infinity denotes the bottom of the extended reals. -/
theorem ofBits_ninf : Ideal.ofBits .f32 0xFF800000#32 = ⊥ := by simp [Ideal.ofBits, Ideal.ieee]

/-- The source index of a reduction down the rows: row `r` inserted over column `j`. -/
theorem lift_rows (h : S1024x2048.Reduces [0] S2048) (j : Fin 2048) (r : Fin 1024) :
    h.lift (ValueIdx.ix1 j) r = ix2 r j := by
  funext a
  apply Fin.ext
  match a with
  | ⟨0, _⟩ => rfl
  | ⟨1, _⟩ => rfl

/-- The maximum over the rows, from negative infinity, of values that are each 0 or 1 is positive exactly when some
    value is 1. -/
theorem zero_lt_fold_max (f : Fin 1024 → EReal) :
    (0 : EReal) < (Finset.univ : Finset (Fin 1024)).fold max ⊥ f ↔ ∃ r, 0 < f r := by
  rw [Finset.lt_fold_max]
  constructor
  · rintro (h | ⟨r, -, h⟩)
    · exact absurd h (not_lt_bot)
    · exact ⟨r, h⟩
  · rintro ⟨r, h⟩; exact .inr ⟨r, Finset.mem_univ _, h⟩

/-- The indicator of a nonzero entry, at an index. -/
theorem ind_apply (x0 : FVec Ideal S1024x2048 .f32) (r : Fin 1024) (j : Fin 2048) :
    (select (cmpf .one x0 (broadcast S1024x2048 (Scalar.ofBits .f32 0x00000000#32)))
        (broadcast S1024x2048 (Scalar.ofBits .f32 0x3F800000#32))
        (broadcast S1024x2048 (Scalar.ofBits .f32 0x00000000#32)) : FVec Ideal S1024x2048 .f32) (ix2 r j)
      = if x0 (ix2 r j) ≠ 0 then 1 else 0 := by
  show Scalar.select (Ideal.cmp .one (x0 (ix2 r j)) (Ideal.ofBits .f32 0x00000000#32))
      (Ideal.ofBits .f32 0x3F800000#32) (Ideal.ofBits .f32 0x00000000#32) = _
  rw [Ideal.ofBits_zero_f32, Ideal.ofBits_one_f32]
  unfold Ideal.cmp Scalar.select
  by_cases h : x0 (ix2 r j) = 0
  · simp [h]
  · simp [h]

/-- The maximum down the rows from negative infinity, at a column. -/
theorem max_rows_apply (v5 : FVec Ideal S1024x2048 .f32) (j : Fin 2048) :
    multiReduction .maximumf [0] S2048 v5 0xFF800000#32 reduces_S1024x2048_S2048 (.inl rfl) rfl (ValueIdx.ix1 j)
      = (Finset.univ : Finset (Fin 1024)).fold max ⊥ (fun r => v5 (ix2 r j)) := by
  refine (Ideal.multiReduction_maximumf_single v5 0xFF800000#32 reduces_S1024x2048_S2048 (.inl rfl) rfl (ValueIdx.ix1 j)).trans ?_
  rw [show FloatOps.ofBits (F := Ideal) .f32 0xFF800000#32 = ⊥ from ofBits_ninf]
  exact Finset.fold_congr (fun r _ => congrArg v5 (lift_rows _ j r))

/-- The conversion of a widened truth bit to a float: 1 for true, 0 for false. -/
theorem sitofp_bit (b : Bool) :
    FloatOps.sitofp (F := Ideal) .f32 ((BitVec.ofBool b).setWidth 32) = if b then 1 else 0 := by
  cases b
  · show (((((0#1 : BitVec 1).setWidth 32).toInt : ℤ) : ℝ) : EReal) = 0
    rw [show ((0#1 : BitVec 1).setWidth 32).toInt = 0 by decide]; simp
  · show (((((1#1 : BitVec 1).setWidth 32).toInt : ℤ) : ℝ) : EReal) = 1
    rw [show ((1#1 : BitVec 1).setWidth 32).toInt = 1 by decide]; simp

open Classical in
/-- THE PAYLOAD AT AN INDEX: column `j` of the stored row is 1 when some row of the loaded block is nonzero there, else 0. -/
theorem pay_apply (x0 : Vec Ideal S1024x2048 .f32) (u : Fin 1) (j : Fin 2048) :
    k0_pay1 x0 (ix2 u j) = if ∃ r : Fin 1024, x0 (ix2 r j) ≠ 0 then 1 else 0 := by
  unfold k0_pay1
  dsimp only []
  rw [sitofp_apply, extui_apply, shapeCast_a_1a_apply, cmpf_apply, broadcast_apply]
  rw [max_rows_apply]
  simp only [ind_apply]
  show FloatOps.sitofp (F := Ideal) .f32 ((Ideal.cmp .ogt
      ((Finset.univ : Finset (Fin 1024)).fold max ⊥ fun r => if x0 (ix2 r j) ≠ 0 then (1 : EReal) else 0)
      (Ideal.ofBits .f32 0x00000000#32)).setWidth 32) = _
  rw [Ideal.ofBits_zero_f32]
  unfold Ideal.cmp
  show FloatOps.sitofp (F := Ideal) .f32 ((BitVec.ofBool (decide ((0 : EReal) <
      (Finset.univ : Finset (Fin 1024)).fold max ⊥ fun r => if x0 (ix2 r j) ≠ 0 then (1 : EReal) else 0))).setWidth 32) = _
  rw [sitofp_bit]
  refine if_congr ?_ rfl rfl
  rw [decide_eq_true_iff, zero_lt_fold_max]
  refine exists_congr fun r => ?_
  by_cases h : x0 (ix2 r j) = 0
  · simp [h]
  · simp [h]

/-! ## From blocks to the array -/

theorem zero_offsets : (![0, 0] : Fin 2 → Nat) = fun _ => 0 := funext fun a => by fin_cases a <;> rfl

open Classical in
/-- The liveness row of an array: at column `i 1`, 1 when some row is nonzero there, else 0. -/
def liveRow (x : S1024x131072.Idx → EReal) : S1x131072.Idx → EReal :=
  fun i => if Cert.Trim.live x (i 1) then 1 else 0

/-- The printed index maps, decided over the grid: the input's block sits on row-block 0 and moves along the columns
    with the output's, whose row-block is 0. -/
theorem idx_facts : ∀ t : Fin cfg0.N, win0_0.index t (0 : Fin 2) = 0
    ∧ win0_0.index t (1 : Fin 2) = win0_1.index t (1 : Fin 2)
    ∧ win0_1.index t (0 : Fin 2) = 0 :=
  (by decide +kernel : ∀ t : Fin grid0.N, _)

/-- Every column block is some point's. -/
theorem idx_onto : ∀ q : Fin 64, ∃ t : Fin cfg0.N, win0_1.index t = ![0, q.val] :=
  (by decide +kernel : ∀ q : Fin 64, ∃ t : Fin grid0.N, win0_1.index t = ![0, q.val])

open Classical in
/-- A loaded block whose column `j` is column `col` of an array `x`, row by row, stores at `j` the liveness of `col` in `x`. -/
theorem pay_of_column (x0 : Vec Ideal S1024x2048 .f32) (x : S1024x131072.Idx → EReal) (u : Fin 1) (j : Fin 2048)
    (col : Fin 131072) (hx : ∀ r : Fin 1024, x0 (ix2 r j) = x (ix2 r col)) :
    k0_pay1 x0 (ix2 u j) = if Cert.Trim.live x col then 1 else 0 := by
  rw [pay_apply]
  have hc : (∃ r : Fin 1024, x0 (ix2 r j) ≠ 0) ↔ Cert.Trim.live x col :=
    exists_congr fun r => by rw [hx r]
  by_cases hl : ∃ r : Fin 1024, x0 (ix2 r j) ≠ 0
  · rw [if_pos hl, if_pos (hc.mp hl)]
  · rw [if_neg hl, if_neg (fun h => hl (hc.mpr h))]

variable (c : Dev nD) (Vin : (b : Ref sig .tc) → Buf (Elt Ideal) ((c : Thread nD τ).loc b))

/-- The input window's block at a point, read at an index: the argument array at the block's embedded index. -/
theorem iblk0_apply (t : Fin cfg0.N) (y : S1024x2048.Idx) :
    iblk c Vin 0 t y = Vin main_arg0 (((cfg0.win 0).blk t).view.emb y) := rfl

/-- WHAT POINT `t` WRITES BACK is block `t` of the liveness row of the argument array as the region finds it. -/
theorem flushed_eq (t : Fin cfg0.N) :
    (dat (F := Ideal) c Vin).flushed 1 t = ((cfg0.win 1).blk t).view.read (Elt Ideal) (liveRow (Vin main_arg0)) := by
  show (cfg0.win 1).cut (grid0.coords t) ((dat c Vin).after 1 t) = _
  rw [after_1]
  unfold outBlk
  rw [View.canon_unit_zero zero_offsets]
  simp only [View.ld_unit_zero (S := S1024x2048) zero_offsets]
  obtain ⟨e0, e1, e2⟩ := idx_facts t
  funext y
  obtain ⟨u, j, rfl⟩ : ∃ (u : Fin 1) (j : Fin 2048), y = ix2 u j := ⟨y 0, y 1, eq_ix2 y⟩
  show k0_pay1 (iblk c Vin 0 t) (ix2 u j) = liveRow (Vin main_arg0) (((cfg0.win 1).blk t).view.emb (ix2 u j))
  have e : ∀ r : Fin 1024, ((cfg0.win 0).blk t).view.emb (ix2 r j) = ix2 r ((((cfg0.win 1).blk t).view.emb (ix2 u j)) 1) := by
    intro r
    funext a; apply Fin.ext
    match a with
    | ⟨0, _⟩ => show win0_0.index t (0 : Fin 2) * 1024 + 1 * r.val = r.val; omega
    | ⟨1, _⟩ => show win0_0.index t (1 : Fin 2) * 2048 + 1 * j.val = win0_1.index t (1 : Fin 2) * 2048 + 1 * j.val; omega
  exact pay_of_column (iblk c Vin 0 t) (Vin main_arg0) u j _
    (fun r => (iblk0_apply c Vin t (ix2 r j)).trans (congrArg (Vin main_arg0) (e r)))

/-- An index of the array is in point `t`'s block iff each coordinate is in the block's range on its axis. -/
theorem mem_blk (t : Fin cfg0.N) (i : S1x131072.Idx) :
    i ∈ ((cfg0.win 1).blk t).view.set ↔ ∀ a : Fin 2, win0_1.index t a * S1x2048.size a ≤ (i a).val ∧ (i a).val < win0_1.index t a * S1x2048.size a + S1x2048.size a := by
  show i ∈ ((View.whole main_v0).slice (win0_1.rect t)).set ↔ _
  rw [View.set_slice_whole, Rect.mem_set_unit]
  exact Iff.rfl

/-- Every index of the output array is in some point's block: column `i 1` is covered by point `i 1 / 2048`. -/
theorem cover (i : S1x131072.Idx) : ∃ t : Fin cfg0.N, (cfg0.win 1).flush t = true ∧ i ∈ ((cfg0.win 1).blk t).view.set := by
  have hi0 : (i 0).val < 1 := (i 0).isLt
  have hi1 : (i 1).val < 131072 := (i 1).isLt
  obtain ⟨t, ht⟩ := idx_onto ⟨(i 1).val / 2048, by omega⟩
  have q0 : win0_1.index t (0 : Fin 2) = 0 := congrFun ht 0
  have q1 : win0_1.index t (1 : Fin 2) = (i 1).val / 2048 := congrFun ht 1
  refine ⟨t, flush0_1 t, ?_⟩
  rw [mem_blk]
  intro a
  match a with
  | ⟨0, _⟩ => show win0_1.index t (0 : Fin 2) * 1 ≤ (i 0).val ∧ (i 0).val < win0_1.index t (0 : Fin 2) * 1 + 1; omega
  | ⟨1, _⟩ => show win0_1.index t (1 : Fin 2) * 2048 ≤ (i 1).val ∧ (i 1).val < win0_1.index t (1 : Fin 2) * 2048 + 2048; omega

/-- THE OUTPUT ARRAY after the region: the liveness row of the argument array. -/
theorem arr_out : (dat (F := Ideal) c Vin).arrAt 1 cfg0.N = liveRow (Vin main_arg0) :=
  (dat c Vin).arrAt_eq_of_cover 1 (liveRow (Vin main_arg0)) (fun t _ => flushed_eq c Vin t) cover

/-- At a live column the output row holds 1. -/
theorem row_live (col : Fin 131072) (h : Cert.Trim.live (Vin main_arg0) col) :
    (dat (F := Ideal) c Vin).arrAt 1 cfg0.N (ix2 0 col) = (1 : EReal) := by
  rw [arr_out]; exact if_pos h

/-- At a column that is not live the output row holds 0. -/
theorem row_dead (col : Fin 131072) (h : ¬ Cert.Trim.live (Vin main_arg0) col) :
    (dat (F := Ideal) c Vin).arrAt 1 cfg0.N (ix2 0 col) = (0 : EReal) := by
  rw [arr_out]; exact if_neg h

end Cert.KernelIdeal.Reg0
end
-- ==== Proof.Reg1Words.lean ====
/-
  Word arithmetic for the second kernel's decisions: no program is imported.

  The kernel compares 32-bit words as signed integers: the first column of a tile (2048·n, n < 64), one past its last
  column, a column of the tile, and the threshold (a number at most 131072). All of them lie below 2³¹, where the signed
  reading of a word is its unsigned value; so each comparison is the comparison of natural numbers. The two chains of
  one-bit operations that decide a point (the tile straddles the threshold; the tile lies at or after it) are read off
  case by case on their bits.
-/
import Idealize.ShloMosaic.PureOps.Reduce

namespace Cert.Reg1Words

open Idealize.ShloMosaic

/-! ## Signed comparisons below 2³¹ -/

/-- Below 2³¹ a word's signed reading is its unsigned value. -/
theorem toInt_of_lt (a : BitVec 32) (h : a.toNat < 2 ^ 31) : a.toInt = (a.toNat : Int) := by
  rw [BitVec.toInt_eq_toNat_cond, if_pos (by omega)]

/-- A boolean as a bit is 1 exactly when it is true. -/
theorem ofBool_eq_one_iff (b : Bool) : BitVec.ofBool b = 1#1 ↔ b = true := by cases b <;> decide

theorem cmpi_sle_iff (a b : BitVec 32) (ha : a.toNat < 2 ^ 31) (hb : b.toNat < 2 ^ 31) :
    Scalar.cmpi .sle a b = 1#1 ↔ a.toNat ≤ b.toNat := by
  show BitVec.ofBool (a.sle b) = 1#1 ↔ _
  rw [ofBool_eq_one_iff]
  simp only [BitVec.sle, decide_eq_true_eq]
  rw [toInt_of_lt a ha, toInt_of_lt b hb]
  exact Int.ofNat_le

theorem cmpi_sge_iff (a b : BitVec 32) (ha : a.toNat < 2 ^ 31) (hb : b.toNat < 2 ^ 31) :
    Scalar.cmpi .sge a b = 1#1 ↔ b.toNat ≤ a.toNat := by
  show BitVec.ofBool (b.sle a) = 1#1 ↔ _
  rw [ofBool_eq_one_iff]
  simp only [BitVec.sle, decide_eq_true_eq]
  rw [toInt_of_lt a ha, toInt_of_lt b hb]
  exact Int.ofNat_le

theorem cmpi_slt_iff (a b : BitVec 32) (ha : a.toNat < 2 ^ 31) (hb : b.toNat < 2 ^ 31) :
    IntOp.cmpi .slt a b = 1#1 ↔ a.toNat < b.toNat := by
  show BitVec.ofBool (a.slt b) = 1#1 ↔ _
  rw [ofBool_eq_one_iff]
  simp only [BitVec.slt, decide_eq_true_eq]
  rw [toInt_of_lt a ha, toInt_of_lt b hb]
  exact Int.ofNat_lt

/-! ## The chains of bits -/

/-- The straddle chain on two bits: neither is set. -/
theorem str_bits_iff (p q : BitVec 1) :
    Scalar.cmpi .ne (Scalar.extui (Scalar.andi (Scalar.xori p 1#1) (Scalar.xori q 1#1))) 0#32 = 1#1 ↔ p ≠ 1#1 ∧ q ≠ 1#1 := by
  rcases BitVec.eq_zero_or_eq_one p with rfl | rfl <;> rcases BitVec.eq_zero_or_eq_one q with rfl | rfl <;> decide

/-- The zero chain on a bit: it is set. -/
theorem zero_bit_iff (q : BitVec 1) : Scalar.cmpi .ne (Scalar.extui q) 0#32 = 1#1 ↔ q = 1#1 := by
  rcases BitVec.eq_zero_or_eq_one q with rfl | rfl <;> decide

/-- THE STRADDLE DECISION on words below 2³¹: the threshold lies strictly between the tile's start and its end. -/
theorem cStr_iff (ts te kw : BitVec 32) (hts : ts.toNat < 2 ^ 31) (hte : te.toNat < 2 ^ 31) (hkw : kw.toNat < 2 ^ 31) :
    Scalar.cmpi .ne (Scalar.extui (Scalar.andi (Scalar.xori (Scalar.cmpi .sle te kw) 1#1)
        (Scalar.xori (Scalar.cmpi .sge ts kw) 1#1))) 0#32 = 1#1
      ↔ ts.toNat < kw.toNat ∧ kw.toNat < te.toNat := by
  rw [str_bits_iff, Ne, Ne, cmpi_sle_iff te kw hte hkw, cmpi_sge_iff ts kw hts hkw]
  omega

/-- THE ZERO DECISION on words below 2³¹: the tile starts at or after the threshold. -/
theorem cZero_iff (ts kw : BitVec 32) (hts : ts.toNat < 2 ^ 31) (hkw : kw.toNat < 2 ^ 31) :
    Scalar.cmpi .ne (Scalar.extui (Scalar.cmpi .sge ts kw)) 0#32 = 1#1 ↔ kw.toNat ≤ ts.toNat := by
  rw [zero_bit_iff, cmpi_sge_iff ts kw hts hkw]

/-! ## The words -/

/-- The tile's first column as a word. -/
theorem toNat_tstart (n : Nat) (hn : n < 64) : (Scalar.muli (BitVec.ofNat 32 n) 2048#32).toNat = 2048 * n := by
  show (BitVec.ofNat 32 n * 2048#32).toNat = _
  rw [BitVec.toNat_mul, BitVec.toNat_ofNat, BitVec.toNat_ofNat]
  omega

/-- One past the tile's last column as a word. -/
theorem toNat_tend (n : Nat) (hn : n < 64) :
    (Scalar.addi (Scalar.muli (BitVec.ofNat 32 n) 2048#32) 2048#32).toNat = 2048 * n + 2048 := by
  show (Scalar.muli (BitVec.ofNat 32 n) 2048#32 + 2048#32).toNat = _
  rw [BitVec.toNat_add, toNat_tstart n hn, BitVec.toNat_ofNat]
  omega

/-- A column of the tile as a word: its offset in the tile plus the tile's first column. -/
theorem toNat_col (n j : Nat) (hn : n < 64) (hj : j < 2048) :
    (IntOp.addi (BitVec.ofNat 32 j) (Scalar.muli (BitVec.ofNat 32 n) 2048#32)).toNat = 2048 * n + j := by
  show (BitVec.ofNat 32 j + Scalar.muli (BitVec.ofNat 32 n) 2048#32).toNat = _
  rw [BitVec.toNat_add, toNat_tstart n hn, BitVec.toNat_ofNat]
  omega

/-- The threshold as a word. -/
theorem toNat_kw (k : Nat) (hk : k ≤ 131072) : (BitVec.ofNat 32 k).toNat = k := by
  rw [BitVec.toNat_ofNat]; omega

/-! ## The weight: a bit widened to a word and read as a signed integer -/

theorem toInt_setWidth_one : ((1#1 : BitVec 1).setWidth 32).toInt = 1 := by decide
theorem toInt_setWidth_zero : ((0#1 : BitVec 1).setWidth 32).toInt = 0 := by decide

end Cert.Reg1Words
-- ==== Proof.KernelIdeal.Reg1Value.lean ====
/-
  The second kernel's 64 points, as a value: started from an array `x`, with the threshold word of `keep x`, they leave
  `x` with every column from `keep x` on set to zero.

  Point `n` owns the tile of columns [2048·n, 2048·n + 2048). The invariant, by induction on the number of points run:
  the columns of the tiles already visited hold the trimmed array, all other columns still hold `x`. One point keeps it,
  by the three cases of its two decisions, each read as arithmetic on natural numbers (the module on the word arithmetic):
    * the threshold lies strictly inside the tile: the tile is overwritten with its own entries (still those of `x`) times
      the weight 1 on the columns before the threshold and 0 from it on — `x · 1 = x` and `x · 0 = 0` in the extended
      reals, with no finiteness needed;
    * the tile starts at or after the threshold: it is overwritten with zeros, which is what trimming leaves there;
    * otherwise the tile ends at or before the threshold: it is left alone, and trimming leaves it alone too.
  A whole-tile write through a unit-stride slice of the whole array is an update of the array at the tile's offsets, read at
  an index by a plain case split on the column; the tile's offsets are taken in their closed form.
-/
import proofs.«148527_j58789512348330_2_alg».proof.Proof.KernelIdeal.Reg1Defs
import proofs.«148527_j58789512348330_2_alg».proof.Proof.TrimSpec
import proofs.«148527_j58789512348330_2_alg».proof.Proof.Reg1Words
import Idealize.ShloMosaic.Lib.IdealHost
import Idealize.ShloMosaic.Lib.ValueLayout
import Idealize.ShloMosaic.Lib.Pipeline.Value

noncomputable section

namespace Cert.KernelIdeal.Reg1

open Cert.KernelIdeal Cert.KernelIdeal.Gen Cert.KernelIdeal.GenP
open Idealize.ShloMosaic Idealize.ShloMosaic.TcCoe Idealize.ShloMosaic.ValueIdx
open Idealize.SL Idealize.SL.Sem

/-! ## A tile-sized update of the array, read at an index -/

/-- An update of the array by a tile-sized block at columns [2048·n, 2048·n + 2048), read at (r, col): the block's entry at
    (r, col − 2048·n) on the tile, the array's own entry off it. -/
theorem updateSlice_tile {α : Type} (x : S1024x131072.Idx → α) (upd : S1024x2048.Idx → α) (n : ℕ)
    (h : S1024x131072.Slices ![0, 2048 * n] S1024x2048) (r : Fin 1024) (col : Fin 131072) :
    updateSlice x upd ![0, 2048 * n] h (ix2 r col)
      = if hc : 2048 * n ≤ col.val ∧ col.val < 2048 * n + 2048 then upd (ix2 r ⟨col.val - 2048 * n, by omega⟩)
        else x (ix2 r col) := by
  unfold updateSlice
  by_cases hc : 2048 * n ≤ col.val ∧ col.val < 2048 * n + 2048
  · have hin : ∀ a : Fin 2, (![0, 2048 * n] : Fin 2 → ℕ) a ≤ ((ix2 r col : S1024x131072.Idx) a).val
        ∧ ((ix2 r col : S1024x131072.Idx) a).val < (![0, 2048 * n] : Fin 2 → ℕ) a + S1024x2048.size (a.cast h.1.symm) :=
      Fin.forall_fin_two.2 ⟨⟨Nat.zero_le _, by show r.val < 0 + 1024; omega⟩, ⟨hc.1, hc.2⟩⟩
    rw [dif_pos hc, dif_pos hin]
    refine congrArg upd (funext fun b => ?_)
    match b with
    | ⟨0, _⟩ => exact Fin.ext (Nat.sub_zero _)
    | ⟨1, _⟩ => rfl
  · rw [dif_neg hc, dif_neg (fun hin => hc ⟨(hin 1).1, (hin 1).2⟩)]

/-- The straddling point's write is an update of the array at the tile's offsets. -/
theorem stepStr_eq (c : Dev nD) (i : grid1.Coords) (kw : BitVec 32) (fv : Bf (F := Ideal) c (Memref.whole main_v11)) :
    stepStr c i kw fv = updateSlice fv (k1_pay1 i kw (tileOf c i fv)) (k1_off1 i) ⟨rfl, k1_off1_inb i⟩ := by
  unfold stepStr
  exact View.write_whole_slice_unit main_v11 (k1_off1 i) S1024x2048.size (k1_off1_inb i) fv _

/-- The zeroing point's write is an update of the array at the tile's offsets. -/
theorem stepZero_eq (c : Dev nD) (i : grid1.Coords) (fv : Bf (F := Ideal) c (Memref.whole main_v11)) :
    stepZero c i fv = updateSlice fv (k1_pay2 (F := Ideal)) (k1_off2 i) ⟨rfl, k1_off2_inb i⟩ := by
  unfold stepZero
  exact View.write_whole_slice_unit main_v11 (k1_off2 i) S1024x2048.size (k1_off2_inb i) fv _

/-- Point `n`'s one coordinate is `n`. -/
theorem pointOf_coord (n : ℕ) (hn : n < 64) : ((pointOf n) 0).val = n := by
  unfold pointOf
  show (n % grid1.N) / grid1.stride 0 % grid1.bound 0 = n
  have h1 : grid1.stride 0 = 1 := by decide
  have h2 : grid1.N = 64 := by decide
  have h3 : grid1.bound 0 = 64 := rfl
  rw [h1, h2, h3]
  omega

/-! ## The tile read out of the array, and the payloads, at an index -/

/-- The tile read out of the array: its entry at (r, j) is the array's at (r, 2048·n + j). -/
theorem tileOf_apply (c : Dev nD) (i : grid1.Coords) (fv : Bf (F := Ideal) c (Memref.whole main_v11)) (n : ℕ) (hn : (i 0).val = n)
    (hlt : n < 64) (r : Fin 1024) (j : Fin 2048) :
    tileOf c i fv (ix2 r j) = (fv : S1024x131072.Idx → EReal) (ix2 r ⟨2048 * n + j.val, by omega⟩) := by
  unfold tileOf
  show (fv : S1024x131072.Idx → EReal) ((tileS i).view.emb (ix2 r j)) = _
  refine congrArg (fv : S1024x131072.Idx → EReal) (funext fun a => Fin.ext ?_)
  rw [View.emb_slice, Function.Embedding.trans_apply, View.emb_whole, Function.Embedding.refl_apply, Rect.emb_apply]
  show k1_off1 i a + 1 * ((ix2 r j : S1024x2048.Idx) a).val = _
  rw [k1_off1_eq i, hn]
  match a with
  | ⟨0, _⟩ => show 0 + 1 * r.val = r.val; omega
  | ⟨1, _⟩ => show 2048 * n + 1 * j.val = 2048 * n + j.val; omega

/-- The row of weights at column j of the tile: 1 when the column 2048·n + j lies before the threshold, 0 otherwise. -/
theorem weight_apply (i : grid1.Coords) (n : ℕ) (hn : (i 0).val = n) (hlt : n < 64) (k : ℕ) (hk : k ≤ 131072) (j : Fin 2048) :
    (sitofp (F := Ideal) .f32 (extui 32 (cmpi .slt (addi (iota .tc S1x2048 32 [1] iota_S1x2048_d1_w32)
        (broadcast S1x2048 (Scalar.muli (BitVec.ofNat 32 (i 0).val) 2048#32))) (broadcast S1x2048 (BitVec.ofNat 32 k))) natLt_1_32)
      : S1x2048.Idx → EReal) (ix2 0 j) = if 2048 * n + j.val < k then 1 else 0 := by
  subst hn
  have hb : IntOp.cmpi .slt (IntOp.addi (BitVec.ofNat 32 j.val) (Scalar.muli (BitVec.ofNat 32 (i 0).val) 2048#32)) (BitVec.ofNat 32 k) = 1#1
      ↔ 2048 * (i 0).val + j.val < k := by
    rw [Reg1Words.cmpi_slt_iff _ _ (by rw [Reg1Words.toNat_col _ _ hlt j.isLt]; omega) (by rw [Reg1Words.toNat_kw k hk]; omega),
      Reg1Words.toNat_col _ _ hlt j.isLt, Reg1Words.toNat_kw k hk]
  show ((((IntOp.cmpi .slt (IntOp.addi (iota .tc S1x2048 32 [1] iota_S1x2048_d1_w32 (ix2 0 j))
      (Scalar.muli (BitVec.ofNat 32 (i 0).val) 2048#32)) (BitVec.ofNat 32 k)).setWidth 32).toInt : ℝ) : EReal) = _
  rw [iota_single_apply]
  show ((((IntOp.cmpi .slt (IntOp.addi (BitVec.ofNat 32 j.val)
      (Scalar.muli (BitVec.ofNat 32 (i 0).val) 2048#32)) (BitVec.ofNat 32 k)).setWidth 32).toInt : ℝ) : EReal) = _
  by_cases h : 2048 * (i 0).val + j.val < k
  · rw [if_pos h, hb.2 h, Reg1Words.toInt_setWidth_one]; norm_num
  · rw [if_neg h, eq_zero_of_ne_one (mt hb.1 h), Reg1Words.toInt_setWidth_zero]; norm_num

/-- The straddling point's payload at (r, j): the tile's entry times the column's weight. -/
theorem pay1_apply (i : grid1.Coords) (n : ℕ) (hn : (i 0).val = n) (hlt : n < 64) (k : ℕ) (hk : k ≤ 131072)
    (v22 : S1024x2048.Idx → EReal) (r : Fin 1024) (j : Fin 2048) :
    k1_pay1 (F := Ideal) i (BitVec.ofNat 32 k) v22 (ix2 r j) = v22 (ix2 r j) * (if 2048 * n + j.val < k then 1 else 0) := by
  unfold k1_pay1
  dsimp only []
  refine (congrFun (shapeCast_self _ _) (ix2 r j)).trans ?_
  refine congrArg (fun z : EReal => v22 (ix2 r j) * z) ?_
  refine (broadcastTo_1b_ab_apply _ _ r j).trans ?_
  exact weight_apply i n hn hlt k hk j

/-- The zeroing point's payload is zero everywhere. -/
theorem pay2_apply (r : Fin 1024) (j : Fin 2048) : k1_pay2 (F := Ideal) (ix2 r j) = 0 := by
  unfold k1_pay2
  refine (congrFun (shapeCast_self _ _) (ix2 r j)).trans ?_
  exact Ideal.ofBits_zero_f32

/-! ## The two decisions as arithmetic -/

/-- The straddle decision: the threshold lies strictly inside the tile. -/
theorem cStr_iff (i : grid1.Coords) (n : ℕ) (hi : (i 0).val = n) (hn : n < 64) (k : ℕ) (hk : k ≤ 131072) :
    cStr i (BitVec.ofNat 32 k) ↔ 2048 * n < k ∧ k < 2048 * n + 2048 := by
  subst hi
  have h1 : (tstart i).toNat = 2048 * (i 0).val := Reg1Words.toNat_tstart _ hn
  have h2 : (tend i).toNat = 2048 * (i 0).val + 2048 := Reg1Words.toNat_tend _ hn
  have h3 := Reg1Words.toNat_kw k hk
  have h := Reg1Words.cStr_iff (tstart i) (tend i) (BitVec.ofNat 32 k) (by omega) (by omega) (by omega)
  rw [h1, h2, h3] at h
  exact h

/-- The zero decision: the tile starts at or after the threshold. -/
theorem cZero_iff (i : grid1.Coords) (n : ℕ) (hi : (i 0).val = n) (hn : n < 64) (k : ℕ) (hk : k ≤ 131072) :
    cZero i (BitVec.ofNat 32 k) ↔ k ≤ 2048 * n := by
  subst hi
  have h1 : (tstart i).toNat = 2048 * (i 0).val := Reg1Words.toNat_tstart _ hn
  have h3 := Reg1Words.toNat_kw k hk
  have h := Reg1Words.cZero_iff (tstart i) (BitVec.ofNat 32 k) (by omega) (by omega)
  rw [h1, h3] at h
  exact h

/-! ## The two writes read at an index -/

/-- The array after a straddling point, at (r, col). -/
theorem stepStr_apply (c : Dev nD) (i : grid1.Coords) (kw : BitVec 32) (fv : S1024x131072.Idx → EReal) (n : ℕ)
    (hi : (i 0).val = n) (r : Fin 1024) (col : Fin 131072) :
    (stepStr (F := Ideal) c i kw fv : S1024x131072.Idx → EReal) (ix2 r col)
      = if hc : 2048 * n ≤ col.val ∧ col.val < 2048 * n + 2048
        then k1_pay1 (F := Ideal) i kw (tileOf c i fv) (ix2 r ⟨col.val - 2048 * n, by omega⟩) else fv (ix2 r col) := by
  have e : k1_off1 i = ![0, 2048 * n] := (k1_off1_eq i).trans (by rw [hi])
  have h' : S1024x131072.Slices ![0, 2048 * n] S1024x2048 :=
    e ▸ (⟨rfl, k1_off1_inb i⟩ : S1024x131072.Slices (k1_off1 i) S1024x2048)
  have e1 : (stepStr (F := Ideal) c i kw fv : S1024x131072.Idx → EReal)
      = updateSlice (s := S1024x131072) fv (k1_pay1 (F := Ideal) i kw (tileOf c i fv)) ![0, 2048 * n] h' :=
    (stepStr_eq c i kw fv).trans (updateSlice_congr (s := S1024x131072) (u := S1024x2048) fv rfl e (⟨rfl, k1_off1_inb i⟩ : S1024x131072.Slices (k1_off1 i) S1024x2048) h')
  exact (congrFun e1 (ix2 r col)).trans (updateSlice_tile _ _ n h' r col)

/-- The array after a zeroing point, at (r, col). -/
theorem stepZero_apply (c : Dev nD) (i : grid1.Coords) (fv : S1024x131072.Idx → EReal) (n : ℕ)
    (hi : (i 0).val = n) (r : Fin 1024) (col : Fin 131072) :
    (stepZero (F := Ideal) c i fv : S1024x131072.Idx → EReal) (ix2 r col)
      = if hc : 2048 * n ≤ col.val ∧ col.val < 2048 * n + 2048
        then k1_pay2 (F := Ideal) (ix2 r ⟨col.val - 2048 * n, by omega⟩) else fv (ix2 r col) := by
  have e : k1_off2 i = ![0, 2048 * n] := (k1_off2_eq i).trans (by rw [hi])
  have h' : S1024x131072.Slices ![0, 2048 * n] S1024x2048 :=
    e ▸ (⟨rfl, k1_off2_inb i⟩ : S1024x131072.Slices (k1_off2 i) S1024x2048)
  have e1 : (stepZero (F := Ideal) c i fv : S1024x131072.Idx → EReal)
      = updateSlice (s := S1024x131072) fv (k1_pay2 (F := Ideal)) ![0, 2048 * n] h' :=
    (stepZero_eq c i fv).trans (updateSlice_congr (s := S1024x131072) (u := S1024x2048) fv rfl e (⟨rfl, k1_off2_inb i⟩ : S1024x131072.Slices (k1_off2 i) S1024x2048) h')
  exact (congrFun e1 (ix2 r col)).trans (updateSlice_tile _ _ n h' r col)

/-! ## One point keeps the invariant -/

open Cert.Trim

/-- After `n` points: the columns of the first `n` tiles are trimmed, the others are as at entry. -/
def Inv (x fv : S1024x131072.Idx → EReal) (n : ℕ) : Prop :=
  ∀ (r : Fin 1024) (col : Fin 131072),
    fv (ix2 r col) = if col.val < 2048 * n then trimmed x (ix2 r col) else x (ix2 r col)

/-- ONE POINT KEEPS THE INVARIANT. -/
theorem step_inv (c : Dev nD) (x fv : S1024x131072.Idx → EReal) (n : ℕ) (hn : n < 64) (hinv : Inv x fv n) :
    Inv x (stepF (F := Ideal) c (pointOf n) (BitVec.ofNat 32 (keep x)) fv) (n + 1) := by
  have hi : ((pointOf n) 0).val = n := pointOf_coord n hn
  have hk : keep x ≤ 131072 := keep_le x
  have hS := cStr_iff (pointOf n) n hi hn (keep x) hk
  have hZ := cZero_iff (pointOf n) n hi hn (keep x) hk
  intro r col
  have hfv : fv (ix2 r col)
      = if col.val < 2048 * n then (if col.val < keep x then x (ix2 r col) else 0) else x (ix2 r col) := hinv r col
  show (stepF (F := Ideal) c (pointOf n) (BitVec.ofNat 32 (keep x)) fv : S1024x131072.Idx → EReal) (ix2 r col)
      = if col.val < 2048 * (n + 1) then (if col.val < keep x then x (ix2 r col) else 0) else x (ix2 r col)
  -- off the tile the point changes nothing, and the two descriptions agree
  have hout : ¬ (2048 * n ≤ col.val ∧ col.val < 2048 * n + 2048) →
      fv (ix2 r col) = if col.val < 2048 * (n + 1) then (if col.val < keep x then x (ix2 r col) else 0) else x (ix2 r col) := by
    intro hc
    rw [hfv]
    by_cases h1 : col.val < 2048 * n
    · rw [if_pos h1, if_pos (show col.val < 2048 * (n + 1) by omega)]
    · rw [if_neg h1, if_neg (show ¬ col.val < 2048 * (n + 1) by omega)]
  -- on the tile the array still holds the argument
  have hin : (2048 * n ≤ col.val ∧ col.val < 2048 * n + 2048) → fv (ix2 r col) = x (ix2 r col) := by
    intro hc
    rw [hfv, if_neg (show ¬ col.val < 2048 * n by omega)]
  unfold stepF
  by_cases hs : cStr (pointOf n) (BitVec.ofNat 32 (keep x))
  · -- the tile straddles the threshold: its entries times the 0/1 weights
    rw [if_pos hs, stepStr_apply c (pointOf n) _ fv n hi r col]
    have hs' := hS.1 hs
    by_cases hc : 2048 * n ≤ col.val ∧ col.val < 2048 * n + 2048
    · rw [dif_pos hc, pay1_apply (pointOf n) n hi hn (keep x) hk, tileOf_apply c (pointOf n) fv n hi hn]
      show fv (ix2 r ⟨2048 * n + (col.val - 2048 * n), _⟩) * (if 2048 * n + (col.val - 2048 * n) < keep x then 1 else 0) = _
      have hcol : (⟨2048 * n + (col.val - 2048 * n), by omega⟩ : Fin 131072) = col :=
        Fin.ext (show 2048 * n + (col.val - 2048 * n) = col.val by omega)
      rw [hcol, hin hc, if_pos (show col.val < 2048 * (n + 1) by omega)]
      by_cases hlt : col.val < keep x
      · rw [if_pos (show 2048 * n + (col.val - 2048 * n) < keep x by omega), if_pos hlt, mul_one]
      · rw [if_neg (show ¬ 2048 * n + (col.val - 2048 * n) < keep x by omega), if_neg hlt, mul_zero]
    · rw [dif_neg hc]
      exact hout hc
  · rw [if_neg hs]
    by_cases hz : cZero (pointOf n) (BitVec.ofNat 32 (keep x))
    · -- the tile lies at or after the threshold: zeros
      rw [if_pos hz, stepZero_apply c (pointOf n) fv n hi r col]
      have hz' := hZ.1 hz
      by_cases hc : 2048 * n ≤ col.val ∧ col.val < 2048 * n + 2048
      · rw [dif_pos hc, pay2_apply, if_pos (show col.val < 2048 * (n + 1) by omega),
          if_neg (show ¬ col.val < keep x by omega)]
      · rw [dif_neg hc]
        exact hout hc
    · -- the tile lies wholly before the threshold: untouched, and trimming keeps it
      rw [if_neg hz]
      have hs' : ¬ (2048 * n < keep x ∧ keep x < 2048 * n + 2048) := mt hS.2 hs
      have hz' : ¬ keep x ≤ 2048 * n := mt hZ.2 hz
      by_cases hc : 2048 * n ≤ col.val ∧ col.val < 2048 * n + 2048
      · rw [hin hc, if_pos (show col.val < 2048 * (n + 1) by omega), if_pos (show col.val < keep x by omega)]
      · exact hout hc

/-- The invariant after the first `n` points. -/
theorem outAt_inv (c : Dev nD) (x : S1024x131072.Idx → EReal) (n : ℕ) (hn : n ≤ 64) :
    Inv x (outAt (F := Ideal) c (BitVec.ofNat 32 (keep x)) x n) n := by
  induction n with
  | zero =>
    intro r col
    show x (ix2 r col) = _
    rw [if_neg (by omega)]
  | succ n ih => exact step_inv c x _ n (by omega) (ih (by omega))

/-- After all 64 points the array is the argument with every column from `keep` on set to zero. -/
theorem outAt_final (c : Dev nD) (x : Bf (F := Ideal) c (Memref.whole main_v11)) :
    outAt (F := Ideal) c (BitVec.ofNat 32 (Cert.Trim.keep x)) x 64 = Cert.Trim.trimmed x := by
  funext idx
  rw [eq_ix2 idx]
  have h := outAt_inv c x 64 le_rfl (idx 0) (idx 1)
  have hlt : (idx 1).val < 131072 := (idx 1).isLt
  rw [if_pos (by omega)] at h
  exact h

end Cert.KernelIdeal.Reg1
-- ==== Proof.HostFold.lean ====
/-
  Two folds over one-bit and 32-bit words, over an arbitrary finite index set: no program is imported.

  * The OR-fold of one-bit words from 0 is 1 exactly when some word is 1.
  * The signed-maximum fold is carried to the integers by `BitVec.toInt`, where it is the fold of `max`; so when one
    word of the family is, as a signed integer, at least the initial word and every word of the family, the fold is that
    word.
  * The family the program folds: at each index either the index's position as a word (where a bit is set) or the word
    −1. From the least signed word the fold is the position of the last index whose bit is set.

  Everything is by induction on the finite set or by the universal property of a fold of `max`; nothing is evaluated.
-/
import Idealize.ShloMosaic.PureOps.Reduce
import Mathlib.Data.Finset.Fold

namespace Cert.HostFold

open Idealize.ShloMosaic

variable {ι : Type} [DecidableEq ι]

/-! ## The OR-fold of one-bit words -/

/-- The OR of two one-bit words is 1 exactly when one of them is. -/
theorem ori_eq_one_iff (a b : BitVec 1) : IntOp.ori a b = 1#1 ↔ a = 1#1 ∨ b = 1#1 := by
  unfold IntOp.ori
  rcases BitVec.eq_zero_or_eq_one a with rfl | rfl <;> rcases BitVec.eq_zero_or_eq_one b with rfl | rfl <;> decide

/-- The OR-fold from 0 is 1 exactly when some word of the family is 1. -/
theorem fold_ori_eq_one_iff (s : Finset ι) (b : ι → BitVec 1) :
    s.fold IntOp.ori 0#1 b = 1#1 ↔ ∃ i ∈ s, b i = 1#1 := by
  induction s using Finset.induction_on with
  | empty =>
    rw [Finset.fold_empty]
    exact ⟨fun h => absurd h (by decide), fun ⟨i, hi, _⟩ => absurd hi (Finset.notMem_empty i)⟩
  | insert a s ha ih =>
    rw [Finset.fold_insert ha, ori_eq_one_iff, ih]
    constructor
    · rintro (h | ⟨i, hi, h⟩)
      · exact ⟨a, Finset.mem_insert_self a s, h⟩
      · exact ⟨i, Finset.mem_insert_of_mem hi, h⟩
    · rintro ⟨i, hi, h⟩
      rcases Finset.mem_insert.1 hi with rfl | hi'
      · exact Or.inl h
      · exact Or.inr ⟨i, hi', h⟩

/-- With no word of the family equal to 1 the OR-fold from 0 is 0. -/
theorem fold_ori_eq_zero (s : Finset ι) (b : ι → BitVec 1) (h : ∀ i ∈ s, b i ≠ 1#1) :
    s.fold IntOp.ori 0#1 b = 0#1 := by
  rcases BitVec.eq_zero_or_eq_one (s.fold IntOp.ori 0#1 b) with h0 | h1
  · exact h0
  · obtain ⟨i, hi, hb⟩ := (fold_ori_eq_one_iff s b).1 h1
    exact absurd hb (h i hi)

/-! ## The signed-maximum fold -/

/-- As signed integers the signed maximum of two words is the maximum. -/
theorem toInt_maxsi {w : Nat} (x y : BitVec w) : (IntOp.maxsi x y).toInt = max x.toInt y.toInt := by
  unfold IntOp.maxsi
  simp only [BitVec.slt, decide_eq_true_eq]
  split_ifs with h
  · exact (max_eq_left (le_of_lt h)).symm
  · exact (max_eq_right (not_lt.1 h)).symm

/-- As a signed integer the signed-maximum fold is the fold of `max` over the words' signed integers. -/
theorem toInt_fold_maxsi {w : Nat} (s : Finset ι) (f : ι → BitVec w) (init : BitVec w) :
    (s.fold IntOp.maxsi init f).toInt = s.fold max init.toInt (fun i => (f i).toInt) := by
  induction s using Finset.induction_on with
  | empty => rw [Finset.fold_empty, Finset.fold_empty]
  | insert a s ha ih => rw [Finset.fold_insert ha, Finset.fold_insert ha, toInt_maxsi, ih]

/-- A word of the family that is, as a signed integer, at least the initial word and every word of the family is the
    signed-maximum fold. -/
theorem fold_maxsi_eq_of_max {w : Nat} (s : Finset ι) (f : ι → BitVec w) (init : BitVec w) (c : ι) (hc : c ∈ s)
    (hinit : init.toInt ≤ (f c).toInt) (hle : ∀ i ∈ s, (f i).toInt ≤ (f c).toInt) :
    s.fold IntOp.maxsi init f = f c := by
  apply BitVec.eq_of_toInt_eq
  rw [toInt_fold_maxsi]
  apply le_antisymm
  · exact (Finset.fold_max_le _).2 ⟨hinit, hle⟩
  · exact (Finset.le_fold_max _).2 (Or.inr ⟨c, hc, le_rfl⟩)

/-! ## Positions as words -/

/-- A position below 2³¹ is, as a 32-bit word read as a signed integer, itself. -/
theorem toInt_ofNat_of_lt (n : Nat) (h : n < 2 ^ 31) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The word of all ones is −1 as a signed integer. -/
theorem toInt_allOnes : (4294967295#32 : BitVec 32).toInt = -1 := by decide

/-- The least signed word is −2³¹ as a signed integer. -/
theorem toInt_intMin : (2147483648#32 : BitVec 32).toInt = -2147483648 := by decide

/-- THE FOLD THE PROGRAM RUNS. Each index holds its position as a word where its bit is set and the word −1 elsewhere. From
    the least signed word, the signed-maximum fold of these words is the position of an index whose bit is set and after
    which no index's bit is set (positions below 2³¹). -/
theorem fold_maxsi_select_eq (s : Finset ι) (b : ι → BitVec 1) (pos : ι → Nat) (hpos : ∀ i ∈ s, pos i < 2 ^ 31)
    (c : ι) (hc : c ∈ s) (hbc : b c = 1#1) (hlast : ∀ i ∈ s, b i = 1#1 → pos i ≤ pos c) :
    s.fold IntOp.maxsi (2147483648#32)
        (fun i => Scalar.select (b i) (BitVec.ofNat 32 (pos i)) (4294967295#32 : BitVec 32))
      = BitVec.ofNat 32 (pos c) := by
  have hfc : Scalar.select (b c) (BitVec.ofNat 32 (pos c)) (4294967295#32 : BitVec 32) = BitVec.ofNat 32 (pos c) := by
    rw [hbc]; exact if_pos rfl
  have hcI : (BitVec.ofNat 32 (pos c)).toInt = (pos c : Int) := toInt_ofNat_of_lt _ (hpos c hc)
  refine (fold_maxsi_eq_of_max s _ _ c hc ?_ ?_).trans hfc
  · rw [hfc, hcI, toInt_intMin]; omega
  · intro i hi
    rw [hfc, hcI]
    rcases BitVec.eq_zero_or_eq_one (b i) with h0 | h1
    · have e : Scalar.select (b i) (BitVec.ofNat 32 (pos i)) (4294967295#32 : BitVec 32) = 4294967295#32 := by
        rw [h0]; exact if_neg (by decide)
      rw [e, toInt_allOnes]; omega
    · have e : Scalar.select (b i) (BitVec.ofNat 32 (pos i)) (4294967295#32 : BitVec 32) = BitVec.ofNat 32 (pos i) := by
        rw [h1]; exact if_pos rfl
      rw [e, toInt_ofNat_of_lt _ (hpos i hi)]
      exact Int.ofNat_le.2 (hlast i hi h1)

end Cert.HostFold
-- ==== Proof.HostCopy.lean ====
/-
  The array region 1 works on starts as a copy of the argument.

  Between the two regions the program's last host operation copies the argument's buffer into the buffer region 1 then
  addresses as its operand and its result. No earlier host operation writes the argument, and region 0 may change only
  its own result, so just before region 1 that buffer holds the argument as launched.
-/
import proofs.«148527_j58789512348330_2_alg».proof.Proof.KernelIdeal.RegionsP
import Idealize.ShloMosaic.PureOps.Ideal
import Idealize.ShloMosaic.Lib.ValueIdx

noncomputable section

namespace Cert.KernelIdeal.HostKeep

open Idealize.ShloMosaic Idealize.ShloMosaic.TcCoe Idealize.ShloMosaic.ValueIdx Idealize.SL.Sem Cert.KernelIdeal Cert.KernelIdeal.Gen Cert.KernelIdeal.GenP

variable (m : (ℓ : Loc nD τ sig) → Buf (Elt Ideal) ℓ) (outs : GenP.Outs (F := Ideal)) (c : Dev nD)

/-- The last stretch's copy: after it the result buffer holds what the argument's buffer held before it. -/
theorem V6_v11 : GenP.V6 m outs c main_v11 = GenP.V5 m outs c main_arg0 := by
  dsimp only [GenP.V6, GenP.hostOps1_4]
  generalize GenP.V5 m outs c = W
  after_results
  rfl

/-- Region 1's array starts as a copy of the argument: no stretch before the copy writes the argument's buffer. -/
theorem copy_eq : GenP.V6 m outs c main_v11 = m ((c : Thread nD τ).loc main_arg0) :=
  (V6_v11 m outs c).trans <| (V5_of m outs c main_arg0 (by decide)).trans <| (V4_of m outs c main_arg0 (by decide)).trans <|
    (V3_of m outs c main_arg0 (by decide)).trans <| (V2_of m outs c main_arg0 (by decide)).trans <|
    (V1_of m outs c main_arg0 (by decide)).trans rfl

end Cert.KernelIdeal.HostKeep

end
-- ==== Proof.HostKeep.lean ====
/-
  What the host operations between the two regions compute: the table region 1 prefetches.

  Region 0 leaves an indicator row `v0 : [1, 131072]`: entry `col` is 1 when column `col` of the argument holds a
  nonzero entry and 0 otherwise. The host operations then compute, in order:
    * the flags `v0 ≠ 0`, one bit per column;
    * their OR over all columns;
    * per column its position as a 32-bit word where the flag is set, the word −1 elsewhere;
    * the signed maximum of those words from the least signed word, plus one;
    * that number when the OR is 1, and 131072 when it is 0;
  and store the result as a one-element table. The five terms are named below (`flags`, `anyFlag`, `marked`,
  `lastPlusOne`, `table`) as functions of the indicator row alone.

  Part 1 reads each stretch of host operations at the buffers it writes, over an arbitrary valuation before the stretch, and
  chains the stretches: just before region 1 the table's buffer holds `table v0`.
  Part 2 is the mathematics: a flag is set exactly at the live columns, so the OR is 1 exactly when some column is live; the
  signed maximum is the position of the last live column (the fold lemmas of the module on folds); one past it, or 131072
  when there is none, is `Cert.Trim.keep`.
-/
import proofs.«148527_j58789512348330_2_alg».proof.Proof.KernelIdeal.RegionsP
import proofs.«148527_j58789512348330_2_alg».proof.Proof.TrimSpec
import proofs.«148527_j58789512348330_2_alg».proof.Proof.HostFold
import proofs.«148527_j58789512348330_2_alg».proof.Proof.HostCopy
import Idealize.ShloMosaic.Lib.IdealHost
import Idealize.ShloMosaic.Lib.ValueLayout

noncomputable section

namespace Cert.KernelIdeal.HostKeep

open Idealize.ShloMosaic Idealize.ShloMosaic.TcCoe Idealize.ShloMosaic.ValueIdx Idealize.SL.Sem Cert.KernelIdeal Cert.KernelIdeal.Gen Cert.KernelIdeal.GenP

/-! ## The five terms, as functions of the indicator row -/

/-- One bit per column: the indicator row's entry is not zero. -/
def flags (v0 : S1x131072.Idx → EReal) : S131072.Idx → BitVec 1 :=
  cmpf .une (shapeCast S131072 v0 shapeCasts_S1x131072_S131072)
    (broadcastInDim S131072 ![] bcast_S_S131072 (constant (F := Ideal) S_ .f32 0x00000000#32))

/-- The OR of the flags over all columns. -/
def anyFlag (v0 : S1x131072.Idx → EReal) : S_.Idx → BitVec 1 :=
  Host.reduce IntOp.ori (flags v0) (constantI S_ 1 0#1) reducesTo_S131072_S_d0 h_S_

/-- Per column: its position as a word where the flag is set, the word −1 elsewhere. -/
def marked (v0 : S1x131072.Idx → EReal) : S131072.Idx → BitVec 32 :=
  select (flags v0) (iotaInDim S131072 32 0) (broadcastInDim S131072 ![] bcast_S_S131072 (constantI S_ 32 4294967295#32))

/-- The signed maximum of the marked words from the least signed word, plus one. -/
def lastPlusOne (v0 : S1x131072.Idx → EReal) : S_.Idx → BitVec 32 :=
  addi (Host.reduce IntOp.maxsi (marked v0) (constantI S_ 32 2147483648#32) reducesTo_S131072_S_d0 h_S_) (constantI S_ 32 1#32)

/-- The table: that number when some flag is set, 131072 otherwise, as a one-element array. -/
def table (v0 : S1x131072.Idx → EReal) : S1.Idx → BitVec 32 :=
  shapeCast S1 (select (anyFlag v0) (lastPlusOne v0) (constantI S_ 32 131072#32)) shapeCasts_S_S1

/-! ## Part 1: the stretches read at the buffers they write -/

section Stretches

variable (W : Valuation τ sig (Elt Ideal))

theorem s1_v3 : (StableHlo.after (GenP.hostOps1 (F := Ideal)) W main_v3 : S131072.Idx → BitVec 1)
    = flags (W main_v0 : S1x131072.Idx → EReal) := by
  dsimp only [GenP.hostOps1]; after_results <;> rfl

theorem s1_v4 : (StableHlo.after (GenP.hostOps1 (F := Ideal)) W main_v4 : S131072.Idx → BitVec 32) = iotaInDim S131072 32 0 := by
  dsimp only [GenP.hostOps1]; after_results <;> rfl

theorem s1_v5 : (StableHlo.after (GenP.hostOps1 (F := Ideal)) W main_v5 : S_.Idx → BitVec 1)
    = anyFlag (W main_v0 : S1x131072.Idx → EReal) := by
  dsimp only [GenP.hostOps1]; after_results <;> rfl

theorem s1_c0 : (StableHlo.after (GenP.hostOps1 (F := Ideal)) W main_c_0 : S_.Idx → BitVec 32) = constantI S_ 32 4294967295#32 := by
  dsimp only [GenP.hostOps1]; after_results <;> rfl

theorem s2_v6 : (StableHlo.after (GenP.hostOps1_1 (F := Ideal)) W main_v6 : S131072.Idx → BitVec 32)
    = select (W main_v3 : S131072.Idx → BitVec 1) (W main_v4 : S131072.Idx → BitVec 32)
        (broadcastInDim S131072 ![] bcast_S_S131072 (W main_c_0 : S_.Idx → BitVec 32)) := by
  dsimp only [GenP.hostOps1_1]; after_results <;> rfl

theorem s3_v8 : (StableHlo.after (GenP.hostOps1_2 (F := Ideal)) W main_v8 : S_.Idx → BitVec 32)
    = addi (Host.reduce IntOp.maxsi (W main_v6 : S131072.Idx → BitVec 32) (constantI S_ 32 2147483648#32) reducesTo_S131072_S_d0 h_S_)
        (constantI S_ 32 1#32) := by
  dsimp only [GenP.hostOps1_2]; after_results <;> rfl

theorem s3_c3 : (StableHlo.after (GenP.hostOps1_2 (F := Ideal)) W main_c_3 : S_.Idx → BitVec 32) = constantI S_ 32 131072#32 := by
  dsimp only [GenP.hostOps1_2]; after_results <;> rfl

theorem s4_v9 : (StableHlo.after (GenP.hostOps1_3 (F := Ideal)) W main_v9 : S_.Idx → BitVec 32)
    = select (W main_v5 : S_.Idx → BitVec 1) (W main_v8 : S_.Idx → BitVec 32) (W main_c_3 : S_.Idx → BitVec 32) := by
  dsimp only [GenP.hostOps1_3]; after_results <;> rfl

theorem s5_v10 : (StableHlo.after (GenP.hostOps1_4 (F := Ideal)) W main_v10 : S1.Idx → BitVec 32)
    = shapeCast S1 (W main_v9 : S_.Idx → BitVec 32) shapeCasts_S_S1 := by
  dsimp only [GenP.hostOps1_4]; after_results <;> rfl

end Stretches

section Chain

variable (m : (ℓ : Loc nD τ sig) → Buf (Elt Ideal) ℓ) (outs : GenP.Outs (F := Ideal)) (c : Dev nD)

/-- After region 0 its result buffer holds what the region left there. -/
theorem V1_v0 : (GenP.V1 m outs c main_v0 : S1x131072.Idx → EReal) = outs 1 main_v0 c := Function.update_self _ _ _

theorem V2_v3 : (GenP.V2 m outs c main_v3 : S131072.Idx → BitVec 1) = flags (outs 1 main_v0 c) :=
  (s1_v3 (GenP.V1 m outs c)).trans (congrArg flags (V1_v0 m outs c))

theorem V2_v4 : (GenP.V2 m outs c main_v4 : S131072.Idx → BitVec 32) = iotaInDim S131072 32 0 := s1_v4 (GenP.V1 m outs c)

theorem V2_v5 : (GenP.V2 m outs c main_v5 : S_.Idx → BitVec 1) = anyFlag (outs 1 main_v0 c) :=
  (s1_v5 (GenP.V1 m outs c)).trans (congrArg anyFlag (V1_v0 m outs c))

theorem V2_c0 : (GenP.V2 m outs c main_c_0 : S_.Idx → BitVec 32) = constantI S_ 32 4294967295#32 := s1_c0 (GenP.V1 m outs c)

theorem V3_v6 : (GenP.V3 m outs c main_v6 : S131072.Idx → BitVec 32) = marked (outs 1 main_v0 c) := by
  refine (s2_v6 (GenP.V2 m outs c)).trans ?_
  rw [V2_v3, V2_v4, V2_c0]
  rfl

theorem V4_v8 : (GenP.V4 m outs c main_v8 : S_.Idx → BitVec 32) = lastPlusOne (outs 1 main_v0 c) := by
  refine (s3_v8 (GenP.V3 m outs c)).trans ?_
  rw [V3_v6]
  rfl

theorem V4_c3 : (GenP.V4 m outs c main_c_3 : S_.Idx → BitVec 32) = constantI S_ 32 131072#32 := s3_c3 (GenP.V3 m outs c)

theorem V4_v5 : (GenP.V4 m outs c main_v5 : S_.Idx → BitVec 1) = anyFlag (outs 1 main_v0 c) :=
  (V4_of m outs c main_v5 (by decide)).trans <| (V3_of m outs c main_v5 (by decide)).trans (V2_v5 m outs c)

theorem V5_v9 : (GenP.V5 m outs c main_v9 : S_.Idx → BitVec 32)
    = select (anyFlag (outs 1 main_v0 c)) (lastPlusOne (outs 1 main_v0 c)) (constantI S_ 32 131072#32) := by
  refine (s4_v9 (GenP.V4 m outs c)).trans ?_
  rw [V4_v5, V4_v8, V4_c3]

/-- Just before region 1 the table's buffer holds the table computed from what region 0 left. -/
theorem V6_v10 : (GenP.V6 m outs c main_v10 : S1.Idx → BitVec 32) = table (outs 1 main_v0 c) := by
  refine (s5_v10 (GenP.V5 m outs c)).trans ?_
  rw [V5_v9]
  rfl

end Chain

/-! ## Part 2: the table is the number of kept columns -/

section Math

open Cert.Trim Cert.HostFold

/-- A reduction of a vector over its one axis to a scalar is the fold over all its indices. -/
theorem reduce_scalar {α : Type} (f : α → α → α) [Std.Commutative f] [Std.Associative f] (x : S131072.Idx → α)
    (init : S_.Idx → α) (j : S_.Idx) :
    Host.reduce f x init reducesTo_S131072_S_d0 h_S_ j = Finset.univ.fold f (init ix0) x := by
  rw [Host.reduce_eq_fold]
  have hf : (Finset.univ.filter fun i : S131072.Idx => reducesTo_S131072_S_d0.drop i = j) = Finset.univ :=
    Finset.filter_true_of_mem fun i _ => funext fun a => a.elim0
  rw [hf]
  exact congrArg (fun z => Finset.univ.fold f (init z) x) (funext fun a => a.elim0)

/-- A scalar cast to a one-element array reads the scalar. -/
theorem shapeCast_scalar_apply {α : Type} (y : S_.Idx → α) (j : S1.Idx) : shapeCast S1 y shapeCasts_S_S1 j = y ix0 := by
  unfold shapeCast; exact congrArg y (funext fun a => a.elim0)

variable (v0 : S1x131072.Idx → EReal)

/-- A column's flag: the indicator row's entry there is not zero. -/
theorem flags_apply (col : Fin 131072) : flags v0 (ValueIdx.ix1 col) = BitVec.ofBool (decide (v0 (ix2 0 col) ≠ 0)) := by
  unfold flags
  rw [cmpf_apply, shapeCast_1a_a_apply v0 _ col, broadcastInDim_scalar_apply, constant_apply, Ideal.ofBits_zero_f32]
  rfl

/-- A column's marked word. -/
theorem marked_apply (i : S131072.Idx) :
    marked v0 i = Scalar.select (flags v0 i) (BitVec.ofNat 32 (i 0).val) (4294967295#32 : BitVec 32) := by
  unfold marked
  rw [select_apply, iotaInDim_apply, broadcastInDim_scalar_apply, constantI_apply]

variable (x : SX.Idx → EReal)
  (h1 : ∀ col : Fin 131072, live x col → v0 (ix2 0 col) = 1)
  (h0 : ∀ col : Fin 131072, ¬ live x col → v0 (ix2 0 col) = 0)

include h1 h0 in
/-- A flag is set exactly at the live columns. -/
theorem flags_eq_one_iff (col : Fin 131072) : flags v0 (ValueIdx.ix1 col) = 1#1 ↔ live x col := by
  rw [flags_apply]
  constructor
  · intro hf
    by_contra hl
    rw [h0 col hl, decide_eq_false (not_not.2 rfl)] at hf
    exact absurd hf (by decide)
  · intro hl
    rw [h1 col hl, decide_eq_true (one_ne_zero : (1 : EReal) ≠ 0)]
    rfl

/-- Among the live columns, when there is one, there is a last. -/
theorem exists_last (hex : ∃ col, live x col) : ∃ cm, live x cm ∧ ∀ c', live x c' → c' ≤ cm := by
  classical
  obtain ⟨c0, hc0⟩ := hex
  have hS : (Finset.univ.filter (live x)).Nonempty := ⟨c0, Finset.mem_filter.2 ⟨Finset.mem_univ _, hc0⟩⟩
  exact ⟨(Finset.univ.filter (live x)).max' hS, (Finset.mem_filter.1 (Finset.max'_mem _ hS)).2,
    fun c' h => Finset.le_max' _ c' (Finset.mem_filter.2 ⟨Finset.mem_univ _, h⟩)⟩

include h1 h0 in
/-- THE TABLE IS THE NUMBER OF KEPT COLUMNS, as a 32-bit word. -/
theorem table_keep : table v0 = fun _ => BitVec.ofNat 32 (keep x) := by
  funext j
  unfold table
  rw [shapeCast_scalar_apply, select_apply]
  have hany : anyFlag v0 ix0 = Finset.univ.fold IntOp.ori 0#1 (flags v0) := by
    unfold anyFlag; exact reduce_scalar IntOp.ori (flags v0) _ ix0
  by_cases hex : ∃ col, live x col
  · obtain ⟨cm, hcm, hlast⟩ := exists_last x hex
    -- some flag is set: the OR is 1, and the first operand of the select is taken
    have hone : anyFlag v0 ix0 = 1#1 := by
      rw [hany]
      exact (fold_ori_eq_one_iff _ _).2 ⟨ValueIdx.ix1 cm, Finset.mem_univ _, (flags_eq_one_iff v0 x h1 h0 cm).2 hcm⟩
    rw [hone, select_one, keep_of_last x cm hcm hlast]
    -- the signed maximum of the marked words is the last live column's position
    have hmax : Host.reduce IntOp.maxsi (marked v0) (constantI S_ 32 2147483648#32) reducesTo_S131072_S_d0 h_S_ ix0
        = BitVec.ofNat 32 cm.val := by
      rw [reduce_scalar, funext (marked_apply v0)]
      refine fold_maxsi_select_eq Finset.univ (flags v0) (fun i => (i 0).val) (fun i _ => ?_) (ValueIdx.ix1 cm) (Finset.mem_univ _)
        ((flags_eq_one_iff v0 x h1 h0 cm).2 hcm) (fun i _ hi => ?_)
      · have hlt : (i 0).val < 131072 := (i 0).isLt
        omega
      · rw [eq_ix1 i] at hi
        exact Fin.le_def.1 (hlast (i 0) ((flags_eq_one_iff v0 x h1 h0 (i 0)).1 hi))
    unfold lastPlusOne
    show IntOp.addi (Host.reduce IntOp.maxsi (marked v0) (constantI S_ 32 2147483648#32) reducesTo_S131072_S_d0 h_S_ ix0) 1#32 = _
    rw [hmax]
    exact (BitVec.ofNat_add cm.val 1).symm
  · -- no flag is set: the OR is 0, and the second operand of the select is taken
    have hnone : ∀ col, ¬ live x col := fun col h => hex ⟨col, h⟩
    have hzero : anyFlag v0 ix0 = 0#1 := by
      rw [hany]
      refine fold_ori_eq_zero _ _ (fun i _ hi => ?_)
      rw [eq_ix1 i] at hi
      exact hnone (i 0) ((flags_eq_one_iff v0 x h1 h0 (i 0)).1 hi)
    rw [hzero, select_zero, keep_of_none x hnone]
    rfl

end Math

/-! ## The two statements -/

/-- The table: the number of kept columns as a 32-bit word. -/
theorem table_eq (m : (ℓ : Loc nD τ sig) → Buf (Elt Ideal) ℓ) (outs : GenP.Outs (F := Ideal)) (c : Dev nD)
    (h1 : ∀ col : Fin 131072, Cert.Trim.live (m ((c : Thread nD τ).loc main_arg0)) col → outs 1 main_v0 c (ix2 0 col) = (1 : EReal))
    (h0 : ∀ col : Fin 131072, ¬ Cert.Trim.live (m ((c : Thread nD τ).loc main_arg0)) col → outs 1 main_v0 c (ix2 0 col) = (0 : EReal)) :
    GenP.V6 m outs c main_v10 = fun _ => BitVec.ofNat 32 (Cert.Trim.keep (m ((c : Thread nD τ).loc main_arg0))) :=
  (V6_v10 m outs c).trans (table_keep (outs 1 main_v0 c) (m ((c : Thread nD τ).loc main_arg0)) h1 h0)

end Cert.KernelIdeal.HostKeep

end
-- ==== Proof.KernelIdeal.Value.lean ====
/-
  The kernel program's result, at the exact instance, is the argument with its trailing all-zero columns cut.

  The first region leaves the indicator row of the argument's live columns; the host operations turn it into the word of
  `keep x`, one past the last live column, and copy the argument into the result array; the second region, pinned at
  that word, rewrites the result array tile by tile into `trimmed x`. Each of the three is a lemma of its own; here they
  are chained, on the one device of the mesh.
-/
import proofs.«148527_j58789512348330_2_alg».proof.Proof.KernelIdeal.Frame
import proofs.«148527_j58789512348330_2_alg».proof.Proof.KernelIdeal.Reg0Value
import proofs.«148527_j58789512348330_2_alg».proof.Proof.KernelIdeal.Reg1Value
import proofs.«148527_j58789512348330_2_alg».proof.Proof.HostKeep
import proofs.«148527_j58789512348330_2_alg».proof.Proof.TrimSpec

noncomputable section

namespace Cert.KernelIdeal.Hand

open Cert.KernelIdeal Cert.KernelIdeal.Gen Cert.KernelIdeal.GenP
open Idealize.ShloMosaic Idealize.ShloMosaic.TcCoe
open Idealize.SL Idealize.SL.Sem

variable (m : (ℓ : Loc nD τ sig) → Buf (Elt Ideal) ℓ)

/-- The first region's row, as the host operations find it in `main_v0`. -/
theorem outsA_row (c : Dev nD) : outsA (F := Ideal) m 1 main_v0 c = row m c := by
  unfold outsA; exact Function.update_self _ _ _

/-- The second region is entered with a copy of the argument. -/
theorem x1_eq (c : Dev nD) : x1 (F := Ideal) m c = m ((c : Thread nD τ).loc main_arg0) :=
  HostKeep.copy_eq m (outsA m) c

/-- The table's word is the number of kept columns. -/
theorem kw_eq : Reg1.kwOf (tbl (F := Ideal) m) = BitVec.ofNat 32 (Cert.Trim.keep (m (((0 : Dev nD) : Thread nD τ).loc main_arg0))) := by
  have h := HostKeep.table_eq m (outsA m) 0
    (fun col hl => by rw [outsA_row]; exact Reg0.row_live 0 (Vin0 m 0) col hl)
    (fun col hd => by rw [outsA_row]; exact Reg0.row_dead 0 (Vin0 m 0) col hd)
  unfold Reg1.kwOf
  rw [show tbl (F := Ideal) m 0 = _ from h]

/-- What the second region leaves: the argument, trimmed. -/
theorem res_eq (c : Dev nD) : res (F := Ideal) m c = Cert.Trim.trimmed (m ((c : Thread nD τ).loc main_arg0)) := by
  obtain rfl : c = 0 := Subsingleton.elim _ _
  unfold res
  rw [kw_eq, x1_eq]
  exact Reg1.outAt_final 0 _

/-- Every weakly fair execution of @main terminates, nothing faulting, with the result array the trimmed argument and the
    argument as launched. -/
theorem run_trimmed (ρ : Dev nD → PrngReg) :
    θ_run defs (onTc (τ := τ) (main (F := Ideal))) ⟨m, fun _ => 0, ρ⟩ (fun r => ∀ c : Dev nD,
      r.2.mem ((c.tc : Thread nD τ).loc main_v11) = Cert.Trim.trimmed (m ((c.tc : Thread nD τ).loc main_arg0))
      ∧ r.2.mem ((c.tc : Thread nD τ).loc main_arg0) = m ((c.tc : Thread nD τ).loc main_arg0)) :=
  (θ_run defs _ _).mono (fun r h c => ⟨(h c).1.trans (res_eq m c), (h c).2⟩) (run m ρ)

end Cert.KernelIdeal.Hand

end
-- ==== Proof.RefTerm.lean ====
/-
  The reference program's result as a term of its argument, cut into the pieces the value proof names: per column
  the OR over the rows of "the entry is not zero" (`colAny`), the pair reduce over that row reversed and its iota (`pairRed`) and its index result, the first set
  position of the reversed row (`firstRev`), the OR over all columns (`anyCol`), the number of leading columns kept as a
  32-bit word (`keepW`), the row of 0.0 / 1.0 factors (`mask`) and the product with the argument (`out`). Each piece
  is the printed operations applied in the printed order, at any float values.
-/
import proofs.«148527_j58789512348330_2_alg».proof.Proof.Gen.ReferenceIdeal

noncomputable section

namespace Cert.ReferenceIdeal.RefRun

open Cert.ReferenceIdeal Cert.ReferenceIdeal.Gen Idealize.ShloMosaic

variable {F : FTy → Type} [FloatOps F]

/-- Per column, the OR over the rows of "the entry differs from 0.0". -/
def colAny (x : (⟨S1024x131072, .f32⟩ : BufTy).Contents (Elt F)) : (⟨S131072, .i1⟩ : BufTy).Contents (Elt F) :=
  Host.reduce IntOp.ori
    (cmpf .une x (broadcastInDim S1024x131072 ![] bcast_S_S1024x131072 (constant S_ .f32 0x00000000#32) : (⟨S1024x131072, .f32⟩ : BufTy).Contents (Elt F)) : (⟨S1024x131072, .i1⟩ : BufTy).Contents (Elt F))
    (constantI S_ 1 0#1 : (⟨S_, .i1⟩ : BufTy).Contents (Elt F)) reducesTo_S1024x131072_S131072_d0 h_S_

/-- The pair reduce over the reversed column row and its iota, from the initial pair (false, 0). -/
def pairRed (x : (⟨S1024x131072, .f32⟩ : BufTy).Contents (Elt F)) (j : S_.Idx) : BitVec 1 × BitVec 32 :=
  Host.reduce2 reducer_argmax_i1_i32 (Host.reverse [0] (colAny x) : (⟨S131072, .i1⟩ : BufTy).Contents (Elt F)) (iotaInDim S131072 32 0 : (⟨S131072, .i32⟩ : BufTy).Contents (Elt F))
    (constantI S_ 1 0#1 : (⟨S_, .i1⟩ : BufTy).Contents (Elt F)) (constantI S_ 32 0#32 : (⟨S_, .i32⟩ : BufTy).Contents (Elt F)) reducesTo_S131072_S_d0 h_S_ j

/-- The index result of the pair reduce: the first position of the reversed row that holds the maximum. -/
def firstRev (x : (⟨S1024x131072, .f32⟩ : BufTy).Contents (Elt F)) : (⟨S_, .i32⟩ : BufTy).Contents (Elt F) :=
  fun j => (pairRed x j).2

theorem pairRed_def (x : (⟨S1024x131072, .f32⟩ : BufTy).Contents (Elt F)) (j : S_.Idx) :
    pairRed x j = Host.reduce2 reducer_argmax_i1_i32 (Host.reverse [0] (colAny x) : (⟨S131072, .i1⟩ : BufTy).Contents (Elt F)) (iotaInDim S131072 32 0 : (⟨S131072, .i32⟩ : BufTy).Contents (Elt F))
      (constantI S_ 1 0#1 : (⟨S_, .i1⟩ : BufTy).Contents (Elt F)) (constantI S_ 32 0#32 : (⟨S_, .i32⟩ : BufTy).Contents (Elt F)) reducesTo_S131072_S_d0 h_S_ j := rfl

theorem firstRev_fun (x : (⟨S1024x131072, .f32⟩ : BufTy).Contents (Elt F)) : firstRev x = fun j => (pairRed x j).2 := rfl

/-- The OR over all columns. -/
def anyCol (x : (⟨S1024x131072, .f32⟩ : BufTy).Contents (Elt F)) : (⟨S_, .i1⟩ : BufTy).Contents (Elt F) :=
  Host.reduce IntOp.ori (colAny x) (constantI S_ 1 0#1 : (⟨S_, .i1⟩ : BufTy).Contents (Elt F)) reducesTo_S131072_S_d0 h_S_

/-- The number of leading columns kept, as a 32-bit word: `131071 - firstRev + 1` when some column is set, else 131072. -/
def keepW (x : (⟨S1024x131072, .f32⟩ : BufTy).Contents (Elt F)) : (⟨S_, .i32⟩ : BufTy).Contents (Elt F) :=
  select (anyCol x) (addi (subi (constantI S_ 32 131071#32 : (⟨S_, .i32⟩ : BufTy).Contents (Elt F)) (firstRev x)) (constantI S_ 32 1#32 : (⟨S_, .i32⟩ : BufTy).Contents (Elt F)) : (⟨S_, .i32⟩ : BufTy).Contents (Elt F))
    (id (constantI S_ 32 131072#32 : (⟨S_, .i32⟩ : BufTy).Contents (Elt F)))

/-- The row of factors: 1.0 at the columns before `keepW`, 0.0 from there on. -/
def mask (x : (⟨S1024x131072, .f32⟩ : BufTy).Contents (Elt F)) : (⟨S131072, .f32⟩ : BufTy).Contents (Elt F) :=
  uitofp .f32 (cmpi .slt (iotaInDim S131072 32 0 : (⟨S131072, .i32⟩ : BufTy).Contents (Elt F)) (broadcastInDim S131072 ![] bcast_S_S131072 (keepW x) : (⟨S131072, .i32⟩ : BufTy).Contents (Elt F)) : (⟨S131072, .i1⟩ : BufTy).Contents (Elt F))

/-- The result: the argument times the row of factors, broadcast down the rows. -/
def out (x : (⟨S1024x131072, .f32⟩ : BufTy).Contents (Elt F)) : (⟨S1024x131072, .f32⟩ : BufTy).Contents (Elt F) :=
  mulf x (broadcastInDim S1024x131072 ![0, 1] bcast_S1x131072_S1024x131072_0_1
    (broadcastInDim S1x131072 ![1] bcast_S131072_S1x131072_1 (mask x) : (⟨S1x131072, .f32⟩ : BufTy).Contents (Elt F)) : (⟨S1024x131072, .f32⟩ : BufTy).Contents (Elt F))

end Cert.ReferenceIdeal.RefRun

end
-- ==== Proof.RefRun.lean ====
/-
  The reference program's run, read back: @main is a straight line of twenty-seven host operations once its two
  calls (the arg-max function: an iota, two initial values and one line per result of the two-operand reduce; the
  select function: a conversion that is the identity, and the select) are unfolded at their call sites. From any memory
  with zero counters every weakly fair execution terminates with the result buffer at the operations' composed term
  `out` of the argument's launch contents, and the argument unchanged.
-/
import proofs.«148527_j58789512348330_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-seven operations, in order, the two calls' bodies inline over the calls' own buffers. -/
abbrev ops : List (HloOp τ sig (Elt F)) :=
  [ nullary main_cst (constant S_ .f32 0x00000000#32),
    unary main_cst main_v0 (broadcastInDim S1024x131072 ![] bcast_S_S1024x131072 : (⟨S_, .f32⟩ : BufTy).Contents (Elt F) → (⟨S1024x131072, .f32⟩ : BufTy).Contents (Elt F)),
    binary main_arg0 main_v0 main_v1 (cmpf .une : (⟨S1024x131072, .f32⟩ : BufTy).Contents (Elt F) → (⟨S1024x131072, .f32⟩ : BufTy).Contents (Elt F) → (⟨S1024x131072, .i1⟩ : BufTy).Contents (Elt F)),
    nullary main_c (constantI S_ 1 0#1),
    binary main_v1 main_c main_v2 ((fun x v => Host.reduce IntOp.ori x v reducesTo_S1024x131072_S131072_d0 h_S_) : (⟨S1024x131072, .i1⟩ : BufTy).Contents (Elt F) → (⟨S_, .i1⟩ : BufTy).Contents (Elt F) → (⟨S131072, .i1⟩ : BufTy).Contents (Elt F)),
    unary main_v2 main_v3 (Host.reverse [0] : (⟨S131072, .i1⟩ : BufTy).Contents (Elt F) → (⟨S131072, .i1⟩ : BufTy).Contents (Elt F)),
    nullary main_call0_v0 (iotaInDim S131072 32 0),
    nullary main_call0_c (constantI S_ 1 0#1),
    nullary main_call0_c_0 (constantI S_ 32 0#32),
    quaternary main_v3 main_call0_v0 main_call0_c main_call0_c_0 main_call0_v1_0 ((fun x y u v j => (Host.reduce2 reducer_argmax_i1_i32 x y u v reducesTo_S131072_S_d0 h_S_ j).1) : (⟨S131072, .i1⟩ : BufTy).Contents (Elt F) → (⟨S131072, .i32⟩ : BufTy).Contents (Elt F) → (⟨S_, .i1⟩ : BufTy).Contents (Elt F) → (⟨S_, .i32⟩ : BufTy).Contents (Elt F) → (⟨S_, .i1⟩ : BufTy).Contents (Elt F)),
    quaternary main_v3 main_call0_v0 main_call0_c main_call0_c_0 main_v4 ((fun x y u v j => (Host.reduce2 reducer_argmax_i1_i32 x y u v reducesTo_S131072_S_d0 h_S_ j).2) : (⟨S131072, .i1⟩ : BufTy).Contents (Elt F) → (⟨S131072, .i32⟩ : BufTy).Contents (Elt F) → (⟨S_, .i1⟩ : BufTy).Contents (Elt F) → (⟨S_, .i32⟩ : BufTy).Contents (Elt F) → (⟨S_, .i32⟩ : BufTy).Contents (Elt F)),
    nullary main_c_0 (constantI S_ 32 131071#32),
    binary main_c_0 main_v4 main_v5 (subi : (⟨S_, .i32⟩ : BufTy).Contents (Elt F) → (⟨S_, .i32⟩ : BufTy).Contents (Elt F) → (⟨S_, .i32⟩ : BufTy).Contents (Elt F)),
    nullary main_c_1 (constantI S_ 1 0#1),
    binary main_v2 main_c_1 main_v6 ((fun x v => Host.reduce IntOp.ori x v reducesTo_S131072_S_d0 h_S_) : (⟨S131072, .i1⟩ : BufTy).Contents (Elt F) → (⟨S_, .i1⟩ : BufTy).Contents (Elt F) → (⟨S_, .i1⟩ : BufTy).Contents (Elt F)),
    nullary main_c_2 (constantI S_ 32 1#32),
    binary main_v5 main_c_2 main_v7 (addi : (⟨S_, .i32⟩ : BufTy).Contents (Elt F) → (⟨S_, .i32⟩ : BufTy).Contents (Elt F) → (⟨S_, .i32⟩ : BufTy).Contents (Elt F)),
    nullary main_c_3 (constantI S_ 32 131072#32),
    unary main_c_3 main_call1_v0 (id : (⟨S_, .i32⟩ : BufTy).Contents (Elt F) → (⟨S_, .i32⟩ : BufTy).Contents (Elt F)),
    ternary main_v6 main_v7 main_call1_v0 main_v8 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_v9 (iotaInDim S131072 32 0),
    unary main_v8 main_v10 (broadcastInDim S131072 ![] bcast_S_S131072 : (⟨S_, .i32⟩ : BufTy).Contents (Elt F) → (⟨S131072, .i32⟩ : BufTy).Contents (Elt F)),
    binary main_v9 main_v10 main_v11 (cmpi .slt : (⟨S131072, .i32⟩ : BufTy).Contents (Elt F) → (⟨S131072, .i32⟩ : BufTy).Contents (Elt F) → (⟨S131072, .i1⟩ : BufTy).Contents (Elt F)),
    unary main_v11 main_v12 (uitofp .f32 : (⟨S131072, .i1⟩ : BufTy).Contents (Elt F) → (⟨S131072, .f32⟩ : BufTy).Contents (Elt F)),
    unary main_v12 main_v13 (broadcastInDim S1x131072 ![1] bcast_S131072_S1x131072_1 : (⟨S131072, .f32⟩ : BufTy).Contents (Elt F) → (⟨S1x131072, .f32⟩ : BufTy).Contents (Elt F)),
    unary main_v13 main_v14 (broadcastInDim S1024x131072 ![0, 1] bcast_S1x131072_S1024x131072_0_1 : (⟨S1x131072, .f32⟩ : BufTy).Contents (Elt F) → (⟨S1024x131072, .f32⟩ : BufTy).Contents (Elt F)),
    binary main_arg0 main_v14 main_v15 (mulf : (⟨S1024x131072, .f32⟩ : BufTy).Contents (Elt F) → (⟨S1024x131072, .f32⟩ : BufTy).Contents (Elt F) → (⟨S1024x131072, .f32⟩ : BufTy).Contents (Elt F)) ]

-- twenty-seven binds re-associated: the rewrite under the chain recurses once per statement
set_option maxRecDepth 1024 in
/-- @main is that straight line: the two functions' definitions unfolded at their calls, both sides are one chain
    of host steps once sequencing is reassociated (a called function's operation over a literal buffer is the plain
    operation over it: the transport along the buffer's type is the identity). -/
theorem main_eq (c : Dev nD) : main (F := F) c = seq ops := by
  simp only [main, fn_argmax.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., binary_bufs_sub .., unary_bufs_sub ..,
    nullary_bufs_sub .., nullary_bufs_sub .., nullary_bufs_sub .., quaternary_bufs_sub .., quaternary_bufs_sub ..,
    nullary_bufs_sub .., binary_bufs_sub .., nullary_bufs_sub .., binary_bufs_sub .., nullary_bufs_sub .., binary_bufs_sub ..,
    nullary_bufs_sub .., unary_bufs_sub .., ternary_bufs_sub .., nullary_bufs_sub .., unary_bufs_sub .., binary_bufs_sub ..,
    unary_bufs_sub .., unary_bufs_sub .., unary_bufs_sub .., binary_bufs_sub ..⟩

set_option maxRecDepth 8192 in
/-- The fold at the result buffer is `out` of the argument's contents: each operation's result at its own buffer is
    its function's value, at any other buffer what was there; the named pieces unfolded, the two sides are one term. -/
theorem out_eq (V : Valuation τ sig (Elt F)) :
    after ops V (main_v15 : DevRef τ sig) = out (V (main_arg0 : DevRef τ sig)) := by
  after_results_simp
  unfold out mask keepW anyCol firstRev pairRed colAny
  rfl

theorem arg0_eq (V : Valuation τ sig (Elt F)) :
    after ops V (main_arg0 : DevRef τ sig) = V (main_arg0 : DevRef τ sig) := by
  after_results_simp

/-- On every device, for any float values, from any memory with zero counters: every weakly fair execution of
    @main terminates with the result at `out` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = out (m ((c.tc : Thread nD τ).loc main_arg0))
      ∧ r.2.mem ((c.tc : Thread nD τ).loc main_arg0) = m ((c.tc : Thread nD τ).loc main_arg0) :=
  (θ_run defs _ _).mono (fun _ h c => ⟨(h c main_v15).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefFold.lean ====
/-
  Three reductions over 1-bit words, each characterised over an abstract index type or length — no program is imported.

  * The OR-fold over a finite set is 1 exactly when some element is 1; hence a host OR-reduce from the initial value 0
    is 1 at a result index exactly when some source index dropping to it holds 1.
  * A two-operand host reduce into a rank-zero result runs over every source position, in row-major order; on a rank-one
    source the position's one coordinate is the position.
  * The arg-max pair step (the greater first component, on a tie the smaller second component), folded from (0, 0) over
    the pairs (g n, n) for n = 0, 1, …, N - 1 with N at most 2^31: the result is (1, the least n with g n = 1), or (0, 0)
    when no g n is 1.
  Then the word arithmetic the value proof needs: a signed comparison of two words below 2^31 is the comparison of the
  numbers, and 131071 - m + 1 in 32-bit words is the number 131071 - m + 1 for m below 131072.
-/
import Idealize.ShloMosaic.PureOps.Reduce
import Idealize.ShloMosaic.Lib.ValueIdx

namespace Cert.RefFold

open Idealize.ShloMosaic

/-! ## 1-bit words -/

theorem bit_cases (a : BitVec 1) : a = 0#1 ∨ a = 1#1 := BitVec.eq_zero_or_eq_one a

theorem bit_ne_one {a : BitVec 1} (h : a ≠ 1#1) : a = 0#1 := (bit_cases a).resolve_right h

theorem ori_eq_one_iff (a b : BitVec 1) : IntOp.ori a b = 1#1 ↔ a = 1#1 ∨ b = 1#1 := by
  rcases bit_cases a with rfl | rfl <;> rcases bit_cases b with rfl | rfl <;> decide

/-! ## The OR-fold -/

/-- The OR-fold from 0 over a finite set is 1 exactly when some element is 1. -/
theorem fold_ori_eq_one_iff {ι : Type} (s : Finset ι) (f : ι → BitVec 1) :
    s.fold IntOp.ori 0#1 f = 1#1 ↔ ∃ i ∈ s, f i = 1#1 := by
  induction s using Finset.cons_induction with
  | empty => simp
  | cons a s ha ih =>
    rw [Finset.fold_cons, ori_eq_one_iff, ih]
    constructor
    · rintro (h | ⟨i, hi, h⟩)
      · exact ⟨a, Finset.mem_cons_self a s, h⟩
      · exact ⟨i, Finset.mem_cons.2 (Or.inr hi), h⟩
    · rintro ⟨i, hi, h⟩
      rcases Finset.mem_cons.1 hi with rfl | hi
      · exact Or.inl h
      · exact Or.inr ⟨i, hi, h⟩

/-- A host OR-reduce from the initial value 0 is 1 at `j` exactly when some source index dropping to `j` holds 1. -/
theorem reduce_ori_eq_one_iff {s t u : Shape} {axes : List (Fin s.rank)} (x : s.Idx → BitVec 1) (init : u.Idx → BitVec 1)
    (h : s.ReducesTo axes t) (hu : 0 < u.numel) (hinit : init (Shape.Idx.first hu) = 0#1) (j : t.Idx) :
    Host.reduce IntOp.ori x init h hu j = 1#1 ↔ ∃ i, h.drop i = j ∧ x i = 1#1 := by
  rw [Host.reduce_eq_fold, hinit, fold_ori_eq_one_iff]
  constructor
  · rintro ⟨i, hi, hx⟩; exact ⟨i, (Finset.mem_filter.1 hi).2, hx⟩
  · rintro ⟨i, hi, hx⟩; exact ⟨i, Finset.mem_filter.2 ⟨Finset.mem_univ _, hi⟩, hx⟩

/-! ## A two-operand reduce into a rank-zero result -/

/-- Into a result of rank zero a two-operand host reduce runs over every source position, in row-major order. -/
theorem reduce2_total {s t u : Shape} {axes : List (Fin s.rank)} {α β : Type} (f : α × β → α × β → α × β)
    (x : s.Idx → α) (y : s.Idx → β) (ix : u.Idx → α) (iy : u.Idx → β) (h : s.ReducesTo axes t) (hu : 0 < u.numel)
    (ht : t.rank = 0) (j : t.Idx) :
    Host.reduce2 f x y ix iy h hu j
      = (List.finRange s.numel).foldl (fun r n => f r (x (s.rowMajor.symm n), y (s.rowMajor.symm n)))
          (ix (Shape.Idx.first hu), iy (Shape.Idx.first hu)) := by
  unfold Host.reduce2
  rw [List.filter_eq_self.2 fun n _ => decide_eq_true (funext fun b => absurd b.isLt (by omega))]

/-- On a rank-one shape the row-major position's one coordinate is the position. -/
theorem rowMajor_symm_val_one {d : Fin 1 → Nat} (n : Fin (⟨1, d⟩ : Shape).numel) :
    (((⟨1, d⟩ : Shape).rowMajor.symm n) 0).val = n.val := by
  rw [← Shape.rowMajor_val_one, Equiv.apply_symm_apply]

/-! ## The arg-max pair fold -/

/-- The arg-max step on pairs (a 1-bit value, a 32-bit position): keep the accumulated pair when its value is the
    greater, or on equal values when its position is the smaller (signed); else take the new pair. -/
def argmaxStep (a b : BitVec 1 × BitVec 32) : BitVec 1 × BitVec 32 :=
  let v2 := IntOp.cmpi .ugt a.1 b.1
  let v3 := IntOp.cmpi .ne a.1 a.1
  let v4 := IntOp.ori v2 v3
  let v5 := IntOp.cmpi .eq a.1 b.1
  let v6 := IntOp.cmpi .slt a.2 b.2
  let v7 := IntOp.andi v5 v6
  let v8 := IntOp.ori v4 v7
  let v9 := Scalar.select v4 a.1 b.1
  let v10 := Scalar.select v8 a.2 b.2
  (v9, v10)

theorem step_00 (p q : BitVec 32) : argmaxStep (0#1, p) (0#1, q) = (0#1, if p.slt q then p else q) := by
  cases h : p.slt q <;> simp [argmaxStep, IntOp.cmpi, IntOp.ori, IntOp.andi, Scalar.select, h]

theorem step_11 (p q : BitVec 32) : argmaxStep (1#1, p) (1#1, q) = (1#1, if p.slt q then p else q) := by
  cases h : p.slt q <;> simp [argmaxStep, IntOp.cmpi, IntOp.ori, IntOp.andi, Scalar.select, h]

theorem step_01 (p q : BitVec 32) : argmaxStep (0#1, p) (1#1, q) = (1#1, q) := by
  simp [argmaxStep, IntOp.cmpi, IntOp.ori, IntOp.andi, Scalar.select]

theorem step_10 (p q : BitVec 32) : argmaxStep (1#1, p) (0#1, q) = (1#1, p) := by
  simp [argmaxStep, IntOp.cmpi, IntOp.ori, IntOp.andi, Scalar.select]

/-- The signed comparison of two words below 2^31 is the comparison of the numbers. -/
theorem slt_ofNat {m n : Nat} (hm : m < 2 ^ 31) (hn : n < 2 ^ 31) :
    (BitVec.ofNat 32 m).slt (BitVec.ofNat 32 n) = decide (m < n) := by
  have em : (BitVec.ofNat 32 m).toNat = m := by rw [BitVec.toNat_ofNat]; omega
  have en : (BitVec.ofNat 32 n).toNat = n := by rw [BitVec.toNat_ofNat]; omega
  unfold BitVec.slt
  rw [BitVec.toInt_eq_toNat_cond, BitVec.toInt_eq_toNat_cond, em, en]
  congr 1
  apply propext
  split <;> split <;> omega

/-- What the fold holds after the positions below `k`: (0, 0) while no value is 1; from the first 1 on, that position. -/
def Inv (g : Nat → BitVec 1) (k : Nat) (r : BitVec 1 × BitVec 32) : Prop :=
  ((∀ n < k, g n = 0#1) ∧ r = (0#1, 0#32)) ∨ ∃ m < k, g m = 1#1 ∧ (∀ n < m, g n = 0#1) ∧ r = (1#1, BitVec.ofNat 32 m)

/-- The invariant reads the bound only as a number. -/
theorem Inv_of_eq {g : Nat → BitVec 1} {k k' : Nat} {r : BitVec 1 × BitVec 32} (h : k = k') (hi : Inv g k r) : Inv g k' r :=
  h ▸ hi

/-- One more position keeps the invariant. -/
theorem inv_step (g : Nat → BitVec 1) (k : Nat) (hk : k < 2 ^ 31) (r : BitVec 1 × BitVec 32) (h : Inv g k r) :
    Inv g (k + 1) (argmaxStep r (g k, BitVec.ofNat 32 k)) := by
  rcases h with ⟨h0, rfl⟩ | ⟨m, hm, hg, hlt, rfl⟩
  · rcases bit_cases (g k) with e | e
    · left
      refine ⟨fun n hn => ?_, ?_⟩
      · rcases Nat.lt_succ_iff_lt_or_eq.1 hn with h' | rfl
        · exact h0 n h'
        · exact e
      · rw [e, step_00, show (0#32 : BitVec 32) = BitVec.ofNat 32 0 from rfl, slt_ofNat (by omega) hk]
        by_cases hk0 : 0 < k
        · rw [if_pos (decide_eq_true hk0)]
        · rw [if_neg (by simpa using hk0), show k = 0 by omega]
    · right
      exact ⟨k, Nat.lt_succ_self k, e, h0, by rw [e, step_01]⟩
  · right
    refine ⟨m, Nat.lt_succ_of_lt hm, hg, hlt, ?_⟩
    rcases bit_cases (g k) with e | e
    · rw [e, step_10]
    · rw [e, step_11, slt_ofNat (by omega) hk, if_pos (decide_eq_true hm)]

/-- The arg-max pair fold from (0, 0) over the pairs (g n, n), n below N, N at most 2^31. -/
theorem argmax_foldl (g : Nat → BitVec 1) :
    ∀ N : Nat, N ≤ 2 ^ 31 →
      Inv g N ((List.finRange N).foldl (fun r (n : Fin N) => argmaxStep r (g n.val, BitVec.ofNat 32 n.val)) (0#1, 0#32))
  | 0, _ => by
    rw [List.finRange_zero, List.foldl_nil]
    exact Or.inl ⟨fun n hn => absurd hn (Nat.not_lt_zero n), rfl⟩
  | N + 1, hN => by
    rw [List.finRange_succ_last, List.foldl_append, List.foldl_map, List.foldl_cons, List.foldl_nil]
    exact inv_step g N (by omega) _ (argmax_foldl g N (by omega))

/-! ## Word arithmetic -/

/-- `131071 - m + 1` in 32-bit words is the number, for `m` below 131072. -/
theorem sub_add_word (m : Nat) (hm : m < 131072) :
    IntOp.addi (IntOp.subi 131071#32 (BitVec.ofNat 32 m)) 1#32 = BitVec.ofNat 32 (131071 - m + 1) := by
  apply BitVec.eq_of_toNat_eq
  simp only [IntOp.addi, IntOp.subi, BitVec.toNat_add, BitVec.toNat_sub, BitVec.toNat_ofNat]
  omega

/-- The signed "less than" test of a column number against a count, both at most 131072, as a 1-bit word. -/
theorem cmpi_slt_ofNat (c k : Nat) (hc : c < 131072) (hk : k ≤ 131072) :
    IntOp.cmpi .slt (BitVec.ofNat 32 c) (BitVec.ofNat 32 k) = if c < k then 1#1 else 0#1 := by
  unfold IntOp.cmpi
  show BitVec.ofBool ((BitVec.ofNat 32 c).slt (BitVec.ofNat 32 k)) = _
  rw [slt_ofNat (by omega) (by omega)]
  by_cases h : c < k
  · rw [if_pos h, decide_eq_true h]; rfl
  · rw [if_neg h, decide_eq_false h]; rfl

end Cert.RefFold
-- ==== Proof.RefValue.lean ====
/-
  The reference's result term at the ideal values is the specification: `out x = trimmed x`.

  Read piece by piece. A column's OR over the rows of "the entry is not zero" is 1 exactly when the column is live;
  the OR over all columns is 1 exactly when some column is live. The pair reduce over the reversed row and its iota is
  the arg-max fold over the positions 0, 1, …, 131071 of the reversed row, so its index is the least position m whose
  reversed entry is 1: the last live column is 131071 - m, and `131071 - m + 1` is one past it, the number of columns
  kept; with no live column the select takes 131072. So the computed word is `keep x`. The signed test of a column
  number against it is the comparison of the numbers (both are far below 2^31), its conversion is 1 or 0, and the
  product with `x` is `x` before column `keep x` and 0 from there on (on the extended reals `a * 1 = a` and
  `a * 0 = 0` for every `a`).
-/
import proofs.«148527_j58789512348330_2_alg».proof.Proof.RefTerm
import proofs.«148527_j58789512348330_2_alg».proof.Proof.RefFold
import proofs.«148527_j58789512348330_2_alg».proof.Proof.TrimSpec
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open Cert.Trim Cert.RefFold

/-! ## The columns' bits -/

/-- The test "differs from the constant 0.0" at an index. -/
theorem une_zero_apply (x : SX.Idx → EReal) (i : SX.Idx) :
    (cmpf (F := Ideal) .une x (broadcastInDim S1024x131072 ![] bcast_S_S1024x131072 (constant S_ .f32 0x00000000#32))) i = 1#1
      ↔ x i ≠ 0 := by
  show BitVec.ofBool (decide (x i ≠ Ideal.ofBits .f32 0x00000000#32)) = 1#1 ↔ x i ≠ 0
  rw [Ideal.ofBits_zero_f32]
  by_cases h : x i = 0 <;> simp [h]

/-- A source index drops to column `c` exactly when its column coordinate is `c`. -/
theorem drop_val (i : SX.Idx) : ((reducesTo_S1024x131072_S131072_d0.drop i) (0 : Fin 1)).val = (i 1).val :=
  Shape.ReducesTo.drop_apply_val_of_eq reducesTo_S1024x131072_S131072_d0 i (0 : Fin 1) (1 : Fin 2)

/-- A column's bit is 1 exactly when the column is live. -/
theorem colAny_eq_one_iff (x : SX.Idx → EReal) (c : Fin 131072) :
    colAny (F := Ideal) x (ix1 c) = 1#1 ↔ live x c := by
  unfold colAny
  rw [reduce_ori_eq_one_iff (hinit := rfl)]
  constructor
  · rintro ⟨i, hi, hx⟩
    have h1 : (i 1).val = c.val := by
      have e := drop_val i
      rw [hi] at e
      exact e.symm
    have e : i = ix2 (i 0) c := by
      funext a
      match a with
      | ⟨0, _⟩ => rfl
      | ⟨1, _⟩ => exact Fin.ext h1
    have hxi : x i ≠ 0 := (une_zero_apply x i).1 hx
    exact ⟨i 0, fun h0 => hxi ((congrArg x e).trans h0)⟩
  · rintro ⟨r, hr⟩
    refine ⟨ix2 r c, ?_, (une_zero_apply x (ix2 r c)).2 hr⟩
    funext b
    match b with
    | ⟨0, _⟩ => exact Fin.ext (drop_val (ix2 r c))

/-- The OR over all columns is 1 exactly when some column is live. -/
theorem anyCol_eq_one_iff (x : SX.Idx → EReal) (j : S_.Idx) :
    anyCol (F := Ideal) x j = 1#1 ↔ ∃ c, live x c := by
  unfold anyCol
  rw [reduce_ori_eq_one_iff (hinit := rfl)]
  constructor
  · rintro ⟨i, -, hx⟩
    exact ⟨i 0, (colAny_eq_one_iff x (i 0)).1 ((congrArg (fun k => colAny (F := Ideal) x k) (eq_ix1 i)).symm.trans hx)⟩
  · rintro ⟨c, hc⟩
    exact ⟨ix1 c, funext fun a => a.elim0, (colAny_eq_one_iff x c).2 hc⟩

/-! ## The pair reduce over the reversed row -/

/-- The reversed row of column bits as a function of the position number (0 beyond the width). -/
def gRev (x : SX.Idx → EReal) (k : Nat) : BitVec 1 :=
  if h : k < 131072 then colAny (F := Ideal) x (ix1 (⟨131071 - k, by omega⟩ : Fin 131072)) else 0#1

theorem gRev_of_lt (x : SX.Idx → EReal) (k : Nat) (h : k < 131072) :
    gRev x k = colAny (F := Ideal) x (ix1 (⟨131071 - k, by omega⟩ : Fin 131072)) := dif_pos h

/-- The reversed row at the position of column `c`. -/
theorem gRev_rev (x : SX.Idx → EReal) (c : Fin 131072) : gRev x (131071 - c.val) = colAny (F := Ideal) x (ix1 c) := by
  rw [gRev_of_lt x _ (by omega)]
  exact congrArg (fun k : Fin 131072 => colAny (F := Ideal) x (ix1 k)) (Fin.ext (by show 131071 - (131071 - c.val) = c.val; omega))

theorem numel_row : S131072.numel = 131072 := Shape.numel_rank1 _

/-- The printed reducer is the arg-max step. -/
theorem reducer_eq : reducer_argmax_i1_i32 = argmaxStep := rfl

/-- The reversed row read at a row-major position. -/
theorem reverse_at (x : SX.Idx → EReal) (n : Fin S131072.numel) :
    Host.reverse [0] (colAny (F := Ideal) x) (S131072.rowMajor.symm n) = gRev x n.val := by
  have hv : ((S131072.rowMajor.symm n) 0).val = n.val := rowMajor_symm_val_one n
  have hn : n.val < 131072 := hv ▸ ((S131072.rowMajor.symm n) 0).isLt
  rw [gRev_of_lt x _ hn]
  unfold Host.reverse
  refine congrArg (colAny (F := Ideal) x) (funext fun a => ?_)
  match a with
  | ⟨0, _⟩ =>
    apply Fin.ext
    show (Fin.rev ((S131072.rowMajor.symm n) 0)).val = 131071 - n.val
    rw [Fin.val_rev, hv]
    show 131072 - (n.val + 1) = 131071 - n.val
    omega

/-- The iota read at a row-major position. -/
theorem iota_at (n : Fin S131072.numel) : iotaInDim S131072 32 0 (S131072.rowMajor.symm n) = BitVec.ofNat 32 n.val :=
  congrArg (BitVec.ofNat 32) (rowMajor_symm_val_one n)

/-- The arg-max fold over the reversed row's positions. -/
def revFold (x : SX.Idx → EReal) : BitVec 1 × BitVec 32 :=
  (List.finRange S131072.numel).foldl (fun r (n : Fin S131072.numel) => argmaxStep r (gRev x n.val, BitVec.ofNat 32 n.val)) (0#1, 0#32)

/-- The printed step at a position is the arg-max step on the reversed row's bit and the position number. -/
theorem step_eq (x : SX.Idx → EReal) :
    (fun (r : BitVec 1 × BitVec 32) (n : Fin S131072.numel) =>
        reducer_argmax_i1_i32 r (Host.reverse [0] (colAny (F := Ideal) x) (S131072.rowMajor.symm n), iotaInDim S131072 32 0 (S131072.rowMajor.symm n)))
      = fun r n => argmaxStep r (gRev x n.val, BitVec.ofNat 32 n.val) :=
  funext fun r => funext fun n => congrArg₂ (fun a b => argmaxStep r (a, b)) (reverse_at x n) (iota_at n)

/-- The pair reduce over the reversed row and its iota is that fold. -/
theorem pair_eq (x : SX.Idx → EReal) (j : S_.Idx) : pairRed (F := Ideal) x j = revFold x :=
  (pairRed_def (F := Ideal) x j).trans
    ((reduce2_total _ _ _ _ _ _ _ rfl j).trans
      (congrArg (fun f => List.foldl f ((0#1, 0#32) : BitVec 1 × BitVec 32) (List.finRange S131072.numel)) (step_eq x)))

/-- The pair reduce's index result is the fold's second component. -/
theorem firstRev_eq (x : SX.Idx → EReal) (j : S_.Idx) : firstRev (F := Ideal) x j = (revFold x).2 :=
  (congrFun (firstRev_fun (F := Ideal) x) j).trans (congrArg Prod.snd (pair_eq x j))

/-- The arg-max fold's invariant holds of the fold after all 131072 positions. -/
theorem revFold_inv (x : SX.Idx → EReal) : Inv (gRev x) 131072 (revFold x) :=
  Inv_of_eq numel_row (argmax_foldl (gRev x) S131072.numel (by rw [numel_row]; norm_num))

/-! ## The kept count as a word -/

/-- The computed word is `keep x`. -/
theorem keepW_eq (x : SX.Idx → EReal) (j : S_.Idx) : keepW (F := Ideal) x j = BitVec.ofNat 32 (keep x) := by
  have hinv := revFold_inv x
  have hr := firstRev_eq x j
  generalize revFold x = r at hinv hr
  show Scalar.select (anyCol (F := Ideal) x j) (IntOp.addi (IntOp.subi 131071#32 (firstRev (F := Ideal) x j)) 1#32) 131072#32 = _
  by_cases hl : ∃ c, live x c
  · rw [(anyCol_eq_one_iff x j).2 hl, select_one, hr]
    rcases hinv with ⟨h0, -⟩ | ⟨m, hm, hg, hlt, rfl⟩
    · obtain ⟨c, hc⟩ := hl
      have h1 := (colAny_eq_one_iff x c).2 hc
      rw [← gRev_rev, h0 _ (by omega)] at h1
      exact absurd h1 (by decide)
    · have hc : live x (⟨131071 - m, by omega⟩ : Fin 131072) :=
        (colAny_eq_one_iff x _).1 ((gRev_of_lt x m hm).symm.trans hg)
      have hlast : ∀ c' : Fin 131072, live x c' → c' ≤ (⟨131071 - m, by omega⟩ : Fin 131072) := by
        intro c' hc'
        by_contra hgt
        have hgt' : 131071 - m < c'.val := Nat.lt_of_not_le hgt
        have h1 := (colAny_eq_one_iff x c').2 hc'
        rw [← gRev_rev, hlt _ (by omega)] at h1
        exact absurd h1 (by decide)
      rw [keep_of_last x _ hc hlast]
      exact sub_add_word m hm
  · rw [bit_ne_one (mt (anyCol_eq_one_iff x j).1 hl), select_zero, keep_of_none x (fun c hc => hl ⟨c, hc⟩)]

/-! ## The factors and the product -/

/-- The row of factors: 1 before column `keep x`, 0 from there on. -/
theorem mask_apply (x : SX.Idx → EReal) (c : Fin 131072) :
    mask (F := Ideal) x (ix1 c) = if c.val < keep x then 1 else 0 := by
  show FloatOps.uitofp (F := Ideal) .f32 (IntOp.cmpi .slt (BitVec.ofNat 32 c.val) (keepW (F := Ideal) x _)) = _
  rw [keepW_eq, cmpi_slt_ofNat _ _ c.isLt (keep_le x)]
  by_cases h : c.val < keep x
  · rw [if_pos h, if_pos h]
    show (((1 : Nat) : ℝ) : EReal) = 1
    simp
  · rw [if_neg h, if_neg h]
    show (((0 : Nat) : ℝ) : EReal) = 0
    simp

/-- A row laid along every row of the matrix, through the one-row matrix, read at (r, c), is the row at c. -/
theorem bcast_rows_apply {α : Type} (y : S131072.Idx → α) (r : Fin 1024) (c : Fin 131072) :
    broadcastInDim S1024x131072 ![0, 1] bcast_S1x131072_S1024x131072_0_1
      (broadcastInDim S1x131072 ![1] bcast_S131072_S1x131072_1 y) (ix2 r c) = y (ix1 c) := by
  unfold broadcastInDim
  refine congrArg y (funext fun a => ?_)
  match a with
  | ⟨0, _⟩ => rfl

/-- The reference's result term is the specification. -/
theorem out_eq_trimmed (x : SX.Idx → EReal) : out (F := Ideal) x = trimmed x := by
  have key : ∀ (r : Fin 1024) (c : Fin 131072), out (F := Ideal) x (ix2 r c) = trimmed x (ix2 r c) := by
    intro r c
    show x (ix2 r c) * (broadcastInDim S1024x131072 ![0, 1] bcast_S1x131072_S1024x131072_0_1
      (broadcastInDim S1x131072 ![1] bcast_S131072_S1x131072_1 (mask (F := Ideal) x))) (ix2 r c) = _
    rw [bcast_rows_apply, mask_apply, trimmed_apply]
    by_cases h : c.val < keep x
    · rw [if_pos h, if_pos h, mul_one]
    · rw [if_neg h, if_neg h, mul_zero]
  funext i
  exact (congrArg (out (F := Ideal) x) (eq_ix2 i)).trans ((key (i 0) (i 1)).trans (congrArg (trimmed x) (eq_ix2 i)).symm)

end Cert.ReferenceIdeal.RefValue

end
-- ==== Proof.RefValueRun.lean ====
/-
  The reference's run and value together: from any memory with zero counters every weakly fair execution of the
  reference's @main on the ideal values terminates with the result buffer at `trimmed` of the argument's launch contents
  — the argument on the columns before one past its last live column, zero from there on — and the argument unchanged.
  The run gives the operations' composed term of the argument; the value proof says that term is `trimmed`.
-/
import proofs.«148527_j58789512348330_2_alg».proof.Proof.RefRun
import proofs.«148527_j58789512348330_2_alg».proof.Proof.RefValue

noncomputable section

namespace Cert.ReferenceIdeal.RefValue

open Cert.ReferenceIdeal Cert.ReferenceIdeal.Gen Idealize.ShloMosaic Idealize.ShloMosaic.TcCoe Idealize.SL.Sem

theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v15) = Cert.Trim.trimmed (m ((c.tc : Thread nD τ).loc main_arg0))
        ∧ r.2.mem ((c.tc : Thread nD τ).loc main_arg0) = m ((c.tc : Thread nD τ).loc main_arg0)) :=
  (θ_run Cert.ReferenceIdeal.defs _ _).mono
    (fun _ h c => ⟨(h c).1.trans (out_eq_trimmed _), (h c).2⟩)
    (Cert.ReferenceIdeal.RefRun.run (F := Ideal) m ρ)

end Cert.ReferenceIdeal.RefValue

end
-- ==== Proof.lean ====
/-
  The certificate of the column-trimming kernel against its reference.

  Both programs take `x` of shape [1024, 131072]. A column is live when some row holds a nonzero entry there; `keep x` is one
  past the last live column (the whole width when there is none), and `trimmed x` is `x` with every column from `keep x` on
  set to zero (Proof/TrimSpec.lean). The reference multiplies `x` by the 0/1 row "column < keep"; the kernel program finds the
  live columns in a first pass, computes `keep x` on the host, and in a second pass leaves the tiles before `keep x` alone,
  overwrites the tiles from it on with zeros and multiplies the one straddling tile by its 0/1 row. From `keep x` on, `x`
  is itself zero, so both results are `trimmed x`, whatever extended reals `x` holds: the precondition is never opened.

  The three frames: each kernel program's run (Proof/Kernel/Frame.lean at the word level, Proof/KernelIdeal/Frame.lean at the
  exact instance: @main as a chain of its items, the two kernel regions as segments between the host operations' thread
  states) with the result forgotten; the reference's run with the result forgotten. The kernel's idealization rewrote no
  operation. The two results are one function of the argument (Proof/KernelIdeal/Value.lean, Proof/RefValueRun.lean).
-/
import proofs.«148527_j58789512348330_2_alg».proof.Defs
import proofs.«148527_j58789512348330_2_alg».proof.Proof.Gen.Kernel
import proofs.«148527_j58789512348330_2_alg».proof.Proof.Gen.KernelIdeal
import proofs.«148527_j58789512348330_2_alg».proof.Proof.Gen.ReferenceIdeal
import proofs.«148527_j58789512348330_2_alg».proof.Proof.Gen.Pre_finite_inputs
import proofs.«148527_j58789512348330_2_alg».proof.Proof.Kernel.Frame
import proofs.«148527_j58789512348330_2_alg».proof.Proof.KernelIdeal.Value
import proofs.«148527_j58789512348330_2_alg».proof.Proof.RefValueRun

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the trimmed argument. -/
theorem algebraic : Cert.algebraic_KernelIdeal_ReferenceIdeal := by
  intro m ρ m' ρ' _ hagree
  refine ⟨fun c => Cert.Trim.trimmed (m ((c.tc : Thread Cert.KernelIdeal.nD Cert.KernelIdeal.τ).loc Cert.KernelIdeal.main_arg0)),
    Cert.KernelIdeal.Hand.run_trimmed m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
